-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x8 : Shape := ⟨2, ![1600000, 8]⟩
abbrev S32x64 : Shape := ⟨2, ![32, 64]⟩
abbrev S64 : Shape := ⟨1, ![64]⟩
abbrev S64x64 : Shape := ⟨2, ![64, 64]⟩
abbrev S136x64 : Shape := ⟨2, ![136, 64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S136x64 : S_.BroadcastsInDim S136x64 (![] : Fin 0 → Fin S136x64.rank)
  reducesTo_S136x64_S_d0_1 : S136x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S136x64 .f32) (main_arg9 : FVec F S64 .f32) (main_arg10 : FVec F S64x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S136x64 .f32 := Host.absf main_arg8
  let main_cst_14 : FVec F S_ .f32 := constant S_ .f32 0x7F800000#32
  let main_v40 : FVec F S136x64 .f32 := broadcastInDim S136x64 ![] bcast_S_S136x64 main_cst_14
  let main_v41 : IVec S136x64 1 := cmpf .olt main_v39 main_v40
  let main_c_15 : IVec S_ 1 := constantI S_ 1 1#1
  let main_v42 : IVec S_ 1 := (fun x v => Host.reduce IntOp.andi x v reducesTo_S136x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S136x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x32 .f32) (main_arg1 : FVec F S1600000x8 .f32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S136x64 .f32) (main_arg9 : FVec F S64 .f32) (main_arg10 : FVec F S64x1 .f32) (main_arg11 : FVec F S1 .f32) (main_arg12 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x8 .f32 := Host.absf main_arg1
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x32 : Shape := ⟨2, ![100000, 32]⟩
abbrev S1600000x8 : Shape := ⟨2, ![1600000, 8]⟩
abbrev S32x64 : Shape := ⟨2, ![32, 64]⟩
abbrev S64 : Shape := ⟨1, ![64]⟩
abbrev S64x64 : Shape := ⟨2, ![64, 64]⟩
abbrev S136x64 : Shape := ⟨2, ![136, 64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S10000x32 : Shape := ⟨2, ![10000, 32]⟩
abbrev S10000x64 : Shape := ⟨2, ![10000, 64]⟩
abbrev S1x64 : Shape := ⟨2, ![1, 64]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1600000x1 : Shape := ⟨2, ![1600000, 1]⟩
abbrev S1600000x64 : Shape := ⟨2, ![1600000, 64]⟩
abbrev S1600000x136 : Shape := ⟨2, ![1600000, 136]⟩
abbrev S12800x136 : Shape := ⟨2, ![12800, 136]⟩
abbrev S12800x1 : Shape := ⟨2, ![12800, 1]⟩
abbrev S12800x64 : Shape := ⟨2, ![12800, 64]⟩
abbrev S1x1 : Shape := ⟨2, ![1, 1]⟩

abbrev nBuf : Space → Nat
  | .hbm => 159
  | .vmem => 26
  | .smem => 0
  | _ => 0

abbrev hbmTy0_0 (i : Nat) : BufTy := match i % 128 with
  | 0 => ⟨S100000x32, .f32⟩
  | 1 => ⟨S1600000x8, .f32⟩
  | 2 => ⟨S32x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S136x64, .f32⟩
  | 9 => ⟨S64, .f32⟩
  | 10 => ⟨S64x1, .f32⟩
  | 11 => ⟨S1, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S_, .f32⟩
  | 19 => ⟨S64, .f32⟩
  | 20 => ⟨S100000x64, .f32⟩
  | 21 => ⟨S100000, .i32⟩
  | 22 => ⟨S1700000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S100000, .i32⟩
  | 81 => ⟨S1700000, .i32⟩
  | 82 => ⟨S1700000, .i32⟩
  | 83 => ⟨S_, .f32⟩
  | 84 => ⟨S1700000, .f32⟩
  | 85 => ⟨S_, .f32⟩
  | 86 => ⟨S100000, .f32⟩
  | 87 => ⟨S1700000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x64, .f32⟩
  | 125 => ⟨S1700000x1, .f32⟩
  | 126 => ⟨S1700000x64, .f32⟩
  | 127 => ⟨S1700000x64, .f32⟩
  | _ => ⟨S100000x32, .f32⟩

abbrev hbmTy0_1 (i : Nat) : BufTy := match i % 128 with
  | 0 => ⟨S_, .f32⟩
  | 1 => ⟨S100000x64, .f32⟩
  | 2 => ⟨S1700000x1, .i32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x136, .f32⟩
  | 29 => ⟨S1600000x1, .f32⟩
  | 30 => ⟨S1600000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | .local _ .vmem, ⟨18, _⟩ => ⟨S12800x136, .f32⟩
  | .local _ .vmem, ⟨19, _⟩ => ⟨S12800x136, .f32⟩
  | .local _ .vmem, ⟨20, _⟩ => ⟨S136x64, .f32⟩
  | .local _ .vmem, ⟨21, _⟩ => ⟨S64, .f32⟩
  | .local _ .vmem, ⟨22, _⟩ => ⟨S64x1, .f32⟩
  | .local _ .vmem, ⟨23, _⟩ => ⟨S1, .f32⟩
  | .local _ .vmem, ⟨24, _⟩ => ⟨S12800x1, .f32⟩
  | .local _ .vmem, ⟨25, _⟩ => ⟨S12800x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_c_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_c_17 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_c_19 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_20 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call3_cst : Ref sig .tc := ⟨.hbm, 135, rfl⟩
abbrev main_call3_v0 : Ref sig .tc := ⟨.hbm, 136, rfl⟩
abbrev main_v93 : Ref sig .tc := ⟨.hbm, 137, rfl⟩
abbrev main_c_21 : Ref sig .tc := ⟨.hbm, 138, rfl⟩
abbrev main_v94 : Ref sig .tc := ⟨.hbm, 139, rfl⟩
abbrev main_v95 : Ref sig .tc := ⟨.hbm, 140, rfl⟩
abbrev main_c_22 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_23 : Ref sig .tc := ⟨.hbm, 147, rfl⟩
abbrev main_v101 : Ref sig .tc := ⟨.hbm, 148, rfl⟩
abbrev main_v102 : Ref sig .tc := ⟨.hbm, 149, rfl⟩
abbrev main_c_24 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12800x136 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S136x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S12800x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S64 : S_.BroadcastsInDim S64 (![] : Fin 0 → Fin S64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64_S64 : S64.ShapeCasts S64
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x8_S1600000x136_d1 : Shape.Concatenates [S1600000x64, S1600000x64, S1600000x8] S1600000x136 1
  inb_S12800x136_S12800x136_0_0 : ∀ a, (![0, 0] : Fin 2 → Nat) a + S12800x136.size a ≤ S12800x136.size a
  h_S12800x136 : 0 < S12800x136.numel
  shapeCasts_S12800x136_S12800x136 : S12800x136.ShapeCasts S12800x136
  inb_S136x64_S136x64_0_0 : ∀ a, (![0, 0] : Fin 2 → Nat) a + S136x64.size a ≤ S136x64.size a
  h_S136x64 : 0 < S136x64.numel
  broadcasts_S1x64_S12800x64 : S1x64.Broadcasts S12800x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S12800x1 : S1x1.Broadcasts S12800x1
  inb_S12800x1_S12800x1_0_0 : ∀ a, (![0, 0] : Fin 2 → Nat) a + S12800x1.size a ≤ S12800x1.size a
  h_S12800x1 : 0 < S12800x1.numel
  shapeCasts_S1600000x1_S1600000 : S1600000x1.ShapeCasts S1600000
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S12800x136_S136x64_S12800x64_1_0_0_1_n_n_wf : DotDims.WF S12800x136 S136x64 S12800x64 [1] [0] [0] [1] [] []
  dot_S12800x64_S64x1_S12800x1_1_0_0_1_n_n_wf : DotDims.WF S12800x64 S64x1 S12800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12800x136.size a ≤ S1600000x136.size a
  hwx3_0 : ∀ i : grid3.Coords, EltTy.bits .f32 = 32 ∨ (Rect.block (s := S1600000x136) S12800x136.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S136x64.size a ≤ S136x64.size a
  hwx3_1 : ∀ i : grid3.Coords, EltTy.bits .f32 = 32 ∨ (Rect.block (s := S136x64) S136x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S12800x1.size a ≤ S1600000x1.size a
  hwx3_5 : ∀ i : grid3.Coords, EltTy.bits .f32 = 32 ∨ (Rect.block (s := S1600000x1) S12800x1.size (cc3_transform_5 i) (hinb3_5 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S12800x136_S136x64_S12800x64_1_0_0_1_n_n : DotDims S12800x136 S136x64 S12800x64 where
  lhsContracting := [1]
  rhsContracting := [0]
  lhsNonContracting := [0]
  rhsNonContracting := [1]
  lhsBatch := []
  rhsBatch := []
  wf := dot_S12800x136_S136x64_S12800x64_1_0_0_1_n_n_wf
def dot_S12800x64_S64x1_S12800x1_1_0_0_1_n_n : DotDims S12800x64 S64x1 S12800x1 where
  lhsContracting := [1]
  rhsContracting := [0]
  lhsNonContracting := [0]
  rhsNonContracting := [1]
  lhsBatch := []
  rhsBatch := []
  wf := dot_S12800x64_S64x1_S12800x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v108) S12800x136.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S136x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v109) S12800x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x32 : Shape := ⟨2, ![100000, 32]⟩
abbrev S1600000x8 : Shape := ⟨2, ![1600000, 8]⟩
abbrev S32x64 : Shape := ⟨2, ![32, 64]⟩
abbrev S64 : Shape := ⟨1, ![64]⟩
abbrev S64x64 : Shape := ⟨2, ![64, 64]⟩
abbrev S136x64 : Shape := ⟨2, ![136, 64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1600000x1 : Shape := ⟨2, ![1600000, 1]⟩
abbrev S1600000x64 : Shape := ⟨2, ![1600000, 64]⟩
abbrev S1600000x136 : Shape := ⟨2, ![1600000, 136]⟩
abbrev S1x1 : Shape := ⟨2, ![1, 1]⟩

abbrev nBuf : Space → Nat
  | .hbm => 173
  | .vmem => 0
  | .smem => 0
  | _ => 0

abbrev hbmTy0_0 (i : Nat) : BufTy := match i % 128 with
  | 0 => ⟨S100000x32, .f32⟩
  | 1 => ⟨S1600000x8, .f32⟩
  | 2 => ⟨S32x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S136x64, .f32⟩
  | 9 => ⟨S64, .f32⟩
  | 10 => ⟨S64x1, .f32⟩
  | 11 => ⟨S1, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S100000, .i32⟩
  | 26 => ⟨S1700000, .i32⟩
  | 27 => ⟨S1700000, .i32⟩
  | 28 => ⟨S_, .f32⟩
  | 29 => ⟨S1700000, .f32⟩
  | 30 => ⟨S_, .f32⟩
  | 31 => ⟨S100000, .f32⟩
  | 32 => ⟨S1700000x1, .i32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x64, .f32⟩
  | 70 => ⟨S1700000x1, .f32⟩
  | 71 => ⟨S1700000x64, .f32⟩
  | 72 => ⟨S1700000x64, .f32⟩
  | 73 => ⟨S_, .f32⟩
  | 74 => ⟨S100000x64, .f32⟩
  | 75 => ⟨S1700000x1, .i32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000, .i32⟩
  | 85 => ⟨S1700000, .i32⟩
  | 86 => ⟨S1700000, .i32⟩
  | 87 => ⟨S_, .f32⟩
  | 88 => ⟨S1700000, .f32⟩
  | 89 => ⟨S_, .f32⟩
  | 90 => ⟨S100000, .f32⟩
  | 91 => ⟨S1700000x1, .i32⟩
  | 92 => ⟨S100000, .f32⟩
  | 93 => ⟨S_, .f32⟩
  | 94 => ⟨S100000, .f32⟩
  | 95 => ⟨S100000, .i1⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000, .f32⟩
  | 119 => ⟨S1700000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x32, .f32⟩

abbrev hbmTy0_1 (i : Nat) : BufTy := match i % 128 with
  | 0 => ⟨S1700000x64, .f32⟩
  | 1 => ⟨S1700000x1, .f32⟩
  | 2 => ⟨S1700000x64, .f32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x136, .f32⟩
  | 33 => ⟨S1600000x64, .f32⟩
  | 34 => ⟨S1x64, .f32⟩
  | 35 => ⟨S1600000x64, .f32⟩
  | 36 => ⟨S1600000x64, .f32⟩
  | 37 => ⟨S_, .f32⟩
  | 38 => ⟨S1600000x64, .f32⟩
  | 39 => ⟨S1600000x64, .f32⟩
  | 40 => ⟨S1600000x1, .f32⟩
  | 41 => ⟨S1x1, .f32⟩
  | 42 => ⟨S1600000x1, .f32⟩
  | 43 => ⟨S1600000x1, .f32⟩
  | 44 => ⟨S1600000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call2_cst : Ref sig .tc := ⟨.hbm, 80, rfl⟩
abbrev main_call2_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_call3_v0 : Ref sig .tc := ⟨.hbm, 98, rfl⟩
abbrev main_call3_v1 : Ref sig .tc := ⟨.hbm, 99, rfl⟩
abbrev main_v64 : Ref sig .tc := ⟨.hbm, 100, rfl⟩
abbrev main_c_13 : Ref sig .tc := ⟨.hbm, 101, rfl⟩
abbrev main_v65 : Ref sig .tc := ⟨.hbm, 102, rfl⟩
abbrev main_v66 : Ref sig .tc := ⟨.hbm, 103, rfl⟩
abbrev main_c_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_15 : Ref sig .tc := ⟨.hbm, 110, rfl⟩
abbrev main_v72 : Ref sig .tc := ⟨.hbm, 111, rfl⟩
abbrev main_v73 : Ref sig .tc := ⟨.hbm, 112, rfl⟩
abbrev main_c_16 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_17 : Ref sig .tc := ⟨.hbm, 120, rfl⟩
abbrev main_v80 : Ref sig .tc := ⟨.hbm, 121, rfl⟩
abbrev main_v81 : Ref sig .tc := ⟨.hbm, 122, rfl⟩
abbrev main_c_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_19 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_call4_cst : Ref sig .tc := ⟨.hbm, 139, rfl⟩
abbrev main_call4_v0 : Ref sig .tc := ⟨.hbm, 140, rfl⟩
abbrev main_v96 : Ref sig .tc := ⟨.hbm, 141, rfl⟩
abbrev main_c_20 : Ref sig .tc := ⟨.hbm, 142, rfl⟩
abbrev main_v97 : Ref sig .tc := ⟨.hbm, 143, rfl⟩
abbrev main_v98 : Ref sig .tc := ⟨.hbm, 144, rfl⟩
abbrev main_c_21 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_22 : Ref sig .tc := ⟨.hbm, 151, rfl⟩
abbrev main_v104 : Ref sig .tc := ⟨.hbm, 152, rfl⟩
abbrev main_v105 : Ref sig .tc := ⟨.hbm, 153, rfl⟩
abbrev main_c_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_call5_cst : Ref sig .tc := ⟨.hbm, 165, rfl⟩
abbrev main_call5_v0 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x8_S1600000x136_d1 : Shape.Concatenates [S1600000x64, S1600000x64, S1600000x8] S1600000x136 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S1600000x136_S136x64_S1600000x64_1_0_0_1_n_n_wf : DotDims.WF S1600000x136 S136x64 S1600000x64 [1] [0] [0] [1] [] []
  dot_S1600000x64_S64x1_S1600000x1_1_0_0_1_n_n_wf : DotDims.WF S1600000x64 S64x1 S1600000x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x136_S136x64_S1600000x64_1_0_0_1_n_n : DotDims S1600000x136 S136x64 S1600000x64 where
  lhsContracting := [1]
  rhsContracting := [0]
  lhsNonContracting := [0]
  rhsNonContracting := [1]
  lhsBatch := []
  rhsBatch := []
  wf := dot_S1600000x136_S136x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.K.Body0.lean ====
import proofs.«147518_j83124797046831_1_alg».proof.Proof.Gen.Kernel.Launch
import proofs.«147518_j83124797046831_1_alg».proof.Proof.Gen.Kernel.Skeleton
import proofs.«147518_j83124797046831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 0: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point its staging buffer holds the point's block, whether the block was fetched
    there or kept from the point before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: at every point its staging buffer holds the point's block, whether the block was fetched
    there or kept from the point before (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: at every point its staging buffer holds the point's block, whether the block was fetched
    there or kept from the point before (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: the one store, over the whole block, of the body's value of the input blocks. -/
def out0 (x0 : Vec F S10000x32 .f32) (x1 : Vec F S32x64 .f32) (x2 : Vec F S64 .f32) : Vec F S10000x64 .f32 :=
  View.canon [⟨(Rect.unit (s := S10000x64) ![0, 0] S10000x64.size inb_S10000x64_S10000x64_0_0), k0_pay1 (View.ld x0 (Rect.unit (s := S10000x32) ![0, 0] S10000x32.size inb_S10000x32_S10000x32_0_0)) (View.ld x1 (Rect.unit (s := S32x64) ![0, 0] S32x64.size inb_S32x64_S32x64_0_0)) (View.ld x2 (Rect.unit (s := S64) ![0] S64.size inb_S64_S64_0))⟩]

/-- The one store covers the output block. -/
theorem cover0 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers, the inputs holding `x`, the output anything: it ends with the inputs as they
    were and the output at `out0` of the inputs. -/
theorem sound_kernel0 (c : Dev nD) (E : Set ℕ) (i : grid0.Coords) (arg1 : Memref sig .tc .vmem S10000x32 .f32) (harg1 : arg1.IsWhole) (arg2 : Memref sig .tc .vmem S32x64 .f32) (harg2 : arg2.IsWhole) (arg3 : Memref sig .tc .vmem S64 .f32) (harg3 : arg3.IsWhole) (arg4 : Memref sig .tc .vmem S10000x64 .f32) (harg4 : arg4.IsWhole)
    (x0 : Vec F S10000x32 .f32) (x1 : Vec F S32x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of the region on core `c`: the arrays as found; after the body at point `t` each input buffer at
    its block and the output buffer at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«147518_j83124797046831_1_alg».proof.Proof.Gen.Kernel.Launch
import proofs.«147518_j83124797046831_1_alg».proof.Proof.Gen.Kernel.Skeleton
import proofs.«147518_j83124797046831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 1: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every point its staging buffer holds the point's block, whether the block was fetched
    there or kept from the point before (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: at every point its staging buffer holds the point's block, whether the block was fetched
    there or kept from the point before (then the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: at every point its staging buffer holds the point's block, whether the block was fetched
    there or kept from the point before (then the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: the one store, over the whole block, of the body's value of the input blocks. -/
def out1 (x0 : Vec F S10000x64 .f32) (x1 : Vec F S64x64 .f32) (x2 : Vec F S64 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover1 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers, the inputs holding `x`, the output anything: it ends with the inputs as they
    were and the output at `out1` of the inputs. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .f32) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the region on core `c`: the arrays as found; after the body at point `t` each input buffer at
    its block and the output buffer at `out1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«147518_j83124797046831_1_alg».proof.Proof.Gen.Kernel.Launch
import proofs.«147518_j83124797046831_1_alg».proof.Proof.Gen.Kernel.Skeleton
import proofs.«147518_j83124797046831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 2: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every point its staging buffer holds the point's block, whether the block was fetched
    there or kept from the point before (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: at every point its staging buffer holds the point's block, whether the block was fetched
    there or kept from the point before (then the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: at every point its staging buffer holds the point's block, whether the block was fetched
    there or kept from the point before (then the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: the one store, over the whole block, of the body's value of the input blocks. -/
def out2 (x0 : Vec F S10000x64 .f32) (x1 : Vec F S64x64 .f32) (x2 : Vec F S64 .f32) : Vec F S10000x64 .f32 :=
  View.canon [⟨(Rect.unit (s := S10000x64) ![0, 0] S10000x64.size inb_S10000x64_S10000x64_0_0), k2_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover2 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers, the inputs holding `x`, the output anything: it ends with the inputs as they
    were and the output at `out2` of the inputs. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .f32) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of the region on core `c`: the arrays as found; after the body at point `t` each input buffer at
    its block and the output buffer at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
import proofs.«147518_j83124797046831_1_alg».proof.Proof.Gen.Kernel.Launch
import proofs.«147518_j83124797046831_1_alg».proof.Proof.Gen.Kernel.Skeleton
import proofs.«147518_j83124797046831_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 3: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: at every point its staging buffer holds the point's block, whether the block was fetched
    there or kept from the point before (then the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: at every point its staging buffer holds the point's block, whether the block was fetched
    there or kept from the point before (then the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: at every point its staging buffer holds the point's block, whether the block was fetched
    there or kept from the point before (then the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: at every point its staging buffer holds the point's block, whether the block was fetched
    there or kept from the point before (then the block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4: at every point its staging buffer holds the point's block, whether the block was fetched
    there or kept from the point before (then the block index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one store, over the whole block, of the body's value of the input blocks. -/
def out3 (x0 : Vec F S12800x136 .f32) (x1 : Vec F S136x64 .f32) (x2 : Vec F S64 .f32) (x3 : Vec F S64x1 .f32) (x4 : Vec F S1 .f32) : Vec F S12800x1 .f32 :=
  View.canon [⟨(Rect.unit (s := S12800x1) ![0, 0] S12800x1.size inb_S12800x1_S12800x1_0_0), k3_pay1 (View.ld x0 (Rect.unit (s := S12800x136) ![0, 0] S12800x136.size inb_S12800x136_S12800x136_0_0)) (View.ld x1 (Rect.unit (s := S136x64) ![0, 0] S136x64.size inb_S136x64_S136x64_0_0)) (View.ld x2 (Rect.unit (s := S64) ![0] S64.size inb_S64_S64_0)) (View.ld x3 (Rect.unit (s := S64x1) ![0, 0] S64x1.size inb_S64x1_S64x1_0_0)) (View.ld x4 (Rect.unit (s := S1) ![0] S1.size inb_S1_S1_0))⟩]

/-- The one store covers the output block. -/
theorem cover3 (p0 : Vec F S12800x1 .f32) (y : S12800x1.Idx) :
    ∃ pc ∈ ([⟨(Rect.unit (s := S12800x1) ![0, 0] S12800x1.size inb_S12800x1_S12800x1_0_0), p0⟩] : List (View.Piece (Elt F) S12800x1 .f32)), y ∈ pc.1.set :=
  View.cover_of_tiled [⟨(Rect.unit (s := S12800x1) ![0, 0] S12800x1.size inb_S12800x1_S12800x1_0_0), p0⟩] S12800x1.size (by rfl) y

set_option maxHeartbeats 1000000 in
/-- The body on whole staging buffers, the inputs holding `x`, the output anything: it ends with the inputs as they
    were and the output at `out3` of the inputs. -/
theorem sound_kernel3 (c : Dev nD) (E : Set ℕ) (i : grid3.Coords) (arg1 : Memref sig .tc .vmem S12800x136 .f32) (harg1 : arg1.IsWhole) (arg2 : Memref sig .tc .vmem S136x64 .f32) (harg2 : arg2.IsWhole) (arg3 : Memref sig .tc .vmem S64 .f32) (harg3 : arg3.IsWhole) (arg4 : Memref sig .tc .vmem S64x1 .f32) (harg4 : arg4.IsWhole) (arg5 : Memref sig .tc .vmem S1 .f32) (harg5 : arg5.IsWhole) (arg6 : Memref sig .tc .vmem S12800x1 .f32) (harg6 : arg6.IsWhole)
    (x0 : Vec F S12800x136 .f32) (x1 : Vec F S136x64 .f32) (x2 : Vec F S64 .f32) (x3 : Vec F S64x1 .f32) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3 x0 x1 x2 x3 x4)) -∗ K ⟨⟩))
      ⊢ wp frame (wpE (defs₀ (F := F)) Variants.none c none) E (cc3__edge_mlp_kernel i arg1 harg1 arg2 harg2 arg3 harg3 arg4 harg4 arg5 harg5 arg6 harg6) K := by
  simp only [cc3__edge_mlp_kernel_eq_skeleton]; unfold cc3__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-- The proof data of the region on core `c`: the arrays as found; after the body at point `t` each input buffer at
    its block and the output buffer at `out3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
import proofs.«147518_j83124797046831_1_alg».proof.Proof.Gen.Kernel.Regions
import proofs.«147518_j83124797046831_1_alg».proof.Proof.K.Body0
import proofs.«147518_j83124797046831_1_alg».proof.Proof.K.Body1
import proofs.«147518_j83124797046831_1_alg».proof.Proof.K.Body2
import proofs.«147518_j83124797046831_1_alg».proof.Proof.K.Body3

/-!
The whole program as a chain of sixteen segments: twelve stretches of host operations and four kernel regions.
Between two segments every unscoped buffer is held at a known valuation: the launch contents, then each stretch's
operations applied in order, then at each region's output array what the region's write-backs leave. The run ends
with every unscoped buffer at the last valuation; the argument arrays are written by no segment.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev rd (W : Dev nD → Valuation τ sig (Elt F)) : (c : Dev nD) → (b : Ref sig .tc) → Buf (Elt F) ((c : Thread nD τ).loc b) :=
  fun c b => W c b

/-! ## What each region leaves -/

/-- After region 0: its arrays at what the pipeline leaves, every other buffer as entered. -/
def Y2 (c : Dev nD) : Valuation τ sig (Elt F) :=
  Pipeline.withArrays spec0 c (V1 m c) fun w => (dat0 (rd (V1 m)) c).arrAt w cfg0.N
/-- The regions' leavings known so far: region 0's. -/
def outsA : Outs (F := F) := fun _ r c => Y2 m c r
/-- After region 1. -/
def Y4 (c : Dev nD) : Valuation τ sig (Elt F) :=
  Pipeline.withArrays spec1 c (V3 m (outsA m) c) fun w => (dat1 (rd (V3 m (outsA m))) c).arrAt w cfg1.N
def outsB : Outs (F := F) := fun n r c => match n with
  | 2 => Y2 m c r
  | _ => Y4 m c r
/-- After region 2. -/
def Y9 (c : Dev nD) : Valuation τ sig (Elt F) :=
  Pipeline.withArrays spec2 c (V8 m (outsB m) c) fun w => (dat2 (rd (V8 m (outsB m))) c).arrAt w cfg2.N
def outsC : Outs (F := F) := fun n r c => match n with
  | 2 => Y2 m c r
  | 4 => Y4 m c r
  | _ => Y9 m c r
/-- After region 3. -/
def Y15 (c : Dev nD) : Valuation τ sig (Elt F) :=
  Pipeline.withArrays spec3 c (V14 m (outsC m) c) fun w => (dat3 (rd (V14 m (outsC m))) c).arrAt w cfg3.N
/-- What every region leaves in the buffers it may change. -/
def outs : Outs (F := F) := fun n r c => match n with
  | 2 => Y2 m c r
  | 4 => Y4 m c r
  | 9 => Y9 m c r
  | _ => Y15 m c r

theorem e3 : V3 m (outs m) = V3 m (outsA m) := rfl
theorem e8 : V8 m (outs m) = V8 m (outsB m) := rfl
theorem e14 : V14 m (outs m) = V14 m (outsC m) := rfl

/-- Every pipeline's proof data, each at its region's entry contents. -/
def pdats : (p : Fin 4) → (c : Dev nD) → Dat τ (Elt F) Unit ℕ (UR sig nD τ) ℕ (cfgs p) c
  | ⟨0, _⟩ => fun c => dat0 (rd (V1 m)) c
  | ⟨1, _⟩ => fun c => dat1 (rd (V3 m (outs m))) c
  | ⟨2, _⟩ => fun c => dat2 (rd (V8 m (outs m))) c
  | ⟨3, _⟩ => fun c => dat3 (rd (V14 m (outs m))) c

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem Y2_arr (c : Dev nD) (w : Fin cfg0.W) :
    Y2 m c (Proc.devRef .tc (Pipeline.arrRef spec0 w)) = (dat0 (rd (V1 m)) c).arrAt w cfg0.N := by
  unfold Y2; exact Pipeline.withArrays_arr spec0 launch0.win.arr_inj c _ _ w
theorem Y4_arr (c : Dev nD) (w : Fin cfg1.W) :
    Y4 m c (Proc.devRef .tc (Pipeline.arrRef spec1 w)) = (dat1 (rd (V3 m (outsA m))) c).arrAt w cfg1.N := by
  unfold Y4; exact Pipeline.withArrays_arr spec1 launch1.win.arr_inj c _ _ w
theorem Y9_arr (c : Dev nD) (w : Fin cfg2.W) :
    Y9 m c (Proc.devRef .tc (Pipeline.arrRef spec2 w)) = (dat2 (rd (V8 m (outsB m))) c).arrAt w cfg2.N := by
  unfold Y9; exact Pipeline.withArrays_arr spec2 launch2.win.arr_inj c _ _ w
theorem Y15_arr (c : Dev nD) (w : Fin cfg3.W) :
    Y15 m c (Proc.devRef .tc (Pipeline.arrRef spec3 w)) = (dat3 (rd (V14 m (outsC m))) c).arrAt w cfg3.N := by
  unfold Y15; exact Pipeline.withArrays_arr spec3 launch3.win.arr_inj c _ _ w

/-! ## The regions' exits -/

theorem hF0 (c : Dev nD) : ∀ w : Fin cfg0.W, (pdats m 0 c).arrAt w cfg0.N = rd (V2 m (outs m)) c (Pipeline.arrRef spec0 w)
  | ⟨0, _⟩ => (((pdats m 0 c).arrAt_in 0 rfl _).trans (A_eq0 (rd (V1 m)) c 0)).trans (V2_of m (outs m) c (Pipeline.arrRef spec0 0) (by decide)).symm
  | ⟨1, _⟩ => (((pdats m 0 c).arrAt_in 1 rfl _).trans (A_eq0 (rd (V1 m)) c 1)).trans (V2_of m (outs m) c (Pipeline.arrRef spec0 1) (by decide)).symm
  | ⟨2, _⟩ => (((pdats m 0 c).arrAt_in 2 rfl _).trans (A_eq0 (rd (V1 m)) c 2)).trans (V2_of m (outs m) c (Pipeline.arrRef spec0 2) (by decide)).symm
  | ⟨3, _⟩ => by
    show (pdats m 0 c).arrAt 3 cfg0.N = Function.update (V1 m c) main_v4 (outs m 2 main_v4 c) main_v4
    rw [Function.update_self]
    exact (Y2_arr m c 3).symm
theorem hrest0 (c : Dev nD) : ∀ b, b ∉ Finset.univ.image (Pipeline.arrRef spec0) → rd (V2 m (outs m)) c b = rd (V1 m) c b :=
  fun b hb => V2_of m (outs m) c b fun hmem => hb (Finset.mem_image.mpr ⟨3, Finset.mem_univ _, (List.mem_singleton.mp hmem).symm⟩)

theorem hF1 (c : Dev nD) : ∀ w : Fin cfg1.W, (pdats m 1 c).arrAt w cfg1.N = rd (V4 m (outs m)) c (Pipeline.arrRef spec1 w)
  | ⟨0, _⟩ => (((pdats m 1 c).arrAt_in 0 rfl _).trans (A_eq1 (rd (V3 m (outs m))) c 0)).trans (V4_of m (outs m) c (Pipeline.arrRef spec1 0) (by decide)).symm
  | ⟨1, _⟩ => (((pdats m 1 c).arrAt_in 1 rfl _).trans (A_eq1 (rd (V3 m (outs m))) c 1)).trans (V4_of m (outs m) c (Pipeline.arrRef spec1 1) (by decide)).symm
  | ⟨2, _⟩ => (((pdats m 1 c).arrAt_in 2 rfl _).trans (A_eq1 (rd (V3 m (outs m))) c 2)).trans (V4_of m (outs m) c (Pipeline.arrRef spec1 2) (by decide)).symm
  | ⟨3, _⟩ => by
    show (pdats m 1 c).arrAt 3 cfg1.N = Function.update (V3 m (outs m) c) main_v6 (outs m 4 main_v6 c) main_v6
    rw [Function.update_self]
    exact (Y4_arr m c 3).symm
theorem hrest1 (c : Dev nD) : ∀ b, b ∉ Finset.univ.image (Pipeline.arrRef spec1) → rd (V4 m (outs m)) c b = rd (V3 m (outs m)) c b :=
  fun b hb => V4_of m (outs m) c b fun hmem => hb (Finset.mem_image.mpr ⟨3, Finset.mem_univ _, (List.mem_singleton.mp hmem).symm⟩)

theorem hF2 (c : Dev nD) : ∀ w : Fin cfg2.W, (pdats m 2 c).arrAt w cfg2.N = rd (V9 m (outs m)) c (Pipeline.arrRef spec2 w)
  | ⟨0, _⟩ => (((pdats m 2 c).arrAt_in 0 rfl _).trans (A_eq2 (rd (V8 m (outs m))) c 0)).trans (V9_of m (outs m) c (Pipeline.arrRef spec2 0) (by decide)).symm
  | ⟨1, _⟩ => (((pdats m 2 c).arrAt_in 1 rfl _).trans (A_eq2 (rd (V8 m (outs m))) c 1)).trans (V9_of m (outs m) c (Pipeline.arrRef spec2 1) (by decide)).symm
  | ⟨2, _⟩ => (((pdats m 2 c).arrAt_in 2 rfl _).trans (A_eq2 (rd (V8 m (outs m))) c 2)).trans (V9_of m (outs m) c (Pipeline.arrRef spec2 2) (by decide)).symm
  | ⟨3, _⟩ => by
    show (pdats m 2 c).arrAt 3 cfg2.N = Function.update (V8 m (outs m) c) main_v50 (outs m 9 main_v50 c) main_v50
    rw [Function.update_self]
    exact (Y9_arr m c 3).symm
theorem hrest2 (c : Dev nD) : ∀ b, b ∉ Finset.univ.image (Pipeline.arrRef spec2) → rd (V9 m (outs m)) c b = rd (V8 m (outs m)) c b :=
  fun b hb => V9_of m (outs m) c b fun hmem => hb (Finset.mem_image.mpr ⟨3, Finset.mem_univ _, (List.mem_singleton.mp hmem).symm⟩)

theorem hF3 (c : Dev nD) : ∀ w : Fin cfg3.W, (pdats m 3 c).arrAt w cfg3.N = rd (V15 m (outs m)) c (Pipeline.arrRef spec3 w)
  | ⟨0, _⟩ => (((pdats m 3 c).arrAt_in 0 rfl _).trans (A_eq3 (rd (V14 m (outs m))) c 0)).trans (V15_of m (outs m) c (Pipeline.arrRef spec3 0) (by decide)).symm
  | ⟨1, _⟩ => (((pdats m 3 c).arrAt_in 1 rfl _).trans (A_eq3 (rd (V14 m (outs m))) c 1)).trans (V15_of m (outs m) c (Pipeline.arrRef spec3 1) (by decide)).symm
  | ⟨2, _⟩ => (((pdats m 3 c).arrAt_in 2 rfl _).trans (A_eq3 (rd (V14 m (outs m))) c 2)).trans (V15_of m (outs m) c (Pipeline.arrRef spec3 2) (by decide)).symm
  | ⟨3, _⟩ => (((pdats m 3 c).arrAt_in 3 rfl _).trans (A_eq3 (rd (V14 m (outs m))) c 3)).trans (V15_of m (outs m) c (Pipeline.arrRef spec3 3) (by decide)).symm
  | ⟨4, _⟩ => (((pdats m 3 c).arrAt_in 4 rfl _).trans (A_eq3 (rd (V14 m (outs m))) c 4)).trans (V15_of m (outs m) c (Pipeline.arrRef spec3 4) (by decide)).symm
  | ⟨5, _⟩ => by
    show (pdats m 3 c).arrAt 5 cfg3.N = Function.update (V14 m (outs m) c) main_v109 (outs m 15 main_v109 c) main_v109
    rw [Function.update_self]
    exact (Y15_arr m c 5).symm
theorem hrest3 (c : Dev nD) : ∀ b, b ∉ Finset.univ.image (Pipeline.arrRef spec3) → rd (V15 m (outs m)) c b = rd (V14 m (outs m)) c b :=
  fun b hb => V15_of m (outs m) c b fun hmem => hb (Finset.mem_image.mpr ⟨5, Finset.mem_univ _, (List.mem_singleton.mp hmem).symm⟩)

/-! ## The regions as segments -/

set_option backward.isDefEq.respectTransparency.types false in
/-- Region 0 as a segment: entered with every unscoped buffer at `V1 m`, left with them at `V2 m (outs m)`. The region's
    arrays are split out of the unscoped buffers on entry and put back at their final contents on exit; the generator
    register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (rd (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V1 m) c) (rd (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `V3 m (outs m)`, left with them at `V4 m (outs m)`. The region's
    arrays are split out of the unscoped buffers on entry and put back at their final contents on exit; the generator
    register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V3 m (outs m))) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (rd (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V3 m (outs m)) c) (rd (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `V8 m (outs m)`, left with them at `V9 m (outs m)`. The region's
    arrays are split out of the unscoped buffers on entry and put back at their final contents on exit; the generator
    register passes through the invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V8 m (outs m))) c).loose
  hwaits := Pipeline.hwaits_of_owed_zero _ _ _ _ L lv 2 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rd (V8 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V8 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V8 m (outs m)) c) (rd (V9 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `V14 m (outs m)`, left with them at `V15 m (outs m)`. The region's
    arrays are split out of the unscoped buffers on entry and put back at their final contents on exit; the generator
    register passes through the invariant; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (V14 m (outs m))) c).loose
  hwaits := Pipeline.hwaits_of_owed_zero _ _ _ _ L lv 3 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec3 c (rd (V14 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (V14 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (V14 m (outs m)) c) (rd (V15 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, and every final
    memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V16 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => ∀ b ∈ Pipeline.ucRefs τ sig, s.mem ((c : Thread nD τ).1, b) = V16 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (V16 m (outs m) c) s')
    isplitl [Hh] <;> iassumption

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun _ h c => ⟨(h c _ (mem_uc main_arg0 (by decide))).trans (V16_main_arg0 m (outs m) c),
      (h c _ (mem_uc main_arg1 (by decide))).trans (V16_main_arg1 m (outs m) c),
      (h c _ (mem_uc main_arg2 (by decide))).trans (V16_main_arg2 m (outs m) c),
      (h c _ (mem_uc main_arg3 (by decide))).trans (V16_main_arg3 m (outs m) c),
      (h c _ (mem_uc main_arg4 (by decide))).trans (V16_main_arg4 m (outs m) c),
      (h c _ (mem_uc main_arg5 (by decide))).trans (V16_main_arg5 m (outs m) c),
      (h c _ (mem_uc main_arg6 (by decide))).trans (V16_main_arg6 m (outs m) c),
      (h c _ (mem_uc main_arg7 (by decide))).trans (V16_main_arg7 m (outs m) c),
      (h c _ (mem_uc main_arg8 (by decide))).trans (V16_main_arg8 m (outs m) c),
      (h c _ (mem_uc main_arg9 (by decide))).trans (V16_main_arg9 m (outs m) c),
      (h c _ (mem_uc main_arg10 (by decide))).trans (V16_main_arg10 m (outs m) c),
      (h c _ (mem_uc main_arg11 (by decide))).trans (V16_main_arg11 m (outs m) c),
      (h c _ (mem_uc main_arg12 (by decide))).trans (V16_main_arg12 m (outs m) c)⟩) (run_all m ρ)

end Cert.Kernel.Hand

end
-- ==== Proof.KI.Body0.lean ====
import proofs.«147518_j83124797046831_1_alg».proof.Proof.Gen.KernelIdeal.Launch
import proofs.«147518_j83124797046831_1_alg».proof.Proof.Gen.KernelIdeal.Skeleton
import proofs.«147518_j83124797046831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 0: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point its staging buffer holds the point's block, whether the block was fetched
    there or kept from the point before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: at every point its staging buffer holds the point's block, whether the block was fetched
    there or kept from the point before (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: at every point its staging buffer holds the point's block, whether the block was fetched
    there or kept from the point before (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: the one store, over the whole block, of the body's value of the input blocks. -/
def out0 (x0 : Vec F S10000x32 .f32) (x1 : Vec F S32x64 .f32) (x2 : Vec F S64 .f32) : Vec F S10000x64 .f32 :=
  View.canon [⟨(Rect.unit (s := S10000x64) ![0, 0] S10000x64.size inb_S10000x64_S10000x64_0_0), k0_pay1 (View.ld x0 (Rect.unit (s := S10000x32) ![0, 0] S10000x32.size inb_S10000x32_S10000x32_0_0)) (View.ld x1 (Rect.unit (s := S32x64) ![0, 0] S32x64.size inb_S32x64_S32x64_0_0)) (View.ld x2 (Rect.unit (s := S64) ![0] S64.size inb_S64_S64_0))⟩]

/-- The one store covers the output block. -/
theorem cover0 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers, the inputs holding `x`, the output anything: it ends with the inputs as they
    were and the output at `out0` of the inputs. -/
theorem sound_kernel0 (c : Dev nD) (E : Set ℕ) (i : grid0.Coords) (arg1 : Memref sig .tc .vmem S10000x32 .f32) (harg1 : arg1.IsWhole) (arg2 : Memref sig .tc .vmem S32x64 .f32) (harg2 : arg2.IsWhole) (arg3 : Memref sig .tc .vmem S64 .f32) (harg3 : arg3.IsWhole) (arg4 : Memref sig .tc .vmem S10000x64 .f32) (harg4 : arg4.IsWhole)
    (x0 : Vec F S10000x32 .f32) (x1 : Vec F S32x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of the region on core `c`: the arrays as found; after the body at point `t` each input buffer at
    its block and the output buffer at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«147518_j83124797046831_1_alg».proof.Proof.Gen.KernelIdeal.Launch
import proofs.«147518_j83124797046831_1_alg».proof.Proof.Gen.KernelIdeal.Skeleton
import proofs.«147518_j83124797046831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 1: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every point its staging buffer holds the point's block, whether the block was fetched
    there or kept from the point before (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: at every point its staging buffer holds the point's block, whether the block was fetched
    there or kept from the point before (then the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: at every point its staging buffer holds the point's block, whether the block was fetched
    there or kept from the point before (then the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: the one store, over the whole block, of the body's value of the input blocks. -/
def out1 (x0 : Vec F S10000x64 .f32) (x1 : Vec F S64x64 .f32) (x2 : Vec F S64 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover1 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers, the inputs holding `x`, the output anything: it ends with the inputs as they
    were and the output at `out1` of the inputs. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .f32) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the region on core `c`: the arrays as found; after the body at point `t` each input buffer at
    its block and the output buffer at `out1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«147518_j83124797046831_1_alg».proof.Proof.Gen.KernelIdeal.Launch
import proofs.«147518_j83124797046831_1_alg».proof.Proof.Gen.KernelIdeal.Skeleton
import proofs.«147518_j83124797046831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 2: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every point its staging buffer holds the point's block, whether the block was fetched
    there or kept from the point before (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: at every point its staging buffer holds the point's block, whether the block was fetched
    there or kept from the point before (then the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: at every point its staging buffer holds the point's block, whether the block was fetched
    there or kept from the point before (then the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: the one store, over the whole block, of the body's value of the input blocks. -/
def out2 (x0 : Vec F S10000x64 .f32) (x1 : Vec F S64x64 .f32) (x2 : Vec F S64 .f32) : Vec F S10000x64 .f32 :=
  View.canon [⟨(Rect.unit (s := S10000x64) ![0, 0] S10000x64.size inb_S10000x64_S10000x64_0_0), k2_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover2 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers, the inputs holding `x`, the output anything: it ends with the inputs as they
    were and the output at `out2` of the inputs. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .f32) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of the region on core `c`: the arrays as found; after the body at point `t` each input buffer at
    its block and the output buffer at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«147518_j83124797046831_1_alg».proof.Proof.Gen.KernelIdeal.Launch
import proofs.«147518_j83124797046831_1_alg».proof.Proof.Gen.KernelIdeal.Skeleton
import proofs.«147518_j83124797046831_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Kernel region 3: one grid point of the tiled layer. The body reads each input block whole, forms one value from
them and stores it over the whole output block; so after the body the output block is that value of the input
blocks, and every input block is as it was. Stated at any contents `V` of the arrays on entry and at any float
instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: at every point its staging buffer holds the point's block, whether the block was fetched
    there or kept from the point before (then the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: at every point its staging buffer holds the point's block, whether the block was fetched
    there or kept from the point before (then the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: at every point its staging buffer holds the point's block, whether the block was fetched
    there or kept from the point before (then the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: at every point its staging buffer holds the point's block, whether the block was fetched
    there or kept from the point before (then the block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4: at every point its staging buffer holds the point's block, whether the block was fetched
    there or kept from the point before (then the block index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one store, over the whole block, of the body's value of the input blocks. -/
def out3 (x0 : Vec F S12800x136 .f32) (x1 : Vec F S136x64 .f32) (x2 : Vec F S64 .f32) (x3 : Vec F S64x1 .f32) (x4 : Vec F S1 .f32) : Vec F S12800x1 .f32 :=
  View.canon [⟨(Rect.unit (s := S12800x1) ![0, 0] S12800x1.size inb_S12800x1_S12800x1_0_0), k3_pay1 (View.ld x0 (Rect.unit (s := S12800x136) ![0, 0] S12800x136.size inb_S12800x136_S12800x136_0_0)) (View.ld x1 (Rect.unit (s := S136x64) ![0, 0] S136x64.size inb_S136x64_S136x64_0_0)) (View.ld x2 (Rect.unit (s := S64) ![0] S64.size inb_S64_S64_0)) (View.ld x3 (Rect.unit (s := S64x1) ![0, 0] S64x1.size inb_S64x1_S64x1_0_0)) (View.ld x4 (Rect.unit (s := S1) ![0] S1.size inb_S1_S1_0))⟩]

/-- The one store covers the output block. -/
theorem cover3 (p0 : Vec F S12800x1 .f32) (y : S12800x1.Idx) :
    ∃ pc ∈ ([⟨(Rect.unit (s := S12800x1) ![0, 0] S12800x1.size inb_S12800x1_S12800x1_0_0), p0⟩] : List (View.Piece (Elt F) S12800x1 .f32)), y ∈ pc.1.set :=
  View.cover_of_tiled [⟨(Rect.unit (s := S12800x1) ![0, 0] S12800x1.size inb_S12800x1_S12800x1_0_0), p0⟩] S12800x1.size (by rfl) y

set_option maxHeartbeats 1000000 in
/-- The body on whole staging buffers, the inputs holding `x`, the output anything: it ends with the inputs as they
    were and the output at `out3` of the inputs. -/
theorem sound_kernel3 (c : Dev nD) (E : Set ℕ) (i : grid3.Coords) (arg1 : Memref sig .tc .vmem S12800x136 .f32) (harg1 : arg1.IsWhole) (arg2 : Memref sig .tc .vmem S136x64 .f32) (harg2 : arg2.IsWhole) (arg3 : Memref sig .tc .vmem S64 .f32) (harg3 : arg3.IsWhole) (arg4 : Memref sig .tc .vmem S64x1 .f32) (harg4 : arg4.IsWhole) (arg5 : Memref sig .tc .vmem S1 .f32) (harg5 : arg5.IsWhole) (arg6 : Memref sig .tc .vmem S12800x1 .f32) (harg6 : arg6.IsWhole)
    (x0 : Vec F S12800x136 .f32) (x1 : Vec F S136x64 .f32) (x2 : Vec F S64 .f32) (x3 : Vec F S64x1 .f32) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3 x0 x1 x2 x3 x4)) -∗ K ⟨⟩))
      ⊢ wp frame (wpE (defs₀ (F := F)) Variants.none c none) E (cc3__edge_mlp_kernel i arg1 harg1 arg2 harg2 arg3 harg3 arg4 harg4 arg5 harg5 arg6 harg6) K := by
  simp only [cc3__edge_mlp_kernel_eq_skeleton]; unfold cc3__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-- The proof data of the region on core `c`: the arrays as found; after the body at point `t` each input buffer at
    its block and the output buffer at `out3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«147518_j83124797046831_1_alg».proof.Proof.Gen.KernelIdeal.Regions
import proofs.«147518_j83124797046831_1_alg».proof.Proof.KI.Body0
import proofs.«147518_j83124797046831_1_alg».proof.Proof.KI.Body1
import proofs.«147518_j83124797046831_1_alg».proof.Proof.KI.Body2
import proofs.«147518_j83124797046831_1_alg».proof.Proof.KI.Body3

/-!
The whole program as a chain of sixteen segments: twelve stretches of host operations and four kernel regions.
Between two segments every unscoped buffer is held at a known valuation: the launch contents, then each stretch's
operations applied in order, then at each region's output array what the region's write-backs leave. The run ends
with every unscoped buffer at the last valuation; the argument arrays are written by no segment.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev rd (W : Dev nD → Valuation τ sig (Elt F)) : (c : Dev nD) → (b : Ref sig .tc) → Buf (Elt F) ((c : Thread nD τ).loc b) :=
  fun c b => W c b

/-! ## What each region leaves -/

/-- After region 0: its arrays at what the pipeline leaves, every other buffer as entered. -/
def Y2 (c : Dev nD) : Valuation τ sig (Elt F) :=
  Pipeline.withArrays spec0 c (V1 m c) fun w => (dat0 (rd (V1 m)) c).arrAt w cfg0.N
/-- The regions' leavings known so far: region 0's. -/
def outsA : Outs (F := F) := fun _ r c => Y2 m c r
/-- After region 1. -/
def Y4 (c : Dev nD) : Valuation τ sig (Elt F) :=
  Pipeline.withArrays spec1 c (V3 m (outsA m) c) fun w => (dat1 (rd (V3 m (outsA m))) c).arrAt w cfg1.N
def outsB : Outs (F := F) := fun n r c => match n with
  | 2 => Y2 m c r
  | _ => Y4 m c r
/-- After region 2. -/
def Y9 (c : Dev nD) : Valuation τ sig (Elt F) :=
  Pipeline.withArrays spec2 c (V8 m (outsB m) c) fun w => (dat2 (rd (V8 m (outsB m))) c).arrAt w cfg2.N
def outsC : Outs (F := F) := fun n r c => match n with
  | 2 => Y2 m c r
  | 4 => Y4 m c r
  | _ => Y9 m c r
/-- After region 3. -/
def Y15 (c : Dev nD) : Valuation τ sig (Elt F) :=
  Pipeline.withArrays spec3 c (V14 m (outsC m) c) fun w => (dat3 (rd (V14 m (outsC m))) c).arrAt w cfg3.N
/-- What every region leaves in the buffers it may change. -/
def outs : Outs (F := F) := fun n r c => match n with
  | 2 => Y2 m c r
  | 4 => Y4 m c r
  | 9 => Y9 m c r
  | _ => Y15 m c r

theorem e3 : V3 m (outs m) = V3 m (outsA m) := rfl
theorem e8 : V8 m (outs m) = V8 m (outsB m) := rfl
theorem e14 : V14 m (outs m) = V14 m (outsC m) := rfl

/-- Every pipeline's proof data, each at its region's entry contents. -/
def pdats : (p : Fin 4) → (c : Dev nD) → Dat τ (Elt F) Unit ℕ (UR sig nD τ) ℕ (cfgs p) c
  | ⟨0, _⟩ => fun c => dat0 (rd (V1 m)) c
  | ⟨1, _⟩ => fun c => dat1 (rd (V3 m (outs m))) c
  | ⟨2, _⟩ => fun c => dat2 (rd (V8 m (outs m))) c
  | ⟨3, _⟩ => fun c => dat3 (rd (V14 m (outs m))) c

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem Y2_arr (c : Dev nD) (w : Fin cfg0.W) :
    Y2 m c (Proc.devRef .tc (Pipeline.arrRef spec0 w)) = (dat0 (rd (V1 m)) c).arrAt w cfg0.N := by
  unfold Y2; exact Pipeline.withArrays_arr spec0 launch0.win.arr_inj c _ _ w
theorem Y4_arr (c : Dev nD) (w : Fin cfg1.W) :
    Y4 m c (Proc.devRef .tc (Pipeline.arrRef spec1 w)) = (dat1 (rd (V3 m (outsA m))) c).arrAt w cfg1.N := by
  unfold Y4; exact Pipeline.withArrays_arr spec1 launch1.win.arr_inj c _ _ w
theorem Y9_arr (c : Dev nD) (w : Fin cfg2.W) :
    Y9 m c (Proc.devRef .tc (Pipeline.arrRef spec2 w)) = (dat2 (rd (V8 m (outsB m))) c).arrAt w cfg2.N := by
  unfold Y9; exact Pipeline.withArrays_arr spec2 launch2.win.arr_inj c _ _ w
theorem Y15_arr (c : Dev nD) (w : Fin cfg3.W) :
    Y15 m c (Proc.devRef .tc (Pipeline.arrRef spec3 w)) = (dat3 (rd (V14 m (outsC m))) c).arrAt w cfg3.N := by
  unfold Y15; exact Pipeline.withArrays_arr spec3 launch3.win.arr_inj c _ _ w

/-! ## The regions' exits -/

theorem hF0 (c : Dev nD) : ∀ w : Fin cfg0.W, (pdats m 0 c).arrAt w cfg0.N = rd (V2 m (outs m)) c (Pipeline.arrRef spec0 w)
  | ⟨0, _⟩ => (((pdats m 0 c).arrAt_in 0 rfl _).trans (A_eq0 (rd (V1 m)) c 0)).trans (V2_of m (outs m) c (Pipeline.arrRef spec0 0) (by decide)).symm
  | ⟨1, _⟩ => (((pdats m 0 c).arrAt_in 1 rfl _).trans (A_eq0 (rd (V1 m)) c 1)).trans (V2_of m (outs m) c (Pipeline.arrRef spec0 1) (by decide)).symm
  | ⟨2, _⟩ => (((pdats m 0 c).arrAt_in 2 rfl _).trans (A_eq0 (rd (V1 m)) c 2)).trans (V2_of m (outs m) c (Pipeline.arrRef spec0 2) (by decide)).symm
  | ⟨3, _⟩ => by
    show (pdats m 0 c).arrAt 3 cfg0.N = Function.update (V1 m c) main_v4 (outs m 2 main_v4 c) main_v4
    rw [Function.update_self]
    exact (Y2_arr m c 3).symm
theorem hrest0 (c : Dev nD) : ∀ b, b ∉ Finset.univ.image (Pipeline.arrRef spec0) → rd (V2 m (outs m)) c b = rd (V1 m) c b :=
  fun b hb => V2_of m (outs m) c b fun hmem => hb (Finset.mem_image.mpr ⟨3, Finset.mem_univ _, (List.mem_singleton.mp hmem).symm⟩)

theorem hF1 (c : Dev nD) : ∀ w : Fin cfg1.W, (pdats m 1 c).arrAt w cfg1.N = rd (V4 m (outs m)) c (Pipeline.arrRef spec1 w)
  | ⟨0, _⟩ => (((pdats m 1 c).arrAt_in 0 rfl _).trans (A_eq1 (rd (V3 m (outs m))) c 0)).trans (V4_of m (outs m) c (Pipeline.arrRef spec1 0) (by decide)).symm
  | ⟨1, _⟩ => (((pdats m 1 c).arrAt_in 1 rfl _).trans (A_eq1 (rd (V3 m (outs m))) c 1)).trans (V4_of m (outs m) c (Pipeline.arrRef spec1 1) (by decide)).symm
  | ⟨2, _⟩ => (((pdats m 1 c).arrAt_in 2 rfl _).trans (A_eq1 (rd (V3 m (outs m))) c 2)).trans (V4_of m (outs m) c (Pipeline.arrRef spec1 2) (by decide)).symm
  | ⟨3, _⟩ => by
    show (pdats m 1 c).arrAt 3 cfg1.N = Function.update (V3 m (outs m) c) main_v6 (outs m 4 main_v6 c) main_v6
    rw [Function.update_self]
    exact (Y4_arr m c 3).symm
theorem hrest1 (c : Dev nD) : ∀ b, b ∉ Finset.univ.image (Pipeline.arrRef spec1) → rd (V4 m (outs m)) c b = rd (V3 m (outs m)) c b :=
  fun b hb => V4_of m (outs m) c b fun hmem => hb (Finset.mem_image.mpr ⟨3, Finset.mem_univ _, (List.mem_singleton.mp hmem).symm⟩)

theorem hF2 (c : Dev nD) : ∀ w : Fin cfg2.W, (pdats m 2 c).arrAt w cfg2.N = rd (V9 m (outs m)) c (Pipeline.arrRef spec2 w)
  | ⟨0, _⟩ => (((pdats m 2 c).arrAt_in 0 rfl _).trans (A_eq2 (rd (V8 m (outs m))) c 0)).trans (V9_of m (outs m) c (Pipeline.arrRef spec2 0) (by decide)).symm
  | ⟨1, _⟩ => (((pdats m 2 c).arrAt_in 1 rfl _).trans (A_eq2 (rd (V8 m (outs m))) c 1)).trans (V9_of m (outs m) c (Pipeline.arrRef spec2 1) (by decide)).symm
  | ⟨2, _⟩ => (((pdats m 2 c).arrAt_in 2 rfl _).trans (A_eq2 (rd (V8 m (outs m))) c 2)).trans (V9_of m (outs m) c (Pipeline.arrRef spec2 2) (by decide)).symm
  | ⟨3, _⟩ => by
    show (pdats m 2 c).arrAt 3 cfg2.N = Function.update (V8 m (outs m) c) main_v50 (outs m 9 main_v50 c) main_v50
    rw [Function.update_self]
    exact (Y9_arr m c 3).symm
theorem hrest2 (c : Dev nD) : ∀ b, b ∉ Finset.univ.image (Pipeline.arrRef spec2) → rd (V9 m (outs m)) c b = rd (V8 m (outs m)) c b :=
  fun b hb => V9_of m (outs m) c b fun hmem => hb (Finset.mem_image.mpr ⟨3, Finset.mem_univ _, (List.mem_singleton.mp hmem).symm⟩)

theorem hF3 (c : Dev nD) : ∀ w : Fin cfg3.W, (pdats m 3 c).arrAt w cfg3.N = rd (V15 m (outs m)) c (Pipeline.arrRef spec3 w)
  | ⟨0, _⟩ => (((pdats m 3 c).arrAt_in 0 rfl _).trans (A_eq3 (rd (V14 m (outs m))) c 0)).trans (V15_of m (outs m) c (Pipeline.arrRef spec3 0) (by decide)).symm
  | ⟨1, _⟩ => (((pdats m 3 c).arrAt_in 1 rfl _).trans (A_eq3 (rd (V14 m (outs m))) c 1)).trans (V15_of m (outs m) c (Pipeline.arrRef spec3 1) (by decide)).symm
  | ⟨2, _⟩ => (((pdats m 3 c).arrAt_in 2 rfl _).trans (A_eq3 (rd (V14 m (outs m))) c 2)).trans (V15_of m (outs m) c (Pipeline.arrRef spec3 2) (by decide)).symm
  | ⟨3, _⟩ => (((pdats m 3 c).arrAt_in 3 rfl _).trans (A_eq3 (rd (V14 m (outs m))) c 3)).trans (V15_of m (outs m) c (Pipeline.arrRef spec3 3) (by decide)).symm
  | ⟨4, _⟩ => (((pdats m 3 c).arrAt_in 4 rfl _).trans (A_eq3 (rd (V14 m (outs m))) c 4)).trans (V15_of m (outs m) c (Pipeline.arrRef spec3 4) (by decide)).symm
  | ⟨5, _⟩ => by
    show (pdats m 3 c).arrAt 5 cfg3.N = Function.update (V14 m (outs m) c) main_v109 (outs m 15 main_v109 c) main_v109
    rw [Function.update_self]
    exact (Y15_arr m c 5).symm
theorem hrest3 (c : Dev nD) : ∀ b, b ∉ Finset.univ.image (Pipeline.arrRef spec3) → rd (V15 m (outs m)) c b = rd (V14 m (outs m)) c b :=
  fun b hb => V15_of m (outs m) c b fun hmem => hb (Finset.mem_image.mpr ⟨5, Finset.mem_univ _, (List.mem_singleton.mp hmem).symm⟩)

/-! ## The regions as segments -/

set_option backward.isDefEq.respectTransparency.types false in
/-- Region 0 as a segment: entered with every unscoped buffer at `V1 m`, left with them at `V2 m (outs m)`. The region's
    arrays are split out of the unscoped buffers on entry and put back at their final contents on exit; the generator
    register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (rd (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V1 m) c) (rd (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `V3 m (outs m)`, left with them at `V4 m (outs m)`. The region's
    arrays are split out of the unscoped buffers on entry and put back at their final contents on exit; the generator
    register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V3 m (outs m))) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (rd (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V3 m (outs m)) c) (rd (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `V8 m (outs m)`, left with them at `V9 m (outs m)`. The region's
    arrays are split out of the unscoped buffers on entry and put back at their final contents on exit; the generator
    register passes through the invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V8 m (outs m))) c).loose
  hwaits := Pipeline.hwaits_of_owed_zero _ _ _ _ L lv 2 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rd (V8 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V8 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V8 m (outs m)) c) (rd (V9 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `V14 m (outs m)`, left with them at `V15 m (outs m)`. The region's
    arrays are split out of the unscoped buffers on entry and put back at their final contents on exit; the generator
    register passes through the invariant; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (V14 m (outs m))) c).loose
  hwaits := Pipeline.hwaits_of_owed_zero _ _ _ _ L lv 3 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec3 c (rd (V14 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (V14 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (V14 m (outs m)) c) (rd (V15 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, and every final
    memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V16 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => ∀ b ∈ Pipeline.ucRefs τ sig, s.mem ((c : Thread nD τ).1, b) = V16 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (V16 m (outs m) c) s')
    isplitl [Hh] <;> iassumption

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun _ h c => ⟨(h c _ (mem_uc main_arg0 (by decide))).trans (V16_main_arg0 m (outs m) c),
      (h c _ (mem_uc main_arg1 (by decide))).trans (V16_main_arg1 m (outs m) c),
      (h c _ (mem_uc main_arg2 (by decide))).trans (V16_main_arg2 m (outs m) c),
      (h c _ (mem_uc main_arg3 (by decide))).trans (V16_main_arg3 m (outs m) c),
      (h c _ (mem_uc main_arg4 (by decide))).trans (V16_main_arg4 m (outs m) c),
      (h c _ (mem_uc main_arg5 (by decide))).trans (V16_main_arg5 m (outs m) c),
      (h c _ (mem_uc main_arg6 (by decide))).trans (V16_main_arg6 m (outs m) c),
      (h c _ (mem_uc main_arg7 (by decide))).trans (V16_main_arg7 m (outs m) c),
      (h c _ (mem_uc main_arg8 (by decide))).trans (V16_main_arg8 m (outs m) c),
      (h c _ (mem_uc main_arg9 (by decide))).trans (V16_main_arg9 m (outs m) c),
      (h c _ (mem_uc main_arg10 (by decide))).trans (V16_main_arg10 m (outs m) c),
      (h c _ (mem_uc main_arg11 (by decide))).trans (V16_main_arg11 m (outs m) c),
      (h c _ (mem_uc main_arg12 (by decide))).trans (V16_main_arg12 m (outs m) c)⟩) (run_all m ρ)

end Cert.KernelIdeal.Hand

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.LibDenseAt.lean ====
/-
  Dense layers read at an entry, over arbitrary extents.

  A dense layer is a matrix product plus a bias row, optionally followed by a maximum against zero. On the extended
  reals — where a change of float format is the identity and a product into a zero accumulator is the bare sum — a
  layer as a kernel writes it (the product into a zero accumulator, the bias given a unit axis and repeated over the
  rows) and as a host program writes it (the host's product, the bias broadcast in two steps) are both, at entry
  `(p, q)`, the textbook `(∑ k, x (p, k) * w (k, q)) + b q` (`lin`); a maximum against a broadcast zero is the maximum
  with `0`. Stated over arbitrary extents `M K N` and any dimension-number record with the plain contraction lists.
-/
import proofs.«147518_j83124797046831_1_alg».proof.Proof.LibPlainDot
import Idealize.ShloMosaic.Lib.ValueIdx
import Idealize.ShloMosaic.Lib.ValueLayout
import Idealize.ShloMosaic.PureOps.Ideal.Laws

noncomputable section

namespace Cert.DenseAt

open Idealize.ShloMosaic Idealize.ShloMosaic.ValueIdx

/-- The affine map of a dense layer at entry `(p, q)`: the sum over `k` of `x (p, k) * w (k, q)`, plus the bias
    at `q`. -/
def lin {M K N : Nat} (x : (⟨2, ![M, K]⟩ : Shape).Idx → EReal) (w : (⟨2, ![K, N]⟩ : Shape).Idx → EReal)
    (b : (⟨1, ![N]⟩ : Shape).Idx → EReal) (p : Fin M) (q : Fin N) : EReal :=
  (∑ k : Fin K, x (ix2 p k) * w (ix2 k q)) + b (ix1 q)

/-! ## Over arbitrary extents -/

section Generic
variable {M K N : Nat}

/-- A matrix-unit product into the zero accumulator, with plain contraction lists, is at `(p, q)` the sum over
    `k` of the left operand at `(p, k)` times the right at `(k, q)`. -/
theorem matmul_zero_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans
    (Cert.LibPlainDot.sum_plain (R := EReal) d hlc hrc hln hrn hlb hrb l r p q)

/-- The host's product with plain contraction lists is at `(p, q)` the same sum. -/
theorem dot_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    Host.dotGeneral (F := Ideal) d prec l r (ix2 p q) = ∑ k : Fin K, l (ix2 p k) * r (ix2 k q) :=
  (Ideal.dotGeneral_apply d prec .single l r (ix2 p q)).trans
    (Cert.LibPlainDot.sum_plain (R := EReal) d hlc hrc hln hrn hlb hrb l r p q)

/-- A bias vector given a leading unit axis and then repeated over `M` rows reads, at `(p, q)`, the vector at
    `q`. -/
theorem bias_rows_at {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc 0 q)

/-- The same bias written as two `broadcast_in_dim`s — the vector onto axis 1 of a one-row matrix, that matrix onto
    both axes of an `M`-row one — reads, at `(p, q)`, the vector at `q`. -/
theorem bias_in_dim_at {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => exact (if_pos rfl).symm
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- The scalar zero constant broadcast to a matrix reads `0` at every entry. -/
theorem zero_in_dim_at (h : (⟨0, ![]⟩ : Shape).BroadcastsInDim ⟨2, ![M, N]⟩ ![]) (j : (⟨2, ![M, N]⟩ : Shape).Idx) :
    broadcastInDim ⟨2, ![M, N]⟩ ![] h (constant (F := Ideal) ⟨0, ![]⟩ .f32 0x00000000#32) j = 0 :=
  (broadcastInDim_apply _ h _ j ix0 fun a => a.elim0).trans Ideal.ofBits_zero_f32

end Generic

/-! ## A dense layer on each side, over arbitrary extents -/

section Dense
variable {M K N : Nat}

/-- A maximum against the broadcast scalar zero reads, at any index, the maximum of the operand there and `0`. -/
theorem relu_splat_at {s : Shape} (v : FVec Ideal s .f32) (j : s.Idx) :
    maximumf v (broadcast s (Scalar.ofBits (F := Ideal) .f32 0x00000000#32)) j = max (v j) 0 := by
  rw [maximumf_apply, broadcast_apply]
  show max (v j) (Ideal.ofBits .f32 0x00000000#32) = max (v j) 0
  rw [Ideal.ofBits_zero_f32]

/-- A maximum against the scalar zero constant broadcast to a matrix reads, at any entry, the maximum of the operand
    there and `0`. -/
theorem relu_in_dim_at (v : FVec Ideal ⟨2, ![M, N]⟩ .f32) (h : (⟨0, ![]⟩ : Shape).BroadcastsInDim ⟨2, ![M, N]⟩ ![])
    (j : (⟨2, ![M, N]⟩ : Shape).Idx) :
    maximumf v (broadcastInDim ⟨2, ![M, N]⟩ ![] h (constant (F := Ideal) ⟨0, ![]⟩ .f32 0x00000000#32)) j = max (v j) 0 := by
  rw [maximumf_apply, zero_in_dim_at]

/-- A dense layer as the kernel writes it — the product into a zero accumulator, the bias given a unit axis and
    repeated over the rows, the sum — is `lin` at `(p, q)`. -/
theorem dense_kernel_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l r (constant (F := Ideal) ⟨2, ![M, N]⟩ .f32 0x00000000#32))
        (broadcastTo ⟨2, ![M, N]⟩ (shapeCast ⟨2, ![1, N]⟩ b hc) hb) (ix2 p q)
      = lin l r b p q := by
  rw [addf_apply, matmul_zero_at d hlc hrc hln hrn hlb hrb, bias_rows_at]
  rfl

/-- A dense layer as the reference writes it — the host's product, the bias broadcast in two steps, the sum — is
    `lin` at `(p, q)`. -/
theorem dense_ref_at {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) d prec l r)
        (broadcastInDim ⟨2, ![M, N]⟩ ![0, 1] h2 (broadcastInDim ⟨2, ![1, N]⟩ ![1] h1 b)) (ix2 p q)
      = lin l r b p q := by
  rw [addf_apply, dot_at d hlc hrc hln hrn hlb hrb, bias_in_dim_at]
  rfl

end Dense

end Cert.DenseAt

end
-- ==== Proof.DenseAt.lean ====
/-
  This program's dense layers read at an entry: the kernel's four stored values and the reference's corresponding
  terms are, at entry `(p, q)`, `lin` of their operands, its maximum with `0`, or a second product of such maxima plus
  a bias — the general lemmas over arbitrary extents, instantiated at the printed shapes.
-/
import proofs.«147518_j83124797046831_1_alg».proof.Proof.LibDenseAt
import proofs.«147518_j83124797046831_1_alg».proof.Proof.Gen.KernelIdeal.Skeleton
import proofs.«147518_j83124797046831_1_alg».proof.Proof.Gen.ReferenceIdeal

noncomputable section

namespace Cert.DenseAt

open Idealize.ShloMosaic Idealize.ShloMosaic.ValueIdx

/-! ## The reference's terms -/

section Reference
open Cert.ReferenceIdeal Cert.ReferenceIdeal.Facts₀

/-- The reference's `64 × 64` product at `(p, q)`: the sum over `k` of `x (p, k) * w (k, q)`. -/
theorem ref_dot_at (x : FVec Ideal S100000x64 .f32) (w : FVec Ideal S64x64 .f32) (p : Fin 100000) (q : Fin 64) :
    Host.dotGeneral (F := Ideal) dot_S100000x64_S64x64_S100000x64_1_0_0_1_n_n none x w (ix2 p q)
      = ∑ k : Fin 64, x (ix2 p k) * w (ix2 k q) :=
  dot_at dot_S100000x64_S64x64_S100000x64_1_0_0_1_n_n rfl rfl rfl rfl rfl rfl none x w p q

/-- The reference's embedding layer at `(p, q)`: the maximum of `lin x w b p q` and `0`. -/
theorem ref_embed_at (x : FVec Ideal S100000x32 .f32) (w : FVec Ideal S32x64 .f32) (b : FVec Ideal S64 .f32)
    (p : Fin 100000) (q : Fin 64) :
    maximumf (addf (Host.dotGeneral (F := Ideal) dot_S100000x32_S32x64_S100000x64_1_0_0_1_n_n none x w)
          (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32)) (ix2 p q)
      = max (lin x w b p q) 0 :=
  (relu_in_dim_at _ bcast_S_S100000x64 (ix2 p q)).trans
    (congrArg (max · 0)
      (dense_ref_at dot_S100000x32_S32x64_S100000x64_1_0_0_1_n_n rfl rfl rfl rfl rfl rfl none x w b
        bcast_S64_S1x64_1 bcast_S1x64_S100000x64_0_1 p q))

/-- The reference's edge network at row `p`: the sum over `j` of the hidden layer's `max (lin ef w1 b1 p j) 0`
    times `w2 (j, 0)`, plus the one bias `b2`. -/
theorem ref_mlp_at (ef : FVec Ideal S1600000x136 .f32) (w1 : FVec Ideal S136x64 .f32) (b1 : FVec Ideal S64 .f32)
    (w2 : FVec Ideal S64x1 .f32) (b2 : FVec Ideal S1 .f32) (p : Fin 1600000) :
    addf (Host.dotGeneral (F := Ideal) dot_S1600000x64_S64x1_S1600000x1_1_0_0_1_n_n none
          (maximumf (addf (Host.dotGeneral (F := Ideal) dot_S1600000x136_S136x64_S1600000x64_1_0_0_1_n_n none ef w1)
              (broadcastInDim S1600000x64 ![0, 1] bcast_S1x64_S1600000x64_0_1 (broadcastInDim S1x64 ![1] bcast_S64_S1x64_1 b1)))
            (broadcastInDim S1600000x64 ![] bcast_S_S1600000x64 (constant (F := Ideal) S_ .f32 0x00000000#32))) w2)
        (broadcastInDim S1600000x1 ![0, 1] bcast_S1x1_S1600000x1_0_1 (broadcastInDim S1x1 ![1] bcast_S1_S1x1_1 b2)) (ix2 p 0)
      = (∑ j : Fin 64, max (lin ef w1 b1 p j) 0 * w2 (ix2 j 0)) + b2 (ix1 0) := by
  refine (dense_ref_at dot_S1600000x64_S64x1_S1600000x1_1_0_0_1_n_n rfl rfl rfl rfl rfl rfl none _ w2 b2
    bcast_S1_S1x1_1 bcast_S1x1_S1600000x1_0_1 p 0).trans ?_
  unfold lin
  refine congrArg (· + b2 (ix1 0)) (Finset.sum_congr rfl fun j _ => congrArg (· * w2 (ix2 j 0)) ?_)
  exact (relu_in_dim_at _ bcast_S_S1600000x64 (ix2 p j)).trans
    (congrArg (max · 0)
      (dense_ref_at dot_S1600000x136_S136x64_S1600000x64_1_0_0_1_n_n rfl rfl rfl rfl rfl rfl none ef w1 b1
        bcast_S64_S1x64_1 bcast_S1x64_S1600000x64_0_1 p j))

end Reference

/-! ## The kernel's stored values -/

section Kernel
open Cert.KernelIdeal Cert.KernelIdeal.Gen

/-- The first kernel's stored value at `(p, q)`: the maximum of `lin x w b p q` and `0`. -/
theorem pay0_at (x : Vec Ideal S10000x32 .f32) (w : Vec Ideal S32x64 .f32) (b : Vec Ideal S64 .f32)
    (p : Fin 10000) (q : Fin 64) : k0_pay1 (F := Ideal) x w b (ix2 p q) = max (lin x w b p q) 0 := by
  unfold k0_pay1
  refine (relu_splat_at _ (ix2 p q)).trans (congrArg (max · 0) ?_)
  exact dense_kernel_at dot_S10000x32_S32x64_S10000x64_1_0_0_1_n_n rfl rfl rfl rfl rfl rfl none _ _ b _ _ p q

/-- The second kernel's stored value at `(p, q)` is `lin x w b p q`. -/
theorem pay1_at (x : Vec Ideal S10000x64 .f32) (w : Vec Ideal S64x64 .f32) (b : Vec Ideal S64 .f32)
    (p : Fin 10000) (q : Fin 64) : k1_pay1 (F := Ideal) x w b (ix2 p q) = lin x w b p q := by
  unfold k1_pay1
  refine (dense_kernel_at dot_S10000x64_S64x64_S10000x64_1_0_0_1_n_n rfl rfl rfl rfl rfl rfl none _ _ _ _ _ p q).trans ?_
  rw [shapeCast_self, shapeCast_self]
  rfl

/-- The third kernel's stored value at `(p, q)` is `lin x w b p q`. -/
theorem pay2_at (x : Vec Ideal S10000x64 .f32) (w : Vec Ideal S64x64 .f32) (b : Vec Ideal S64 .f32)
    (p : Fin 10000) (q : Fin 64) : k2_pay1 (F := Ideal) x w b (ix2 p q) = lin x w b p q := by
  unfold k2_pay1
  refine (dense_kernel_at dot_S10000x64_S64x64_S10000x64_1_0_0_1_n_n rfl rfl rfl rfl rfl rfl none _ _ _ _ _ p q).trans ?_
  rw [shapeCast_self, shapeCast_self]
  rfl

/-- The fourth kernel's stored value at row `p`: the sum over `j` of the hidden layer's
    `max (lin ef w1 b1 p j) 0` times `w2 (j, 0)`, plus the one bias `b2`. -/
theorem pay3_at (ef : Vec Ideal S12800x136 .f32) (w1 : Vec Ideal S136x64 .f32) (b1 : Vec Ideal S64 .f32)
    (w2 : Vec Ideal S64x1 .f32) (b2 : Vec Ideal S1 .f32) (p : Fin 12800) :
    k3_pay1 (F := Ideal) ef w1 b1 w2 b2 (ix2 p 0)
      = (∑ j : Fin 64, max (lin ef w1 b1 p j) 0 * w2 (ix2 j 0)) + b2 (ix1 0) := by
  unfold k3_pay1
  refine (dense_kernel_at dot_S12800x64_S64x1_S12800x1_1_0_0_1_n_n rfl rfl rfl rfl rfl rfl none _ _ b2 _ _ p 0).trans ?_
  unfold lin
  refine congrArg (· + b2 (ix1 0)) (Finset.sum_congr rfl fun j _ => congrArg (· * w2 (ix2 j 0)) ?_)
  refine (relu_splat_at _ (ix2 p j)).trans (congrArg (max · 0) ?_)
  refine (dense_kernel_at dot_S12800x136_S136x64_S12800x64_1_0_0_1_n_n rfl rfl rfl rfl rfl rfl none _ _ b1 _ _ p j).trans ?_
  rw [shapeCast_self]
  rfl

end Kernel

end Cert.DenseAt

end
-- ==== Proof.KI.Arr0.lean ====
import proofs.«147518_j83124797046831_1_alg».proof.Proof.KI.Body0
import proofs.«147518_j83124797046831_1_alg».proof.Proof.DenseAt
import Idealize.ShloMosaic.Lib.Pipeline.Value
import Idealize.ShloMosaic.Lib.ValueIdx

set_option maxRecDepth 16384

noncomputable section

namespace Cert.KernelIdeal.Hand

open Cert.KernelIdeal Cert.KernelIdeal.Gen Cert.DenseAt
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-!
Region 0 over the whole array. Grid point `t` handles rows `10000·t … 10000·t + 9999`: its input block is those rows of
the first operand, the weight matrix and the bias row are read whole at every point, and the block it writes back is
those rows of the layer's result. The ten row blocks cover the result array, so after the region the array is the
layer's result entry by entry: `max (∑ₖ x(r,k)·w(k,q) + b(q)) 0`.
-/

theorem hz2_0 : (![0, 0] : Fin 2 → Nat) = fun _ => 0 := funext fun a => by fin_cases a <;> rfl
theorem hz1_0 : (![0] : Fin 1 → Nat) = fun _ => 0 := funext fun a => by fin_cases a; rfl

/-- The layer's result array from the whole operand arrays. -/
def G0 (X : S100000x32.Idx → Elt Ideal .f32) (W : S32x64.Idx → Elt Ideal .f32) (B : S64.Idx → Elt Ideal .f32) : S100000x64.Idx → Elt Ideal .f32 :=
  fun i => max (lin X W B (i 0) (i 1)) 0

/-- The block indices at every grid point: the row operand and the result move with the point, the weights and the
    bias stay. -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- Every row block is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- The row operand's block at point `t`, entry `(p, k)`, is the array's entry `(10000·t + p, k)`. -/
theorem rd0_0 (c : Dev nD) (t : Fin cfg0.N) (p : Fin 10000) (k : Fin 32) (P : Fin 100000) (hP : P.val = t.val * 10000 + p.val) :
    iblk0 V c 0 t (ix2 p k) = V c main_arg0 (ix2 P k) := by
  obtain ⟨e0, e1, e2, e3, e4, e5, e6⟩ := idx_facts0 t
  show V c main_arg0 (((cfg0.win 0).blk t).view.emb (ix2 p k)) = V c main_arg0 (ix2 P k)
  refine congrArg _ (funext fun a => Fin.ext ?_)
  match a with
  | ⟨0, _⟩ => show win0_0.index t (0 : Fin 2) * 10000 + 1 * p.val = P.val; omega
  | ⟨1, _⟩ => show win0_0.index t (1 : Fin 2) * 32 + 1 * k.val = k.val; omega

/-- The weight block at any point is the weight array. -/
theorem rd0_1 (c : Dev nD) (t : Fin cfg0.N) (k : Fin 32) (q : Fin 64) :
    iblk0 V c 1 t (ix2 k q) = V c main_arg2 (ix2 k q) := by
  obtain ⟨e0, e1, e2, e3, e4, e5, e6⟩ := idx_facts0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 32 + 1 * k.val = k.val; omega
  | ⟨1, _⟩ => show win0_1.index t (1 : Fin 2) * 64 + 1 * q.val = q.val; omega

/-- The bias block at any point is the bias array. -/
theorem rd0_2 (c : Dev nD) (t : Fin cfg0.N) (q : Fin 64) :
    iblk0 V c 2 t (ix1 q) = V c main_arg3 (ix1 q) := by
  obtain ⟨e0, e1, e2, e3, e4, e5, e6⟩ := idx_facts0 t
  show V c main_arg3 (((cfg0.win 2).blk t).view.emb (ix1 q)) = V c main_arg3 (ix1 q)
  refine congrArg _ (funext fun a => Fin.ext ?_)
  match a with
  | ⟨0, _⟩ => show win0_2.index t (0 : Fin 1) * 64 + 1 * q.val = q.val; omega

/-- What point `t` writes back is block `t` of the layer's result. -/
theorem flushed0_eq (c : Dev nD) (t : Fin cfg0.N) :
    (dat0 V c).flushed 3 t = ((cfg0.win 3).blk t).view.read (Elt Ideal) (G0 (V c main_arg0) (V c main_arg2) (V c main_arg3)) := by
  show (cfg0.win 3).cut (grid0.coords t) ((dat0 V c).after 3 t) = _
  rw [after0_3]
  unfold out0
  rw [View.canon_unit_zero hz2_0]
  simp only [View.ld_unit_zero (S := S10000x32) hz2_0, View.ld_unit_zero (S := S32x64) hz2_0, View.ld_unit_zero (S := S64) hz1_0]
  obtain ⟨e0, e1, e2, e3, e4, e5, e6⟩ := idx_facts0 t
  funext j
  obtain ⟨p, q, rfl⟩ : ∃ (p : Fin 10000) (q : Fin 64), j = ix2 p q := ⟨j 0, j 1, eq_ix2 j⟩
  have hp : p.val < 10000 := p.isLt
  have ht : t.val < 10 := lt_of_lt_of_eq t.isLt (show cfg0.N = 10 from N_0)
  refine (pay0_at _ _ _ p q).trans ?_
  have hi : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show _ = G0 (V c main_arg0) (V c main_arg2) (V c main_arg3) (((cfg0.win 3).blk t).view.emb (ix2 p q))
  rw [hi]
  show max (lin (iblk0 V c 0 t) (iblk0 V c 1 t) (iblk0 V c 2 t) p q) 0
    = max (lin (V c main_arg0) (V c main_arg2) (V c main_arg3) (⟨t.val * 10000 + p.val, by omega⟩ : Fin 100000) q) 0
  unfold lin
  rw [rd0_2 V c t q]
  refine congrArg (fun s => max (s + _) 0) (Finset.sum_congr rfl fun k _ => ?_)
  rw [rd0_0 V c t p k ⟨t.val * 10000 + p.val, by omega⟩ rfl, rd0_1 V c t k q]

theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v4).slice (win0_3.rect t)).set ↔ _
  rw [View.set_slice_whole, Rect.mem_set_unit]
  exact Iff.rfl

/-- The ten row blocks cover the result array. -/
theorem rows_cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the region the result array is the layer's result of the operand arrays as the region found them. -/
theorem arr0 (c : Dev nD) : (dat0 V c).arrAt 3 cfg0.N = G0 (V c main_arg0) (V c main_arg2) (V c main_arg3) :=
  (dat0 V c).arrAt_eq_of_cover 3 _ (fun t _ => flushed0_eq V c t) rows_cover0

end Cert.KernelIdeal.Hand

end
-- ==== Proof.KI.Arr1.lean ====
import proofs.«147518_j83124797046831_1_alg».proof.Proof.KI.Body1
import proofs.«147518_j83124797046831_1_alg».proof.Proof.DenseAt
import Idealize.ShloMosaic.Lib.Pipeline.Value
import Idealize.ShloMosaic.Lib.ValueIdx

set_option maxRecDepth 16384

noncomputable section

namespace Cert.KernelIdeal.Hand

open Cert.KernelIdeal Cert.KernelIdeal.Gen Cert.DenseAt
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-!
Region 1 over the whole array. Grid point `t` handles rows `10000·t … 10000·t + 9999`: its input block is those rows of
the first operand, the weight matrix and the bias row are read whole at every point, and the block it writes back is
those rows of the layer's result. The ten row blocks cover the result array, so after the region the array is the
layer's result entry by entry: `∑ₖ x(r,k)·w(k,q) + b(q)`.
-/

theorem hz2_1 : (![0, 0] : Fin 2 → Nat) = fun _ => 0 := funext fun a => by fin_cases a <;> rfl
theorem hz1_1 : (![0] : Fin 1 → Nat) = fun _ => 0 := funext fun a => by fin_cases a; rfl

/-- The layer's result array from the whole operand arrays. -/
def G1 (X : S100000x64.Idx → Elt Ideal .f32) (W : S64x64.Idx → Elt Ideal .f32) (B : S64.Idx → Elt Ideal .f32) : S100000x64.Idx → Elt Ideal .f32 :=
  fun i => lin X W B (i 0) (i 1)

/-- The block indices at every grid point: the row operand and the result move with the point, the weights and the
    bias stay. -/
theorem idx_facts1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

/-- Every row block is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- The row operand's block at point `t`, entry `(p, k)`, is the array's entry `(10000·t + p, k)`. -/
theorem rd1_0 (c : Dev nD) (t : Fin cfg1.N) (p : Fin 10000) (k : Fin 64) (P : Fin 100000) (hP : P.val = t.val * 10000 + p.val) :
    iblk1 V c 0 t (ix2 p k) = V c main_v4 (ix2 P k) := by
  obtain ⟨e0, e1, e2, e3, e4, e5, e6⟩ := idx_facts1 t
  show V c main_v4 (((cfg1.win 0).blk t).view.emb (ix2 p k)) = V c main_v4 (ix2 P k)
  refine congrArg _ (funext fun a => Fin.ext ?_)
  match a with
  | ⟨0, _⟩ => show win1_0.index t (0 : Fin 2) * 10000 + 1 * p.val = P.val; omega
  | ⟨1, _⟩ => show win1_0.index t (1 : Fin 2) * 64 + 1 * k.val = k.val; omega

/-- The weight block at any point is the weight array. -/
theorem rd1_1 (c : Dev nD) (t : Fin cfg1.N) (k : Fin 64) (q : Fin 64) :
    iblk1 V c 1 t (ix2 k q) = V c main_arg4 (ix2 k q) := by
  obtain ⟨e0, e1, e2, e3, e4, e5, e6⟩ := idx_facts1 t
  show V c main_arg4 (((cfg1.win 1).blk t).view.emb (ix2 k q)) = V c main_arg4 (ix2 k q)
  refine congrArg _ (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- The bias block at any point is the bias array. -/
theorem rd1_2 (c : Dev nD) (t : Fin cfg1.N) (q : Fin 64) :
    iblk1 V c 2 t (ix1 q) = V c main_v5 (ix1 q) := by
  obtain ⟨e0, e1, e2, e3, e4, e5, e6⟩ := idx_facts1 t
  show V c main_v5 (((cfg1.win 2).blk t).view.emb (ix1 q)) = V c main_v5 (ix1 q)
  refine congrArg _ (funext fun a => Fin.ext ?_)
  match a with
  | ⟨0, _⟩ => show win1_2.index t (0 : Fin 1) * 64 + 1 * q.val = q.val; omega

/-- What point `t` writes back is block `t` of the layer's result. -/
theorem flushed1_eq (c : Dev nD) (t : Fin cfg1.N) :
    (dat1 V c).flushed 3 t = ((cfg1.win 3).blk t).view.read (Elt Ideal) (G1 (V c main_v4) (V c main_arg4) (V c main_v5)) := by
  show (cfg1.win 3).cut (grid1.coords t) ((dat1 V c).after 3 t) = _
  rw [after1_3]
  unfold out1
  rw [View.canon_unit_zero hz2_1]
  simp only [View.ld_unit_zero (S := S10000x64) hz2_1, View.ld_unit_zero (S := S64x64) hz2_1, View.ld_unit_zero (S := S64) hz1_1]
  obtain ⟨e0, e1, e2, e3, e4, e5, e6⟩ := idx_facts1 t
  funext j
  obtain ⟨p, q, rfl⟩ : ∃ (p : Fin 10000) (q : Fin 64), j = ix2 p q := ⟨j 0, j 1, eq_ix2 j⟩
  have hp : p.val < 10000 := p.isLt
  have ht : t.val < 10 := lt_of_lt_of_eq t.isLt (show cfg1.N = 10 from N_1)
  refine (pay1_at _ _ _ p q).trans ?_
  have hi : ((cfg1.win 3).blk t).view.emb (ix2 p q) = ix2 (⟨t.val * 10000 + p.val, by omega⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show _ = G1 (V c main_v4) (V c main_arg4) (V c main_v5) (((cfg1.win 3).blk t).view.emb (ix2 p q))
  rw [hi]
  show lin (iblk1 V c 0 t) (iblk1 V c 1 t) (iblk1 V c 2 t) p q
    = lin (V c main_v4) (V c main_arg4) (V c main_v5) (⟨t.val * 10000 + p.val, by omega⟩ : Fin 100000) q
  unfold lin
  rw [rd1_2 V c t q]
  refine congrArg (fun s => s + _) (Finset.sum_congr rfl fun k _ => ?_)
  rw [rd1_0 V c t p k ⟨t.val * 10000 + p.val, by omega⟩ rfl, rd1_1 V c t k q]

theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v6).slice (win1_3.rect t)).set ↔ _
  rw [View.set_slice_whole, Rect.mem_set_unit]
  exact Iff.rfl

/-- The ten row blocks cover the result array. -/
theorem rows_cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the region the result array is the layer's result of the operand arrays as the region found them. -/
theorem arr1 (c : Dev nD) : (dat1 V c).arrAt 3 cfg1.N = G1 (V c main_v4) (V c main_arg4) (V c main_v5) :=
  (dat1 V c).arrAt_eq_of_cover 3 _ (fun t _ => flushed1_eq V c t) rows_cover1

end Cert.KernelIdeal.Hand

end
-- ==== Proof.KI.Arr2.lean ====
import proofs.«147518_j83124797046831_1_alg».proof.Proof.KI.Body2
import proofs.«147518_j83124797046831_1_alg».proof.Proof.DenseAt
import Idealize.ShloMosaic.Lib.Pipeline.Value
import Idealize.ShloMosaic.Lib.ValueIdx

set_option maxRecDepth 16384

noncomputable section

namespace Cert.KernelIdeal.Hand

open Cert.KernelIdeal Cert.KernelIdeal.Gen Cert.DenseAt
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-!
Region 2 over the whole array. Grid point `t` handles rows `10000·t … 10000·t + 9999`: its input block is those rows of
the first operand, the weight matrix and the bias row are read whole at every point, and the block it writes back is
those rows of the layer's result. The ten row blocks cover the result array, so after the region the array is the
layer's result entry by entry: `∑ₖ x(r,k)·w(k,q) + b(q)`.
-/

theorem hz2_2 : (![0, 0] : Fin 2 → Nat) = fun _ => 0 := funext fun a => by fin_cases a <;> rfl
theorem hz1_2 : (![0] : Fin 1 → Nat) = fun _ => 0 := funext fun a => by fin_cases a; rfl

/-- The layer's result array from the whole operand arrays. -/
def G2 (X : S100000x64.Idx → Elt Ideal .f32) (W : S64x64.Idx → Elt Ideal .f32) (B : S64.Idx → Elt Ideal .f32) : S100000x64.Idx → Elt Ideal .f32 :=
  fun i => lin X W B (i 0) (i 1)

/-- The block indices at every grid point: the row operand and the result move with the point, the weights and the
    bias stay. -/
theorem idx_facts2 : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 1) = 0 :=
  (by decide +kernel : ∀ t : Fin grid2.N, _)

/-- Every row block is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- The row operand's block at point `t`, entry `(p, k)`, is the array's entry `(10000·t + p, k)`. -/
theorem rd2_0 (c : Dev nD) (t : Fin cfg2.N) (p : Fin 10000) (k : Fin 64) (P : Fin 100000) (hP : P.val = t.val * 10000 + p.val) :
    iblk2 V c 0 t (ix2 p k) = V c main_v49 (ix2 P k) := by
  obtain ⟨e0, e1, e2, e3, e4, e5, e6⟩ := idx_facts2 t
  show V c main_v49 (((cfg2.win 0).blk t).view.emb (ix2 p k)) = V c main_v49 (ix2 P k)
  refine congrArg _ (funext fun a => Fin.ext ?_)
  match a with
  | ⟨0, _⟩ => show win2_0.index t (0 : Fin 2) * 10000 + 1 * p.val = P.val; omega
  | ⟨1, _⟩ => show win2_0.index t (1 : Fin 2) * 64 + 1 * k.val = k.val; omega

/-- The weight block at any point is the weight array. -/
theorem rd2_1 (c : Dev nD) (t : Fin cfg2.N) (k : Fin 64) (q : Fin 64) :
    iblk2 V c 1 t (ix2 k q) = V c main_arg6 (ix2 k q) := by
  obtain ⟨e0, e1, e2, e3, e4, e5, e6⟩ := idx_facts2 t
  show V c main_arg6 (((cfg2.win 1).blk t).view.emb (ix2 k q)) = V c main_arg6 (ix2 k q)
  refine congrArg _ (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- The bias block at any point is the bias array. -/
theorem rd2_2 (c : Dev nD) (t : Fin cfg2.N) (q : Fin 64) :
    iblk2 V c 2 t (ix1 q) = V c main_v5 (ix1 q) := by
  obtain ⟨e0, e1, e2, e3, e4, e5, e6⟩ := idx_facts2 t
  show V c main_v5 (((cfg2.win 2).blk t).view.emb (ix1 q)) = V c main_v5 (ix1 q)
  refine congrArg _ (funext fun a => Fin.ext ?_)
  match a with
  | ⟨0, _⟩ => show win2_2.index t (0 : Fin 1) * 64 + 1 * q.val = q.val; omega

/-- What point `t` writes back is block `t` of the layer's result. -/
theorem flushed2_eq (c : Dev nD) (t : Fin cfg2.N) :
    (dat2 V c).flushed 3 t = ((cfg2.win 3).blk t).view.read (Elt Ideal) (G2 (V c main_v49) (V c main_arg6) (V c main_v5)) := by
  show (cfg2.win 3).cut (grid2.coords t) ((dat2 V c).after 3 t) = _
  rw [after2_3]
  unfold out2
  rw [View.canon_unit_zero hz2_2]
  simp only [View.ld_unit_zero (S := S10000x64) hz2_2, View.ld_unit_zero (S := S64x64) hz2_2, View.ld_unit_zero (S := S64) hz1_2]
  obtain ⟨e0, e1, e2, e3, e4, e5, e6⟩ := idx_facts2 t
  funext j
  obtain ⟨p, q, rfl⟩ : ∃ (p : Fin 10000) (q : Fin 64), j = ix2 p q := ⟨j 0, j 1, eq_ix2 j⟩
  have hp : p.val < 10000 := p.isLt
  have ht : t.val < 10 := lt_of_lt_of_eq t.isLt (show cfg2.N = 10 from N_2)
  refine (pay2_at _ _ _ p q).trans ?_
  have hi : ((cfg2.win 3).blk t).view.emb (ix2 p q) = ix2 (⟨t.val * 10000 + p.val, by omega⟩ : Fin 100000) q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  show _ = G2 (V c main_v49) (V c main_arg6) (V c main_v5) (((cfg2.win 3).blk t).view.emb (ix2 p q))
  rw [hi]
  show lin (iblk2 V c 0 t) (iblk2 V c 1 t) (iblk2 V c 2 t) p q
    = lin (V c main_v49) (V c main_arg6) (V c main_v5) (⟨t.val * 10000 + p.val, by omega⟩ : Fin 100000) q
  unfold lin
  rw [rd2_2 V c t q]
  refine congrArg (fun s => s + _) (Finset.sum_congr rfl fun k _ => ?_)
  rw [rd2_0 V c t p k ⟨t.val * 10000 + p.val, by omega⟩ rfl, rd2_1 V c t k q]

theorem mem_blk2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v50).slice (win2_3.rect t)).set ↔ _
  rw [View.set_slice_whole, Rect.mem_set_unit]
  exact Iff.rfl

/-- The ten row blocks cover the result array. -/
theorem rows_cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After the region the result array is the layer's result of the operand arrays as the region found them. -/
theorem arr2 (c : Dev nD) : (dat2 V c).arrAt 3 cfg2.N = G2 (V c main_v49) (V c main_arg6) (V c main_v5) :=
  (dat2 V c).arrAt_eq_of_cover 3 _ (fun t _ => flushed2_eq V c t) rows_cover2

end Cert.KernelIdeal.Hand

end
-- ==== Proof.KI.Arr3.lean ====
import proofs.«147518_j83124797046831_1_alg».proof.Proof.KI.Body3
import proofs.«147518_j83124797046831_1_alg».proof.Proof.DenseAt
import Idealize.ShloMosaic.Lib.Pipeline.Value
import Idealize.ShloMosaic.Lib.ValueIdx

set_option maxRecDepth 16384

noncomputable section

namespace Cert.KernelIdeal.Hand

open Cert.KernelIdeal Cert.KernelIdeal.Gen Cert.DenseAt
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-!
Region 3 over the whole array. Grid point `t` handles rows `12800·t … 12800·t + 12799` of the edge features; both weight
matrices and both bias rows are read whole at every point; the block written back is those rows of the two-layer
result. The 125 row blocks cover the result column, so after the region entry `r` of the result is
`∑ⱼ max (∑ₖ ef(r,k)·w₁(k,j) + b₁(j)) 0 · w₂(j,0) + b₂(0)`.
-/

theorem hz2_3 : (![0, 0] : Fin 2 → Nat) = fun _ => 0 := funext fun a => by fin_cases a <;> rfl
theorem hz1_3 : (![0] : Fin 1 → Nat) = fun _ => 0 := funext fun a => by fin_cases a; rfl

/-- The two-layer result column from the whole operand arrays. -/
def G3 (EF : S1600000x136.Idx → Elt Ideal .f32) (W1 : S136x64.Idx → Elt Ideal .f32) (B1 : S64.Idx → Elt Ideal .f32)
    (W2 : S64x1.Idx → Elt Ideal .f32) (B2 : S1.Idx → Elt Ideal .f32) : S1600000x1.Idx → Elt Ideal .f32 :=
  fun i => (∑ j : Fin 64, max (lin EF W1 B1 (i 0) j) 0 * W2 (ix2 j 0)) + B2 (ix1 0)

/-- The block indices at every grid point: the feature rows and the result move with the point, everything else stays. -/
theorem idx_facts3 : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0 :=
  (by decide +kernel : ∀ t : Fin grid3.N, _)

/-- Every row block is some point's. -/
theorem idx_onto3 : ∀ q0 : Fin 125, ∃ t : Fin cfg3.N, win3_5.index t = ![q0.val, 0] :=
  (by decide +kernel : ∀ q0 : Fin 125, ∃ t : Fin grid3.N, win3_5.index t = ![q0.val, 0])

theorem rd3_0 (c : Dev nD) (t : Fin cfg3.N) (p : Fin 12800) (k : Fin 136) (P : Fin 1600000) (hP : P.val = t.val * 12800 + p.val) :
    iblk3 V c 0 t (ix2 p k) = V c main_v108 (ix2 P k) := by
  obtain ⟨e0, e1, e2, e3, e4, e5, e6, e7, e8, e9⟩ := idx_facts3 t
  show V c main_v108 (((cfg3.win 0).blk t).view.emb (ix2 p k)) = V c main_v108 (ix2 P k)
  refine congrArg _ (funext fun a => Fin.ext ?_)
  match a with
  | ⟨0, _⟩ => show win3_0.index t (0 : Fin 2) * 12800 + 1 * p.val = P.val; omega
  | ⟨1, _⟩ => show win3_0.index t (1 : Fin 2) * 136 + 1 * k.val = k.val; omega

theorem rd3_1 (c : Dev nD) (t : Fin cfg3.N) (k : Fin 136) (q : Fin 64) :
    iblk3 V c 1 t (ix2 k q) = V c main_arg8 (ix2 k q) := by
  obtain ⟨e0, e1, e2, e3, e4, e5, e6, e7, e8, e9⟩ := idx_facts3 t
  show V c main_arg8 (((cfg3.win 1).blk t).view.emb (ix2 k q)) = V c main_arg8 (ix2 k q)
  refine congrArg _ (funext fun a => Fin.ext ?_)
  match a with
  | ⟨0, _⟩ => show win3_1.index t (0 : Fin 2) * 136 + 1 * k.val = k.val; omega
  | ⟨1, _⟩ => show win3_1.index t (1 : Fin 2) * 64 + 1 * q.val = q.val; omega

theorem rd3_2 (c : Dev nD) (t : Fin cfg3.N) (q : Fin 64) :
    iblk3 V c 2 t (ix1 q) = V c main_arg9 (ix1 q) := by
  obtain ⟨e0, e1, e2, e3, e4, e5, e6, e7, e8, e9⟩ := idx_facts3 t
  show V c main_arg9 (((cfg3.win 2).blk t).view.emb (ix1 q)) = V c main_arg9 (ix1 q)
  refine congrArg _ (funext fun a => Fin.ext ?_)
  match a with
  | ⟨0, _⟩ => show win3_2.index t (0 : Fin 1) * 64 + 1 * q.val = q.val; omega

theorem rd3_3 (c : Dev nD) (t : Fin cfg3.N) (j : Fin 64) (z : Fin 1) :
    iblk3 V c 3 t (ix2 j z) = V c main_arg10 (ix2 j z) := by
  obtain ⟨e0, e1, e2, e3, e4, e5, e6, e7, e8, e9⟩ := idx_facts3 t
  show V c main_arg10 (((cfg3.win 3).blk t).view.emb (ix2 j z)) = V c main_arg10 (ix2 j z)
  refine congrArg _ (funext fun a => Fin.ext ?_)
  match a with
  | ⟨0, _⟩ => show win3_3.index t (0 : Fin 2) * 64 + 1 * j.val = j.val; omega
  | ⟨1, _⟩ => show win3_3.index t (1 : Fin 2) * 1 + 1 * z.val = z.val; omega

theorem rd3_4 (c : Dev nD) (t : Fin cfg3.N) (z : Fin 1) :
    iblk3 V c 4 t (ix1 z) = V c main_arg11 (ix1 z) := by
  obtain ⟨e0, e1, e2, e3, e4, e5, e6, e7, e8, e9⟩ := idx_facts3 t
  show V c main_arg11 (((cfg3.win 4).blk t).view.emb (ix1 z)) = V c main_arg11 (ix1 z)
  refine congrArg _ (funext fun a => Fin.ext ?_)
  match a with
  | ⟨0, _⟩ => show win3_4.index t (0 : Fin 1) * 1 + 1 * z.val = z.val; omega

/-- What point `t` writes back is block `t` of the two-layer result. -/
theorem flushed3_eq (c : Dev nD) (t : Fin cfg3.N) :
    (dat3 V c).flushed 5 t = ((cfg3.win 5).blk t).view.read (Elt Ideal) (G3 (V c main_v108) (V c main_arg8) (V c main_arg9) (V c main_arg10) (V c main_arg11)) := by
  show (cfg3.win 5).cut (grid3.coords t) ((dat3 V c).after 5 t) = _
  rw [after3_5]
  unfold out3
  rw [View.canon_unit_zero hz2_3]
  simp only [View.ld_unit_zero (S := S12800x136) hz2_3, View.ld_unit_zero (S := S136x64) hz2_3, View.ld_unit_zero (S := S64) hz1_3,
    View.ld_unit_zero (S := S64x1) hz2_3, View.ld_unit_zero (S := S1) hz1_3]
  obtain ⟨e0, e1, e2, e3, e4, e5, e6, e7, e8, e9⟩ := idx_facts3 t
  funext j
  obtain ⟨p, z, rfl⟩ : ∃ (p : Fin 12800) (z : Fin 1), j = ix2 p z := ⟨j 0, j 1, eq_ix2 j⟩
  obtain rfl : z = 0 := Subsingleton.elim _ _
  have hp : p.val < 12800 := p.isLt
  have ht : t.val < 125 := lt_of_lt_of_eq t.isLt (show cfg3.N = 125 from N_3)
  refine (pay3_at _ _ _ _ _ p).trans ?_
  have hi : ((cfg3.win 5).blk t).view.emb (ix2 p 0) = ix2 (⟨t.val * 12800 + p.val, by omega⟩ : Fin 1600000) (0 : Fin 1) := by
    funext a; apply Fin.ext
    match a with
    | ⟨0, _⟩ => show win3_5.index t (0 : Fin 2) * 12800 + 1 * p.val = t.val * 12800 + p.val; omega
    | ⟨1, _⟩ => show win3_5.index t (1 : Fin 2) * 1 + 1 * 0 = 0; omega
  show _ = G3 (V c main_v108) (V c main_arg8) (V c main_arg9) (V c main_arg10) (V c main_arg11) (((cfg3.win 5).blk t).view.emb (ix2 p 0))
  rw [hi]
  show (∑ j : Fin 64, max (lin (iblk3 V c 0 t) (iblk3 V c 1 t) (iblk3 V c 2 t) p j) 0 * iblk3 V c 3 t (ix2 j 0)) + iblk3 V c 4 t (ix1 0)
    = (∑ j : Fin 64, max (lin (V c main_v108) (V c main_arg8) (V c main_arg9) (⟨t.val * 12800 + p.val, by omega⟩ : Fin 1600000) j) 0 * V c main_arg10 (ix2 j 0)) + V c main_arg11 (ix1 0)
  rw [rd3_4 V c t 0]
  refine congrArg (fun s => s + _) (Finset.sum_congr rfl fun j _ => ?_)
  rw [rd3_3 V c t j 0]
  refine congrArg (fun s => max s 0 * _) ?_
  unfold lin
  rw [rd3_2 V c t j]
  refine congrArg (fun s => s + _) (Finset.sum_congr rfl fun k _ => ?_)
  rw [rd3_0 V c t p k ⟨t.val * 12800 + p.val, by omega⟩ rfl, rd3_1 V c t k j]

theorem mem_blk3 (t : Fin cfg3.N) (i : S1600000x1.Idx) :
    i ∈ ((cfg3.win 5).blk t).view.set ↔ ∀ a : Fin 2, win3_5.index t a * S12800x1.size a ≤ (i a).val ∧ (i a).val < win3_5.index t a * S12800x1.size a + S12800x1.size a := by
  show i ∈ ((View.whole main_v109).slice (win3_5.rect t)).set ↔ _
  rw [View.set_slice_whole, Rect.mem_set_unit]
  exact Iff.rfl

/-- The 125 row blocks cover the result column. -/
theorem rows_cover3 (i : S1600000x1.Idx) : ∃ t : Fin cfg3.N, (cfg3.win 5).flush t = true ∧ i ∈ ((cfg3.win 5).blk t).view.set := by
  have hi0 : (i 0).val < 1600000 := (i 0).isLt
  have hi1 : (i 1).val < 1 := (i 1).isLt
  obtain ⟨t, ht⟩ := idx_onto3 ⟨(i 0).val / 12800, by omega⟩
  have q0 : win3_5.index t (0 : Fin 2) = (i 0).val / 12800 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 12800 ≤ (i 0).val ∧ (i 0).val < win3_5.index t (0 : Fin 2) * 12800 + 12800; omega
  | ⟨1, _⟩ => show win3_5.index t (1 : Fin 2) * 1 ≤ (i 1).val ∧ (i 1).val < win3_5.index t (1 : Fin 2) * 1 + 1; omega

/-- After the region the result column is the two-layer result of the operand arrays as the region found them. -/
theorem arr3 (c : Dev nD) : (dat3 V c).arrAt 5 cfg3.N = G3 (V c main_v108) (V c main_arg8) (V c main_arg9) (V c main_arg10) (V c main_arg11) :=
  (dat3 V c).arrAt_eq_of_cover 5 _ (fun t _ => flushed3_eq V c t) rows_cover3

end Cert.KernelIdeal.Hand

end
-- ==== Proof.KI.Value.lean ====
import proofs.«147518_j83124797046831_1_alg».proof.Proof.KI.Run
import proofs.«147518_j83124797046831_1_alg».proof.Proof.KI.Arr0
import proofs.«147518_j83124797046831_1_alg».proof.Proof.KI.Arr1
import proofs.«147518_j83124797046831_1_alg».proof.Proof.KI.Arr2
import proofs.«147518_j83124797046831_1_alg».proof.Proof.KI.Arr3

/-!
What each region leaves in its output array, over the extended reals: the layer's result of the contents the region
found in its operand arrays.
-/

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

theorem leaves0 (c : Dev nD) : V2 m (outs m) c main_v4
    = G0 (rd (V1 m) c main_arg0) (rd (V1 m) c main_arg2) (rd (V1 m) c main_arg3) := by
  have h := (Y2_arr m c 3).trans (arr0 (rd (V1 m)) c)
  show Function.update (V1 m c) main_v4 (outs m 2 main_v4 c) main_v4 = _
  rw [Function.update_self]
  exact h

theorem leaves1 (c : Dev nD) : V4 m (outs m) c main_v6
    = G1 (rd (V3 m (outs m)) c main_v4) (rd (V3 m (outs m)) c main_arg4) (rd (V3 m (outs m)) c main_v5) := by
  have h := (Y4_arr m c 3).trans (arr1 (rd (V3 m (outsA m))) c)
  rw [← e3] at h
  show Function.update (V3 m (outs m) c) main_v6 (outs m 4 main_v6 c) main_v6 = _
  rw [Function.update_self]
  exact h

theorem leaves2 (c : Dev nD) : V9 m (outs m) c main_v50
    = G2 (rd (V8 m (outs m)) c main_v49) (rd (V8 m (outs m)) c main_arg6) (rd (V8 m (outs m)) c main_v5) := by
  have h := (Y9_arr m c 3).trans (arr2 (rd (V8 m (outsB m))) c)
  rw [← e8] at h
  show Function.update (V8 m (outs m) c) main_v50 (outs m 9 main_v50 c) main_v50 = _
  rw [Function.update_self]
  exact h

theorem leaves3 (c : Dev nD) : V15 m (outs m) c main_v109
    = G3 (rd (V14 m (outs m)) c main_v108) (rd (V14 m (outs m)) c main_arg8) (rd (V14 m (outs m)) c main_arg9)
        (rd (V14 m (outs m)) c main_arg10) (rd (V14 m (outs m)) c main_arg11) := by
  have h := (Y15_arr m c 5).trans (arr3 (rd (V14 m (outsC m))) c)
  rw [← e14] at h
  show Function.update (V14 m (outs m) c) main_v109 (outs m 15 main_v109 c) main_v109 = _
  rw [Function.update_self]
  exact h

end Cert.KernelIdeal.Hand

end
-- ==== Proof.LibAfterAppend.lean ====
/-
  The contents after two lines of host operations run one after the other: the second line's fold over the first's.
-/
import Idealize.ShloMosaic.Lib.StableHlo.Run

namespace Cert.LibAfterAppend

open Idealize.ShloMosaic Idealize.ShloMosaic.StableHlo

/-- Folding a concatenated line of operations over some contents is folding the second part over the first part's
    result. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

end Cert.LibAfterAppend
-- ==== Proof.RefCut.lean ====
import proofs.«147518_j83124797046831_1_alg».proof.Proof.RefRun
import proofs.«147518_j83124797046831_1_alg».proof.Proof.LibAfterAppend

/-!
The reference program's line of 160 host operations cut into nine consecutive stretches: the two index rows of the
edge list; the embedding layer; the first graph layer's product; its normalised scatter-sum, bias and relu; the
second graph layer's product; its scatter-sum, bias and relu; the gather of both end points' features joined with the
edge attributes; the two-layer edge network; the final reshape. The whole line is the stretches joined in order.
-/

noncomputable section

namespace Cert.ReferenceIdeal.Cut

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Stretch 0: operations 0 to 3 of the line. -/
abbrev rs0 : List (HloOp τ sig (Elt F)) :=
  [ unary main_arg12 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg12 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Stretch 1: operations 4 to 10 of the line. -/
abbrev rs1 : List (HloOp τ sig (Elt F)) :=
  [ binary main_arg0 main_arg2 main_v4 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg3 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v7) (TRef.of (T := ⟨S100000x64, .f32⟩) main_call0_v0) (TRef.of (T := ⟨S100000x64, .f32⟩) main_v8) maximumf ]

/-- Stretch 2: operations 11 to 11 of the line. -/
abbrev rs2 : List (HloOp τ sig (Elt F)) :=
  [ binary main_v8 main_arg4 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Stretch 3: operations 12 to 69 of the line. -/
abbrev rs3 : List (HloOp τ sig (Elt F)) :=
  [ nullary main_v10 (iotaInDim S100000 32 0),
    binary main_v1 main_v10 main_v11 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v10 main_v12 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v13 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v14 (broadcastInDim S100000 ![] bcast_S_S100000 : (⟨S_, .f32⟩ : BufTy).Contents (Elt F) → (⟨S100000, .f32⟩ : BufTy).Contents (Elt F)),
    unary main_v12 main_v15 (broadcastInDim S1700000x1 ![0] bcast_S1700000_S1700000x1_0 : (⟨S1700000, .i32⟩ : BufTy).Contents (Elt F) → (⟨S1700000x1, .i32⟩ : BufTy).Contents (Elt F)),
    ternary main_v14 main_v15 main_v13 main_v16 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v17 (broadcastInDim S100000 ![] bcast_S_S100000 : (⟨S_, .f32⟩ : BufTy).Contents (Elt F) → (⟨S100000, .f32⟩ : BufTy).Contents (Elt F)),
    binary main_v16 main_v17 main_v18 (cmpf .ogt : (⟨S100000, .f32⟩ : BufTy).Contents (Elt F) → (⟨S100000, .f32⟩ : BufTy).Contents (Elt F) → (⟨S100000, .i1⟩ : BufTy).Contents (Elt F)),
    unary main_v16 main_v19 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v18) (TRef.of (T := ⟨S100000, .f32⟩) main_v19) (TRef.of (T := ⟨S100000, .f32⟩) main_call1_v1) (TRef.of (T := ⟨S100000, .f32⟩) main_v20) select,
    nullary main_c (constantI S_ 32 0#32),
    unary main_c main_v21 (broadcastInDim S1700000 ![] bcast_S_S1700000 : (⟨S_, .i32⟩ : BufTy).Contents (Elt F) → (⟨S1700000, .i32⟩ : BufTy).Contents (Elt F)),
    binary main_v11 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v23 (broadcastInDim S1700000 ![] bcast_S_S1700000 : (⟨S_, .i32⟩ : BufTy).Contents (Elt F) → (⟨S1700000, .i32⟩ : BufTy).Contents (Elt F)),
    binary main_v11 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v11 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v20 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v12 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v12 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v12 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v20 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v34 main_v35 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v36 (broadcastInDim S1700000 ![] bcast_S_S1700000 : (⟨S_, .i32⟩ : BufTy).Contents (Elt F) → (⟨S1700000, .i32⟩ : BufTy).Contents (Elt F)),
    binary main_v11 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v38 (broadcastInDim S1700000 ![] bcast_S_S1700000 : (⟨S_, .i32⟩ : BufTy).Contents (Elt F) → (⟨S1700000, .i32⟩ : BufTy).Contents (Elt F)),
    binary main_v11 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v11 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v9 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v35 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v44 main_v45 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v46 (broadcastInDim S100000x64 ![] bcast_S_S100000x64 : (⟨S_, .f32⟩ : BufTy).Contents (Elt F) → (⟨S100000x64, .f32⟩ : BufTy).Contents (Elt F)),
    unary main_v12 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v48 main_v50 main_v51 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v51) (TRef.of (T := ⟨S100000x64, .f32⟩) main_call2_v0) (TRef.of (T := ⟨S100000x64, .f32⟩) main_v52) maximumf ]

/-- Stretch 4: operations 70 to 70 of the line. -/
abbrev rs4 : List (HloOp τ sig (Elt F)) :=
  [ binary main_v52 main_arg6 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Stretch 5: operations 71 to 128 of the line. -/
abbrev rs5 : List (HloOp τ sig (Elt F)) :=
  [ nullary main_v54 (iotaInDim S100000 32 0),
    binary main_v1 main_v54 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v54 main_v56 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v57 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v58 (broadcastInDim S100000 ![] bcast_S_S100000 : (⟨S_, .f32⟩ : BufTy).Contents (Elt F) → (⟨S100000, .f32⟩ : BufTy).Contents (Elt F)),
    unary main_v56 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v61 (broadcastInDim S100000 ![] bcast_S_S100000 : (⟨S_, .f32⟩ : BufTy).Contents (Elt F) → (⟨S100000, .f32⟩ : BufTy).Contents (Elt F)),
    binary main_v60 main_v61 main_v62 (cmpf .ogt : (⟨S100000, .f32⟩ : BufTy).Contents (Elt F) → (⟨S100000, .f32⟩ : BufTy).Contents (Elt F) → (⟨S100000, .i1⟩ : BufTy).Contents (Elt F)),
    unary main_v60 main_v63 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v62) (TRef.of (T := ⟨S100000, .f32⟩) main_v63) (TRef.of (T := ⟨S100000, .f32⟩) main_call3_v1) (TRef.of (T := ⟨S100000, .f32⟩) main_v64) select,
    nullary main_c_13 (constantI S_ 32 0#32),
    unary main_c_13 main_v65 (broadcastInDim S1700000 ![] bcast_S_S1700000 : (⟨S_, .i32⟩ : BufTy).Contents (Elt F) → (⟨S1700000, .i32⟩ : BufTy).Contents (Elt F)),
    binary main_v55 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v67 (broadcastInDim S1700000 ![] bcast_S_S1700000 : (⟨S_, .i32⟩ : BufTy).Contents (Elt F) → (⟨S1700000, .i32⟩ : BufTy).Contents (Elt F)),
    binary main_v55 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v55 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v64 main_v70 main_v71 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v72 (broadcastInDim S1700000 ![] bcast_S_S1700000 : (⟨S_, .i32⟩ : BufTy).Contents (Elt F) → (⟨S1700000, .i32⟩ : BufTy).Contents (Elt F)),
    binary main_v56 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v74 (broadcastInDim S1700000 ![] bcast_S_S1700000 : (⟨S_, .i32⟩ : BufTy).Contents (Elt F) → (⟨S1700000, .i32⟩ : BufTy).Contents (Elt F)),
    binary main_v56 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v56 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v64 main_v77 main_v78 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v71 main_v78 main_v79 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v80 (broadcastInDim S1700000 ![] bcast_S_S1700000 : (⟨S_, .i32⟩ : BufTy).Contents (Elt F) → (⟨S1700000, .i32⟩ : BufTy).Contents (Elt F)),
    binary main_v55 main_v80 main_v81 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v82 (broadcastInDim S1700000 ![] bcast_S_S1700000 : (⟨S_, .i32⟩ : BufTy).Contents (Elt F) → (⟨S1700000, .i32⟩ : BufTy).Contents (Elt F)),
    binary main_v55 main_v82 main_v83 (addi : (⟨S1700000, .i32⟩ : BufTy).Contents (Elt F) → (⟨S1700000, .i32⟩ : BufTy).Contents (Elt F) → (⟨S1700000, .i32⟩ : BufTy).Contents (Elt F)),
    ternary main_v81 main_v83 main_v55 main_v84 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v84 main_v85 (broadcastInDim S1700000x1 ![0] bcast_S1700000_S1700000x1_0 : (⟨S1700000, .i32⟩ : BufTy).Contents (Elt F) → (⟨S1700000x1, .i32⟩ : BufTy).Contents (Elt F)),
    binary main_v53 main_v85 main_v86 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v79 main_v87 (broadcastInDim S1700000x1 ![0] bcast_S1700000_S1700000x1_0 : (⟨S1700000, .f32⟩ : BufTy).Contents (Elt F) → (⟨S1700000x1, .f32⟩ : BufTy).Contents (Elt F)),
    unary main_v87 main_v88 (broadcastInDim S1700000x64 ![0, 1] bcast_S1700000x1_S1700000x64_0_1 : (⟨S1700000x1, .f32⟩ : BufTy).Contents (Elt F) → (⟨S1700000x64, .f32⟩ : BufTy).Contents (Elt F)),
    binary main_v86 main_v88 main_v89 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v90 (broadcastInDim S100000x64 ![] bcast_S_S100000x64 : (⟨S_, .f32⟩ : BufTy).Contents (Elt F) → (⟨S100000x64, .f32⟩ : BufTy).Contents (Elt F)),
    unary main_v56 main_v91 (broadcastInDim S1700000x1 ![0] bcast_S1700000_S1700000x1_0 : (⟨S1700000, .i32⟩ : BufTy).Contents (Elt F) → (⟨S1700000x1, .i32⟩ : BufTy).Contents (Elt F)),
    ternary main_v90 main_v91 main_v89 main_v92 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v92 main_v94 main_v95 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v95) (TRef.of (T := ⟨S100000x64, .f32⟩) main_call4_v0) (TRef.of (T := ⟨S100000x64, .f32⟩) main_v96) maximumf ]

/-- Stretch 6: operations 129 to 147 of the line. -/
abbrev rs6 : List (HloOp τ sig (Elt F)) :=
  [ nullary main_c_20 (constantI S_ 32 0#32),
    unary main_c_20 main_v97 (broadcastInDim S1600000 ![] bcast_S_S1600000 : (⟨S_, .i32⟩ : BufTy).Contents (Elt F) → (⟨S1600000, .i32⟩ : BufTy).Contents (Elt F)),
    binary main_v1 main_v97 main_v98 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v99 (broadcastInDim S1600000 ![] bcast_S_S1600000 : (⟨S_, .i32⟩ : BufTy).Contents (Elt F) → (⟨S1600000, .i32⟩ : BufTy).Contents (Elt F)),
    binary main_v1 main_v99 main_v100 (addi : (⟨S1600000, .i32⟩ : BufTy).Contents (Elt F) → (⟨S1600000, .i32⟩ : BufTy).Contents (Elt F) → (⟨S1600000, .i32⟩ : BufTy).Contents (Elt F)),
    ternary main_v98 main_v100 main_v1 main_v101 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v101 main_v102 (broadcastInDim S1600000x1 ![0] bcast_S1600000_S1600000x1_0 : (⟨S1600000, .i32⟩ : BufTy).Contents (Elt F) → (⟨S1600000x1, .i32⟩ : BufTy).Contents (Elt F)),
    binary main_v96 main_v102 main_v103 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_22 (constantI S_ 32 0#32),
    unary main_c_22 main_v104 (broadcastInDim S1600000 ![] bcast_S_S1600000 : (⟨S_, .i32⟩ : BufTy).Contents (Elt F) → (⟨S1600000, .i32⟩ : BufTy).Contents (Elt F)),
    binary main_v3 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v106 (broadcastInDim S1600000 ![] bcast_S_S1600000 : (⟨S_, .i32⟩ : BufTy).Contents (Elt F) → (⟨S1600000, .i32⟩ : BufTy).Contents (Elt F)),
    binary main_v3 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_v3 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v96 main_v109 main_v110 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nary ![main_v103, main_v110, main_arg1] main_v111 (fun u => concatenate S1600000x136 1 [⟨S1600000x64, u 0⟩, ⟨S1600000x64, u 1⟩, ⟨S1600000x8, u 2⟩] concatenates_S1600000x64_S1600000x64_S1600000x8_S1600000x136_d1) ]

/-- Stretch 7: operations 148 to 158 of the line. -/
abbrev rs7 : List (HloOp τ sig (Elt F)) :=
  [ binary main_v111 main_arg8 main_v112 ((fun l r => Host.dotGeneral dot_S1600000x136_S136x64_S1600000x64_1_0_0_1_n_n none l r) : (⟨S1600000x136, .f32⟩ : BufTy).Contents (Elt F) → (⟨S136x64, .f32⟩ : BufTy).Contents (Elt F) → (⟨S1600000x64, .f32⟩ : BufTy).Contents (Elt F)),
    unary main_arg9 main_v113 (broadcastInDim S1x64 ![1] bcast_S64_S1x64_1 : (⟨S64, .f32⟩ : BufTy).Contents (Elt F) → (⟨S1x64, .f32⟩ : BufTy).Contents (Elt F)),
    unary main_v113 main_v114 (broadcastInDim S1600000x64 ![0, 1] bcast_S1x64_S1600000x64_0_1 : (⟨S1x64, .f32⟩ : BufTy).Contents (Elt F) → (⟨S1600000x64, .f32⟩ : BufTy).Contents (Elt F)),
    binary main_v112 main_v114 main_v115 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1600000x64, .f32⟩) main_call5_v0) (broadcastInDim S1600000x64 ![] bcast_S_S1600000x64),
    TRef.binary (TRef.of (T := ⟨S1600000x64, .f32⟩) main_v115) (TRef.of (T := ⟨S1600000x64, .f32⟩) main_call5_v0) (TRef.of (T := ⟨S1600000x64, .f32⟩) main_v116) maximumf,
    binary main_v116 main_arg10 main_v117 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg11 main_v118 (broadcastInDim S1x1 ![1] bcast_S1_S1x1_1 : (⟨S1, .f32⟩ : BufTy).Contents (Elt F) → (⟨S1x1, .f32⟩ : BufTy).Contents (Elt F)),
    unary main_v118 main_v119 (broadcastInDim S1600000x1 ![0, 1] bcast_S1x1_S1600000x1_0_1 : (⟨S1x1, .f32⟩ : BufTy).Contents (Elt F) → (⟨S1600000x1, .f32⟩ : BufTy).Contents (Elt F)),
    binary main_v117 main_v119 main_v120 (addf : (⟨S1600000x1, .f32⟩ : BufTy).Contents (Elt F) → (⟨S1600000x1, .f32⟩ : BufTy).Contents (Elt F) → (⟨S1600000x1, .f32⟩ : BufTy).Contents (Elt F)) ]

/-- Stretch 8: operations 159 to 159 of the line. -/
abbrev rs8 : List (HloOp τ sig (Elt F)) :=
  [ reshape main_v120 main_v121 rfl shapeCasts_S1600000x1_S1600000 ]

set_option maxRecDepth 8192 in
/-- The line is its stretches in order. -/
theorem ops_cut : (ops : List (HloOp τ sig (Elt F))) = rs0 ++ (rs1 ++ (rs2 ++ (rs3 ++ (rs4 ++ (rs5 ++ (rs6 ++ (rs7 ++ rs8))))))) := rfl

/-- The contents after the whole line: each stretch folded over the one before. -/
theorem after_ops (V : Valuation τ sig (Elt F)) :
    after ops V = after rs8 (after rs7 (after rs6 (after rs5 (after rs4 (after rs3 (after rs2 (after rs1 (after rs0 V)))))))) := by
  rw [ops_cut]
  simp only [Cert.LibAfterAppend.after_append]

end Cert.ReferenceIdeal.Cut

end
-- ==== Proof.RefKeep.lean ====
import proofs.«147518_j83124797046831_1_alg».proof.Proof.RefCut

/-!
Which buffers each stretch of the reference's line writes: every operation writes its own result buffer and nothing
else, so a buffer no operation of a stretch names as its result holds after the stretch what it held before.
-/

set_option maxRecDepth 16384

noncomputable section

namespace Cert.ReferenceIdeal.Cut

open Cert.ReferenceIdeal Cert.ReferenceIdeal.Gen Idealize.ShloMosaic Idealize.ShloMosaic.TcCoe Idealize.SL.Sem Idealize.ShloMosaic.StableHlo

variable {F : FTy → Type} [FloatOps F]

/-- The buffers stretch 0 writes. -/
abbrev rs0_W : List (Ref sig .tc) := [main_v0, main_v1, main_v2, main_v3]
theorem rs0_writes : (rs0 : List (HloOp τ sig (Elt F))).Forall fun op => op.writes ⊆ (rs0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 0 does not write is unchanged by it. -/
theorem keep0 (V : Valuation τ sig (Elt F)) (r : Ref sig .tc) (h : r ∉ rs0_W) : after rs0 V r = V r :=
  StableHlo.after_of_writes_sub rs0 _ rs0_writes h

/-- The buffers stretch 1 writes. -/
abbrev rs1_W : List (Ref sig .tc) := [main_v4, main_v5, main_v6, main_v7, main_call0_cst, main_call0_v0, main_v8]
theorem rs1_writes : (rs1 : List (HloOp τ sig (Elt F))).Forall fun op => op.writes ⊆ (rs1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 1 does not write is unchanged by it. -/
theorem keep1 (V : Valuation τ sig (Elt F)) (r : Ref sig .tc) (h : r ∉ rs1_W) : after rs1 V r = V r :=
  StableHlo.after_of_writes_sub rs1 _ rs1_writes h

/-- The buffers stretch 2 writes. -/
abbrev rs2_W : List (Ref sig .tc) := [main_v9]
theorem rs2_writes : (rs2 : List (HloOp τ sig (Elt F))).Forall fun op => op.writes ⊆ (rs2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not write is unchanged by it. -/
theorem keep2 (V : Valuation τ sig (Elt F)) (r : Ref sig .tc) (h : r ∉ rs2_W) : after rs2 V r = V r :=
  StableHlo.after_of_writes_sub rs2 _ rs2_writes h

/-- The buffers stretch 3 writes. -/
abbrev rs3_W : List (Ref sig .tc) := [main_v10, main_v11, main_v12, main_cst, main_v13, main_cst_0, main_v14, main_v15, main_v16, main_cst_1, main_v17, main_v18, main_v19, main_cst_2, main_call1_v0, main_call1_v1, main_v20, main_c, main_v21, main_v22, main_c_3, main_v23, main_v24, main_v25, main_v26, main_v27, main_c_4, main_v28, main_v29, main_c_5, main_v30, main_v31, main_v32, main_v33, main_v34, main_v35, main_c_6, main_v36, main_v37, main_c_7, main_v38, main_v39, main_v40, main_v41, main_v42, main_v43, main_v44, main_v45, main_cst_8, main_v46, main_v47, main_v48, main_v49, main_v50, main_v51, main_call2_cst, main_call2_v0, main_v52]
theorem rs3_writes : (rs3 : List (HloOp τ sig (Elt F))).Forall fun op => op.writes ⊆ (rs3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 3 does not write is unchanged by it. -/
theorem keep3 (V : Valuation τ sig (Elt F)) (r : Ref sig .tc) (h : r ∉ rs3_W) : after rs3 V r = V r :=
  StableHlo.after_of_writes_sub rs3 _ rs3_writes h

/-- The buffers stretch 4 writes. -/
abbrev rs4_W : List (Ref sig .tc) := [main_v53]
theorem rs4_writes : (rs4 : List (HloOp τ sig (Elt F))).Forall fun op => op.writes ⊆ (rs4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 4 does not write is unchanged by it. -/
theorem keep4 (V : Valuation τ sig (Elt F)) (r : Ref sig .tc) (h : r ∉ rs4_W) : after rs4 V r = V r :=
  StableHlo.after_of_writes_sub rs4 _ rs4_writes h

/-- The buffers stretch 5 writes. -/
abbrev rs5_W : List (Ref sig .tc) := [main_v54, main_v55, main_v56, main_cst_9, main_v57, main_cst_10, main_v58, main_v59, main_v60, main_cst_11, main_v61, main_v62, main_v63, main_cst_12, main_call3_v0, main_call3_v1, main_v64, main_c_13, main_v65, main_v66, main_c_14, main_v67, main_v68, main_v69, main_v70, main_v71, main_c_15, main_v72, main_v73, main_c_16, main_v74, main_v75, main_v76, main_v77, main_v78, main_v79, main_c_17, main_v80, main_v81, main_c_18, main_v82, main_v83, main_v84, main_v85, main_v86, main_v87, main_v88, main_v89, main_cst_19, main_v90, main_v91, main_v92, main_v93, main_v94, main_v95, main_call4_cst, main_call4_v0, main_v96]
theorem rs5_writes : (rs5 : List (HloOp τ sig (Elt F))).Forall fun op => op.writes ⊆ (rs5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 5 does not write is unchanged by it. -/
theorem keep5 (V : Valuation τ sig (Elt F)) (r : Ref sig .tc) (h : r ∉ rs5_W) : after rs5 V r = V r :=
  StableHlo.after_of_writes_sub rs5 _ rs5_writes h

/-- The buffers stretch 6 writes. -/
abbrev rs6_W : List (Ref sig .tc) := [main_c_20, main_v97, main_v98, main_c_21, main_v99, main_v100, main_v101, main_v102, main_v103, main_c_22, main_v104, main_v105, main_c_23, main_v106, main_v107, main_v108, main_v109, main_v110, main_v111]
theorem rs6_writes : (rs6 : List (HloOp τ sig (Elt F))).Forall fun op => op.writes ⊆ (rs6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 6 does not write is unchanged by it. -/
theorem keep6 (V : Valuation τ sig (Elt F)) (r : Ref sig .tc) (h : r ∉ rs6_W) : after rs6 V r = V r :=
  StableHlo.after_of_writes_sub rs6 _ rs6_writes h

/-- The buffers stretch 7 writes. -/
abbrev rs7_W : List (Ref sig .tc) := [main_v112, main_v113, main_v114, main_v115, main_call5_cst, main_call5_v0, main_v116, main_v117, main_v118, main_v119, main_v120]
theorem rs7_writes : (rs7 : List (HloOp τ sig (Elt F))).Forall fun op => op.writes ⊆ (rs7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 7 does not write is unchanged by it. -/
theorem keep7 (V : Valuation τ sig (Elt F)) (r : Ref sig .tc) (h : r ∉ rs7_W) : after rs7 V r = V r :=
  StableHlo.after_of_writes_sub rs7 _ rs7_writes h

/-- The buffers stretch 8 writes. -/
abbrev rs8_W : List (Ref sig .tc) := [main_v121]
theorem rs8_writes : (rs8 : List (HloOp τ sig (Elt F))).Forall fun op => op.writes ⊆ (rs8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 8 does not write is unchanged by it. -/
theorem keep8 (V : Valuation τ sig (Elt F)) (r : Ref sig .tc) (h : r ∉ rs8_W) : after rs8 V r = V r :=
  StableHlo.after_of_writes_sub rs8 _ rs8_writes h

end Cert.ReferenceIdeal.Cut

end
-- ==== Proof.LibJoin.lean ====
import Idealize.ShloMosaic.Lib.StableHlo.Run
import Idealize.ShloMosaic.PureOps.Ideal

/-!
Joining two or three arrays along an axis, named as functions of the joined arrays, so that a rewriting pass can reach
the joined arrays (which otherwise sit inside a list of shape-tagged pairs).
-/

noncomputable section

namespace Cert.LibJoin

open Idealize.ShloMosaic Idealize.ShloMosaic.StableHlo

/-- Two arrays joined along axis `a`. -/
def cat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- Three arrays joined along axis `a`. -/
def cat3 {α : Type} (t : Shape) (a : Fin t.rank) (s1 s2 s3 : Shape) (x : s1.Idx → α) (y : s2.Idx → α) (z : s3.Idx → α)
    (h : Shape.Concatenates [s1, s2, s3] t a) : t.Idx → α :=
  concatenate t a [⟨s1, x⟩, ⟨s2, y⟩, ⟨s3, z⟩] h

theorem cat2_eq {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 x y h := rfl

theorem cat3_eq {α : Type} (t : Shape) (a : Fin t.rank) (s1 s2 s3 : Shape) (x : s1.Idx → α) (y : s2.Idx → α) (z : s3.Idx → α)
    (h : Shape.Concatenates [s1, s2, s3] t a) :
    concatenate t a [⟨s1, x⟩, ⟨s2, y⟩, ⟨s3, z⟩] h = cat3 t a s1 s2 s3 x y z h := rfl

/-- Every buffer after a line of operations as the composed term of the contents before it, the joins named. -/
macro "stage_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      ↓cat2_eq, ↓cat3_eq, Matrix.cons_val_zero, Matrix.cons_val_one, Matrix.cons_val_two, Matrix.head_cons, Matrix.tail_cons]))

end Cert.LibJoin

end
-- ==== Proof.Bridge.Agg1.lean ====
import proofs.«147518_j83124797046831_1_alg».proof.Proof.Gen.KernelIdeal.Launch
import proofs.«147518_j83124797046831_1_alg».proof.Proof.RefCut
import proofs.«147518_j83124797046831_1_alg».proof.Proof.LibJoin
import Idealize.ShloMosaic.Lib.StableHlo.Run
import Idealize.ShloMosaic.PureOps.Ideal

set_option maxRecDepth 16384

noncomputable section

namespace Cert.Bridge

open Idealize.ShloMosaic Idealize.ShloMosaic.TcCoe Idealize.ShloMosaic.StableHlo

/-!
The host operations between two kernel regions are, in both programs, the same pure functions applied in the same
order to buffers that correspond one to one. So when the buffers a stretch reads hold equal contents in the two
programs, the buffer it ends at holds equal contents too: the two composed terms are one term.
-/

variable (Vk : Valuation Cert.KernelIdeal.τ Cert.KernelIdeal.sig (Elt Ideal)) (Wr : Valuation Cert.ReferenceIdeal.τ Cert.ReferenceIdeal.sig (Elt Ideal))

set_option maxHeartbeats 4000000 in
/-- The first graph layer's aggregation: normalised scatter-sum over the edges and self-loops, bias, relu. -/
theorem agg1
    (h6 : (Vk Cert.KernelIdeal.main_v6 : (⟨Cert.KernelIdeal.S100000x64, .f32⟩ : BufTy).Contents (Elt Ideal)) = Wr Cert.ReferenceIdeal.main_v9)
    (h5 : (Vk Cert.KernelIdeal.main_arg5 : (⟨Cert.KernelIdeal.S64, .f32⟩ : BufTy).Contents (Elt Ideal)) = Wr Cert.ReferenceIdeal.main_arg5)
    (h1 : (Vk Cert.KernelIdeal.main_v1 : (⟨Cert.KernelIdeal.S1600000, .i32⟩ : BufTy).Contents (Elt Ideal)) = Wr Cert.ReferenceIdeal.main_v1)
    (h3 : (Vk Cert.KernelIdeal.main_v3 : (⟨Cert.KernelIdeal.S1600000, .i32⟩ : BufTy).Contents (Elt Ideal)) = Wr Cert.ReferenceIdeal.main_v3) :
    (after Cert.KernelIdeal.Gen.hostOps2_3 (after Cert.KernelIdeal.Gen.hostOps2_2 (after Cert.KernelIdeal.Gen.hostOps2_1 (after Cert.KernelIdeal.Gen.hostOps2 Vk))) Cert.KernelIdeal.main_v49 : (⟨Cert.KernelIdeal.S100000x64, .f32⟩ : BufTy).Contents (Elt Ideal))
      = after Cert.ReferenceIdeal.Cut.rs3 Wr Cert.ReferenceIdeal.main_v52 := by
  simp only [Cert.KernelIdeal.Gen.hostOps2, Cert.KernelIdeal.Gen.hostOps2_1, Cert.KernelIdeal.Gen.hostOps2_2, Cert.KernelIdeal.Gen.hostOps2_3, Cert.ReferenceIdeal.Cut.rs3]
  stage_results
  rw [h6, h5, h1, h3]
  rfl

end Cert.Bridge

end
-- ==== Proof.Bridge.Stages.lean ====
import proofs.«147518_j83124797046831_1_alg».proof.Proof.Gen.KernelIdeal.Launch
import proofs.«147518_j83124797046831_1_alg».proof.Proof.RefCut
import proofs.«147518_j83124797046831_1_alg».proof.Proof.LibJoin
import proofs.«147518_j83124797046831_1_alg».proof.Proof.DenseAt
import Idealize.ShloMosaic.Lib.StableHlo.Run
import Idealize.ShloMosaic.PureOps.Ideal

set_option maxRecDepth 16384

noncomputable section

namespace Cert.Bridge

open Idealize.ShloMosaic Idealize.ShloMosaic.TcCoe Idealize.ShloMosaic.StableHlo

open Idealize.ShloMosaic.ValueIdx Cert.DenseAt

/-!
Stretch by stretch: the host operations the two programs share, and the reference's dense layers read at an entry.
-/

variable (Vk : Valuation Cert.KernelIdeal.τ Cert.KernelIdeal.sig (Elt Ideal)) (Wr : Valuation Cert.ReferenceIdeal.τ Cert.ReferenceIdeal.sig (Elt Ideal))

/-- The two rows of the edge list: the source and the target node of every edge. -/
theorem rows0 (h12 : (Vk Cert.KernelIdeal.main_arg12 : (⟨Cert.KernelIdeal.S2x1600000, .i32⟩ : BufTy).Contents (Elt Ideal)) = Wr Cert.ReferenceIdeal.main_arg12) :
    (after Cert.KernelIdeal.Gen.hostOps0 Vk Cert.KernelIdeal.main_v1 : (⟨Cert.KernelIdeal.S1600000, .i32⟩ : BufTy).Contents (Elt Ideal)) = after Cert.ReferenceIdeal.Cut.rs0 Wr Cert.ReferenceIdeal.main_v1
    ∧ (after Cert.KernelIdeal.Gen.hostOps0 Vk Cert.KernelIdeal.main_v3 : (⟨Cert.KernelIdeal.S1600000, .i32⟩ : BufTy).Contents (Elt Ideal)) = after Cert.ReferenceIdeal.Cut.rs0 Wr Cert.ReferenceIdeal.main_v3 := by
  constructor
  · simp only [Cert.KernelIdeal.Gen.hostOps0, Cert.ReferenceIdeal.Cut.rs0]
    stage_results
    rw [h12]
    rfl
  · simp only [Cert.KernelIdeal.Gen.hostOps0, Cert.ReferenceIdeal.Cut.rs0]
    stage_results
    rw [h12]
    rfl

/-- The zero bias row the kernel hands to its bias-free layers. -/
theorem zeros (q : Fin 64) : (after Cert.KernelIdeal.Gen.hostOps1 Vk Cert.KernelIdeal.main_v5 : (⟨Cert.KernelIdeal.S64, .f32⟩ : BufTy).Contents (Elt Ideal)) (ix1 q) = (0 : EReal) := by
  simp only [Cert.KernelIdeal.Gen.hostOps1]
  stage_results
  refine (broadcastInDim_apply _ _ _ (ix1 q) ix0 fun a => a.elim0).trans ?_
  exact Ideal.ofBits_zero_f32

set_option maxHeartbeats 4000000 in
/-- The second graph layer's aggregation: normalised scatter-sum over the edges and self-loops, bias, relu. -/
theorem agg2
    (h6 : (Vk Cert.KernelIdeal.main_v50 : (⟨Cert.KernelIdeal.S100000x64, .f32⟩ : BufTy).Contents (Elt Ideal)) = Wr Cert.ReferenceIdeal.main_v53)
    (h5 : (Vk Cert.KernelIdeal.main_arg7 : (⟨Cert.KernelIdeal.S64, .f32⟩ : BufTy).Contents (Elt Ideal)) = Wr Cert.ReferenceIdeal.main_arg7)
    (h1 : (Vk Cert.KernelIdeal.main_v1 : (⟨Cert.KernelIdeal.S1600000, .i32⟩ : BufTy).Contents (Elt Ideal)) = Wr Cert.ReferenceIdeal.main_v1)
    (h3 : (Vk Cert.KernelIdeal.main_v3 : (⟨Cert.KernelIdeal.S1600000, .i32⟩ : BufTy).Contents (Elt Ideal)) = Wr Cert.ReferenceIdeal.main_v3) :
    (after Cert.KernelIdeal.Gen.hostOps3_3 (after Cert.KernelIdeal.Gen.hostOps3_2 (after Cert.KernelIdeal.Gen.hostOps3_1 (after Cert.KernelIdeal.Gen.hostOps3 Vk))) Cert.KernelIdeal.main_v93 : (⟨Cert.KernelIdeal.S100000x64, .f32⟩ : BufTy).Contents (Elt Ideal))
      = after Cert.ReferenceIdeal.Cut.rs5 Wr Cert.ReferenceIdeal.main_v96 := by
  simp only [Cert.KernelIdeal.Gen.hostOps3, Cert.KernelIdeal.Gen.hostOps3_1, Cert.KernelIdeal.Gen.hostOps3_2, Cert.KernelIdeal.Gen.hostOps3_3, Cert.ReferenceIdeal.Cut.rs5]
  stage_results
  rw [h6, h5, h1, h3]
  rfl

set_option maxHeartbeats 4000000 in
/-- Every edge's feature row: the source node's features, the target node's features, the edge's attributes. The
    two gathers first, then the join of the three pieces. -/
theorem ef
    (h93 : (Vk Cert.KernelIdeal.main_v93 : (⟨Cert.KernelIdeal.S100000x64, .f32⟩ : BufTy).Contents (Elt Ideal)) = Wr Cert.ReferenceIdeal.main_v96)
    (ha1 : (Vk Cert.KernelIdeal.main_arg1 : (⟨Cert.KernelIdeal.S1600000x8, .f32⟩ : BufTy).Contents (Elt Ideal)) = Wr Cert.ReferenceIdeal.main_arg1)
    (h1 : (Vk Cert.KernelIdeal.main_v1 : (⟨Cert.KernelIdeal.S1600000, .i32⟩ : BufTy).Contents (Elt Ideal)) = Wr Cert.ReferenceIdeal.main_v1)
    (h3 : (Vk Cert.KernelIdeal.main_v3 : (⟨Cert.KernelIdeal.S1600000, .i32⟩ : BufTy).Contents (Elt Ideal)) = Wr Cert.ReferenceIdeal.main_v3) :
    (after Cert.KernelIdeal.Gen.hostOps3_4 Vk Cert.KernelIdeal.main_v108 : (⟨Cert.KernelIdeal.S1600000x136, .f32⟩ : BufTy).Contents (Elt Ideal)) = after Cert.ReferenceIdeal.Cut.rs6 Wr Cert.ReferenceIdeal.main_v111 := by
  have hk : (Cert.KernelIdeal.Gen.hostOps3_4 : List (HloOp Cert.KernelIdeal.τ Cert.KernelIdeal.sig (Elt Ideal))) = Cert.KernelIdeal.Gen.hostOps3_4.take 18 ++ Cert.KernelIdeal.Gen.hostOps3_4.drop 18 :=
    (List.take_append_drop 18 _).symm
  have hr : (Cert.ReferenceIdeal.Cut.rs6 : List (HloOp Cert.ReferenceIdeal.τ Cert.ReferenceIdeal.sig (Elt Ideal))) = Cert.ReferenceIdeal.Cut.rs6.take 18 ++ Cert.ReferenceIdeal.Cut.rs6.drop 18 :=
    (List.take_append_drop 18 _).symm
  rw [hk, hr, Cert.LibAfterAppend.after_append, Cert.LibAfterAppend.after_append]
  have e100 : (after (Cert.KernelIdeal.Gen.hostOps3_4.take 18) Vk Cert.KernelIdeal.main_v100 : (⟨Cert.KernelIdeal.S1600000x64, .f32⟩ : BufTy).Contents (Elt Ideal))
      = after (Cert.ReferenceIdeal.Cut.rs6.take 18) Wr Cert.ReferenceIdeal.main_v103 := by
    simp only [Cert.KernelIdeal.Gen.hostOps3_4, Cert.ReferenceIdeal.Cut.rs6, List.take_succ_cons, List.take_zero]
    stage_results
    rw [h93, h1]
    rfl
  have e107 : (after (Cert.KernelIdeal.Gen.hostOps3_4.take 18) Vk Cert.KernelIdeal.main_v107 : (⟨Cert.KernelIdeal.S1600000x64, .f32⟩ : BufTy).Contents (Elt Ideal))
      = after (Cert.ReferenceIdeal.Cut.rs6.take 18) Wr Cert.ReferenceIdeal.main_v110 := by
    simp only [Cert.KernelIdeal.Gen.hostOps3_4, Cert.ReferenceIdeal.Cut.rs6, List.take_succ_cons, List.take_zero]
    stage_results
    rw [h93, h3]
    rfl
  have ea1 : (after (Cert.KernelIdeal.Gen.hostOps3_4.take 18) Vk Cert.KernelIdeal.main_arg1 : (⟨Cert.KernelIdeal.S1600000x8, .f32⟩ : BufTy).Contents (Elt Ideal))
      = after (Cert.ReferenceIdeal.Cut.rs6.take 18) Wr Cert.ReferenceIdeal.main_arg1 := by
    simp only [Cert.KernelIdeal.Gen.hostOps3_4, Cert.ReferenceIdeal.Cut.rs6, List.take_succ_cons, List.take_zero]
    stage_results
    exact ha1
  generalize after (Cert.KernelIdeal.Gen.hostOps3_4.take 18) Vk = A at e100 e107 ea1 ⊢
  generalize after (Cert.ReferenceIdeal.Cut.rs6.take 18) Wr = B at e100 e107 ea1 ⊢
  simp only [Cert.KernelIdeal.Gen.hostOps3_4, Cert.ReferenceIdeal.Cut.rs6, List.drop_succ_cons, List.drop_zero, after_cons, after_nil]
  rw [nary_result, nary_result]
  show concatenate Cert.KernelIdeal.S1600000x136 1 [⟨Cert.KernelIdeal.S1600000x64, A Cert.KernelIdeal.main_v100⟩, ⟨Cert.KernelIdeal.S1600000x64, A Cert.KernelIdeal.main_v107⟩, ⟨Cert.KernelIdeal.S1600000x8, A Cert.KernelIdeal.main_arg1⟩] _
    = concatenate Cert.ReferenceIdeal.S1600000x136 1 [⟨Cert.ReferenceIdeal.S1600000x64, B Cert.ReferenceIdeal.main_v103⟩, ⟨Cert.ReferenceIdeal.S1600000x64, B Cert.ReferenceIdeal.main_v110⟩, ⟨Cert.ReferenceIdeal.S1600000x8, B Cert.ReferenceIdeal.main_arg1⟩] _
  rw [e100, e107, ea1]

/-- The result column reshaped to a vector. -/
theorem fin (h : (Vk Cert.KernelIdeal.main_v109 : (⟨Cert.KernelIdeal.S1600000x1, .f32⟩ : BufTy).Contents (Elt Ideal)) = Wr Cert.ReferenceIdeal.main_v120) :
    (after Cert.KernelIdeal.Gen.hostOps4 Vk Cert.KernelIdeal.main_v110 : (⟨Cert.KernelIdeal.S1600000, .f32⟩ : BufTy).Contents (Elt Ideal)) = after Cert.ReferenceIdeal.Cut.rs8 Wr Cert.ReferenceIdeal.main_v121 := by
  simp only [Cert.KernelIdeal.Gen.hostOps4, Cert.ReferenceIdeal.Cut.rs8]
  stage_results
  rw [h]
  rfl

/-! ## The reference's dense layers at an entry -/

/-- The embedding layer: `max (∑ₖ x(p,k)·w(k,q) + b(q)) 0`. -/
theorem r_embed (p : Fin 100000) (q : Fin 64) :
    (after Cert.ReferenceIdeal.Cut.rs1 Wr Cert.ReferenceIdeal.main_v8 : (⟨Cert.ReferenceIdeal.S100000x64, .f32⟩ : BufTy).Contents (Elt Ideal)) (ix2 p q)
      = max (lin (M := 100000) (K := 32) (N := 64) (Wr Cert.ReferenceIdeal.main_arg0) (Wr Cert.ReferenceIdeal.main_arg2) (Wr Cert.ReferenceIdeal.main_arg3) p q) 0 := by
  simp only [Cert.ReferenceIdeal.Cut.rs1]
  stage_results
  simp only [TRef.ofBuf, TRef.toBuf, cast_eq]
  exact ref_embed_at _ _ _ p q

/-- A graph layer's product: `∑ₖ h(p,k)·w(k,q)`. -/
theorem r_dot1 (X : FVec Ideal Cert.ReferenceIdeal.S100000x64 .f32) (W : FVec Ideal Cert.ReferenceIdeal.S64x64 .f32)
    (hx : (Wr Cert.ReferenceIdeal.main_v8 : (⟨Cert.ReferenceIdeal.S100000x64, .f32⟩ : BufTy).Contents (Elt Ideal)) = X) (hw : (Wr Cert.ReferenceIdeal.main_arg4 : (⟨Cert.ReferenceIdeal.S64x64, .f32⟩ : BufTy).Contents (Elt Ideal)) = W)
    (p : Fin 100000) (q : Fin 64) :
    ((after Cert.ReferenceIdeal.Cut.rs2 Wr Cert.ReferenceIdeal.main_v9 : (⟨Cert.ReferenceIdeal.S100000x64, .f32⟩ : BufTy).Contents (Elt Ideal)) (ix2 p q) : EReal)
      = ∑ k : Fin 64, X (ix2 p k) * W (ix2 k q) := by
  simp only [Cert.ReferenceIdeal.Cut.rs2]
  stage_results
  rw [hx, hw]
  exact ref_dot_at X W p q

theorem r_dot2 (X : FVec Ideal Cert.ReferenceIdeal.S100000x64 .f32) (W : FVec Ideal Cert.ReferenceIdeal.S64x64 .f32)
    (hx : (Wr Cert.ReferenceIdeal.main_v52 : (⟨Cert.ReferenceIdeal.S100000x64, .f32⟩ : BufTy).Contents (Elt Ideal)) = X) (hw : (Wr Cert.ReferenceIdeal.main_arg6 : (⟨Cert.ReferenceIdeal.S64x64, .f32⟩ : BufTy).Contents (Elt Ideal)) = W)
    (p : Fin 100000) (q : Fin 64) :
    ((after Cert.ReferenceIdeal.Cut.rs4 Wr Cert.ReferenceIdeal.main_v53 : (⟨Cert.ReferenceIdeal.S100000x64, .f32⟩ : BufTy).Contents (Elt Ideal)) (ix2 p q) : EReal)
      = ∑ k : Fin 64, X (ix2 p k) * W (ix2 k q) := by
  simp only [Cert.ReferenceIdeal.Cut.rs4]
  stage_results
  rw [hx, hw]
  exact ref_dot_at X W p q

/-- The two-layer edge network: `∑ⱼ max (∑ₖ ef(p,k)·w₁(k,j) + b₁(j)) 0 · w₂(j,0) + b₂(0)`. -/
theorem r_mlp (p : Fin 1600000) :
    (after Cert.ReferenceIdeal.Cut.rs7 Wr Cert.ReferenceIdeal.main_v120 : (⟨Cert.ReferenceIdeal.S1600000x1, .f32⟩ : BufTy).Contents (Elt Ideal)) (ix2 p (0 : Fin 1))
      = (∑ j : Fin 64, max (lin (M := 1600000) (K := 136) (N := 64) (Wr Cert.ReferenceIdeal.main_v111) (Wr Cert.ReferenceIdeal.main_arg8) (Wr Cert.ReferenceIdeal.main_arg9) p j) 0
          * (Wr Cert.ReferenceIdeal.main_arg10 : (⟨Cert.ReferenceIdeal.S64x1, .f32⟩ : BufTy).Contents (Elt Ideal)) (ix2 j 0)) + (Wr Cert.ReferenceIdeal.main_arg11 : (⟨Cert.ReferenceIdeal.S1, .f32⟩ : BufTy).Contents (Elt Ideal)) (ix1 0) := by
  simp only [Cert.ReferenceIdeal.Cut.rs7]
  stage_results
  simp only [TRef.ofBuf, TRef.toBuf, cast_eq]
  exact ref_mlp_at _ _ _ _ _ p

end Cert.Bridge

end
-- ==== Proof.Bridge.Dense.lean ====
import proofs.«147518_j83124797046831_1_alg».proof.Proof.KI.Arr0
import proofs.«147518_j83124797046831_1_alg».proof.Proof.KI.Arr1
import proofs.«147518_j83124797046831_1_alg».proof.Proof.KI.Arr2
import proofs.«147518_j83124797046831_1_alg».proof.Proof.KI.Arr3
import proofs.«147518_j83124797046831_1_alg».proof.Proof.Bridge.Stages
import Idealize.ShloMosaic.Lib.StableHlo.Run
import Idealize.ShloMosaic.PureOps.Ideal

set_option maxRecDepth 16384

noncomputable section

namespace Cert.Bridge

open Idealize.ShloMosaic Idealize.ShloMosaic.TcCoe Idealize.ShloMosaic.StableHlo

open Idealize.ShloMosaic.ValueIdx Cert.DenseAt Cert.KernelIdeal.Hand

/-!
Each kernel region's result array against the reference's operations for the same layer: both are the layer's
textbook entries of the same operand arrays. A layer the kernel runs with a zero bias row is the reference's bare
product, since adding zero changes nothing on the extended reals.
-/

variable (Wr : Valuation Cert.ReferenceIdeal.τ Cert.ReferenceIdeal.sig (Elt Ideal))

/-- The embedding layer. -/
theorem embed_eq (X : Cert.KernelIdeal.S100000x32.Idx → Elt Ideal .f32) (W : Cert.KernelIdeal.S32x64.Idx → Elt Ideal .f32) (B : Cert.KernelIdeal.S64.Idx → Elt Ideal .f32)
    (hx : X = (Wr Cert.ReferenceIdeal.main_arg0 : (⟨Cert.ReferenceIdeal.S100000x32, .f32⟩ : BufTy).Contents (Elt Ideal))) (hw : W = (Wr Cert.ReferenceIdeal.main_arg2 : (⟨Cert.ReferenceIdeal.S32x64, .f32⟩ : BufTy).Contents (Elt Ideal)))
    (hb : B = (Wr Cert.ReferenceIdeal.main_arg3 : (⟨Cert.ReferenceIdeal.S64, .f32⟩ : BufTy).Contents (Elt Ideal))) :
    G0 X W B = (after Cert.ReferenceIdeal.Cut.rs1 Wr Cert.ReferenceIdeal.main_v8 : (⟨Cert.ReferenceIdeal.S100000x64, .f32⟩ : BufTy).Contents (Elt Ideal)) := by
  subst hx hw hb
  funext i
  obtain ⟨p, q, rfl⟩ : ∃ (p : Fin 100000) (q : Fin 64), i = ix2 p q := ⟨i 0, i 1, eq_ix2 i⟩
  exact (r_embed Wr p q).symm

/-- The first graph layer's product. -/
theorem lin1_eq (X : Cert.KernelIdeal.S100000x64.Idx → Elt Ideal .f32) (W : Cert.KernelIdeal.S64x64.Idx → Elt Ideal .f32) (B : Cert.KernelIdeal.S64.Idx → Elt Ideal .f32)
    (hx : X = (Wr Cert.ReferenceIdeal.main_v8 : (⟨Cert.ReferenceIdeal.S100000x64, .f32⟩ : BufTy).Contents (Elt Ideal))) (hw : W = (Wr Cert.ReferenceIdeal.main_arg4 : (⟨Cert.ReferenceIdeal.S64x64, .f32⟩ : BufTy).Contents (Elt Ideal)))
    (hb : ∀ q : Fin 64, B (ix1 q) = (0 : EReal)) :
    G1 X W B = (after Cert.ReferenceIdeal.Cut.rs2 Wr Cert.ReferenceIdeal.main_v9 : (⟨Cert.ReferenceIdeal.S100000x64, .f32⟩ : BufTy).Contents (Elt Ideal)) := by
  funext i
  obtain ⟨p, q, rfl⟩ : ∃ (p : Fin 100000) (q : Fin 64), i = ix2 p q := ⟨i 0, i 1, eq_ix2 i⟩
  refine Eq.trans ?_ (r_dot1 Wr X W hx.symm hw.symm p q).symm
  show (∑ k : Fin 64, X (ix2 p k) * W (ix2 k q)) + B (ix1 q) = ∑ k : Fin 64, X (ix2 p k) * W (ix2 k q)
  rw [hb q, add_zero]

/-- The second graph layer's product. -/
theorem lin2_eq (X : Cert.KernelIdeal.S100000x64.Idx → Elt Ideal .f32) (W : Cert.KernelIdeal.S64x64.Idx → Elt Ideal .f32) (B : Cert.KernelIdeal.S64.Idx → Elt Ideal .f32)
    (hx : X = (Wr Cert.ReferenceIdeal.main_v52 : (⟨Cert.ReferenceIdeal.S100000x64, .f32⟩ : BufTy).Contents (Elt Ideal))) (hw : W = (Wr Cert.ReferenceIdeal.main_arg6 : (⟨Cert.ReferenceIdeal.S64x64, .f32⟩ : BufTy).Contents (Elt Ideal)))
    (hb : ∀ q : Fin 64, B (ix1 q) = (0 : EReal)) :
    G2 X W B = (after Cert.ReferenceIdeal.Cut.rs4 Wr Cert.ReferenceIdeal.main_v53 : (⟨Cert.ReferenceIdeal.S100000x64, .f32⟩ : BufTy).Contents (Elt Ideal)) := by
  funext i
  obtain ⟨p, q, rfl⟩ : ∃ (p : Fin 100000) (q : Fin 64), i = ix2 p q := ⟨i 0, i 1, eq_ix2 i⟩
  refine Eq.trans ?_ (r_dot2 Wr X W hx.symm hw.symm p q).symm
  show (∑ k : Fin 64, X (ix2 p k) * W (ix2 k q)) + B (ix1 q) = ∑ k : Fin 64, X (ix2 p k) * W (ix2 k q)
  rw [hb q, add_zero]

/-- The two-layer edge network. -/
theorem mlp_eq (EF : Cert.KernelIdeal.S1600000x136.Idx → Elt Ideal .f32) (W1 : Cert.KernelIdeal.S136x64.Idx → Elt Ideal .f32) (B1 : Cert.KernelIdeal.S64.Idx → Elt Ideal .f32)
    (W2 : Cert.KernelIdeal.S64x1.Idx → Elt Ideal .f32) (B2 : Cert.KernelIdeal.S1.Idx → Elt Ideal .f32)
    (hef : EF = (Wr Cert.ReferenceIdeal.main_v111 : (⟨Cert.ReferenceIdeal.S1600000x136, .f32⟩ : BufTy).Contents (Elt Ideal))) (hw1 : W1 = (Wr Cert.ReferenceIdeal.main_arg8 : (⟨Cert.ReferenceIdeal.S136x64, .f32⟩ : BufTy).Contents (Elt Ideal)))
    (hb1 : B1 = (Wr Cert.ReferenceIdeal.main_arg9 : (⟨Cert.ReferenceIdeal.S64, .f32⟩ : BufTy).Contents (Elt Ideal))) (hw2 : W2 = (Wr Cert.ReferenceIdeal.main_arg10 : (⟨Cert.ReferenceIdeal.S64x1, .f32⟩ : BufTy).Contents (Elt Ideal)))
    (hb2 : B2 = (Wr Cert.ReferenceIdeal.main_arg11 : (⟨Cert.ReferenceIdeal.S1, .f32⟩ : BufTy).Contents (Elt Ideal))) :
    G3 EF W1 B1 W2 B2 = (after Cert.ReferenceIdeal.Cut.rs7 Wr Cert.ReferenceIdeal.main_v120 : (⟨Cert.ReferenceIdeal.S1600000x1, .f32⟩ : BufTy).Contents (Elt Ideal)) := by
  subst hef hw1 hb1 hw2 hb2
  funext i
  obtain ⟨p, z, rfl⟩ : ∃ (p : Fin 1600000) (z : Fin 1), i = ix2 p z := ⟨i 0, i 1, eq_ix2 i⟩
  obtain rfl : z = 0 := Subsingleton.elim _ _
  exact (r_mlp Wr p).symm

end Cert.Bridge

end
-- ==== Proof.Alg.lean ====
import proofs.«147518_j83124797046831_1_alg».proof.Proof.KI.Run
import proofs.«147518_j83124797046831_1_alg».proof.Proof.KI.Value
import proofs.«147518_j83124797046831_1_alg».proof.Proof.RefKeep
import proofs.«147518_j83124797046831_1_alg».proof.Proof.Bridge.Agg1
import proofs.«147518_j83124797046831_1_alg».proof.Proof.Bridge.Stages
import proofs.«147518_j83124797046831_1_alg».proof.Proof.Bridge.Dense
import Idealize.ShloMosaic.Lib.StableHlo.Run
import Idealize.ShloMosaic.PureOps.Ideal

set_option maxRecDepth 16384

noncomputable section

namespace Cert.Bridge

open Idealize.ShloMosaic Idealize.ShloMosaic.TcCoe Idealize.ShloMosaic.StableHlo

open Idealize.SL.Sem Idealize.ShloMosaic.ValueIdx Cert.DenseAt Cert.KernelIdeal.Hand

/-!
The kernel program's result against the reference's, at the extended reals, from memories that agree on the thirteen
arguments. Both programs are followed stretch by stretch: after each pair of corresponding stretches the buffers that
later stretches read hold equal contents in the two programs — the shared host operations because they are the same
functions of equal contents, each kernel region because its result array is entry by entry what the reference's
product, bias and relu compute.
-/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two launch memories hold the same thirteen arguments on core `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- The reference's buffers at launch and after each stretch of its line. -/
abbrev R0 : Valuation Cert.ReferenceIdeal.τ Cert.ReferenceIdeal.sig (Elt Ideal) := launchContents m' c
abbrev R1 : Valuation Cert.ReferenceIdeal.τ Cert.ReferenceIdeal.sig (Elt Ideal) := after Cert.ReferenceIdeal.Cut.rs0 (R0 m' c)
abbrev R2 : Valuation Cert.ReferenceIdeal.τ Cert.ReferenceIdeal.sig (Elt Ideal) := after Cert.ReferenceIdeal.Cut.rs1 (R1 m' c)
abbrev R3 : Valuation Cert.ReferenceIdeal.τ Cert.ReferenceIdeal.sig (Elt Ideal) := after Cert.ReferenceIdeal.Cut.rs2 (R2 m' c)
abbrev R4 : Valuation Cert.ReferenceIdeal.τ Cert.ReferenceIdeal.sig (Elt Ideal) := after Cert.ReferenceIdeal.Cut.rs3 (R3 m' c)
abbrev R5 : Valuation Cert.ReferenceIdeal.τ Cert.ReferenceIdeal.sig (Elt Ideal) := after Cert.ReferenceIdeal.Cut.rs4 (R4 m' c)
abbrev R6 : Valuation Cert.ReferenceIdeal.τ Cert.ReferenceIdeal.sig (Elt Ideal) := after Cert.ReferenceIdeal.Cut.rs5 (R5 m' c)
abbrev R7 : Valuation Cert.ReferenceIdeal.τ Cert.ReferenceIdeal.sig (Elt Ideal) := after Cert.ReferenceIdeal.Cut.rs6 (R6 m' c)
abbrev R8 : Valuation Cert.ReferenceIdeal.τ Cert.ReferenceIdeal.sig (Elt Ideal) := after Cert.ReferenceIdeal.Cut.rs7 (R7 m' c)
abbrev R9 : Valuation Cert.ReferenceIdeal.τ Cert.ReferenceIdeal.sig (Elt Ideal) := after Cert.ReferenceIdeal.Cut.rs8 (R8 m' c)

local notation "O" => Cert.KernelIdeal.Hand.outs m

set_option maxHeartbeats 2000000 in
/-- The kernel program's result buffer ends at what the reference's line leaves in its result buffer. -/
theorem result_eq (hag : Agree m m' c) :
    (Cert.KernelIdeal.Gen.V16 m O c Cert.KernelIdeal.main_v110 : (⟨Cert.KernelIdeal.S1600000, .f32⟩ : BufTy).Contents (Elt Ideal))
      = after Cert.ReferenceIdeal.ValueP.ops (launchContents m' c) Cert.ReferenceIdeal.main_v121 := by
  rw [Cert.ReferenceIdeal.Cut.after_ops]
  show _ = (R9 m' c) Cert.ReferenceIdeal.main_v121
  -- the two rows of the edge list
  have hrows := rows0 (Cert.KernelIdeal.Gen.V0 m c) (R0 m' c) (show ((Cert.KernelIdeal.Gen.V0 m c) Cert.KernelIdeal.main_arg12 : (⟨Cert.KernelIdeal.S2x1600000, .i32⟩ : BufTy).Contents (Elt Ideal)) = (R0 m' c) Cert.ReferenceIdeal.main_arg12 from hag.a12.symm)
  have src1 : ((Cert.KernelIdeal.Gen.V1 m c) Cert.KernelIdeal.main_v1 : (⟨Cert.KernelIdeal.S1600000, .i32⟩ : BufTy).Contents (Elt Ideal)) = (R1 m' c) Cert.ReferenceIdeal.main_v1 := hrows.1
  have dst1 : ((Cert.KernelIdeal.Gen.V1 m c) Cert.KernelIdeal.main_v3 : (⟨Cert.KernelIdeal.S1600000, .i32⟩ : BufTy).Contents (Elt Ideal)) = (R1 m' c) Cert.ReferenceIdeal.main_v3 := hrows.2
  -- the embedding layer
  have e1 : ((Cert.KernelIdeal.Gen.V2 m O c) Cert.KernelIdeal.main_v4 : (⟨Cert.KernelIdeal.S100000x64, .f32⟩ : BufTy).Contents (Elt Ideal)) = (R2 m' c) Cert.ReferenceIdeal.main_v8 :=
    (leaves0 m c).trans (embed_eq (R1 m' c) _ _ _ (show ((Cert.KernelIdeal.Gen.V1 m c) Cert.KernelIdeal.main_arg0 : (⟨Cert.KernelIdeal.S100000x32, .f32⟩ : BufTy).Contents (Elt Ideal)) = (R1 m' c) Cert.ReferenceIdeal.main_arg0 from (((Cert.KernelIdeal.Gen.V1_of m c Cert.KernelIdeal.main_arg0 (by decide))).trans (hag.a0.symm)).trans ((Cert.ReferenceIdeal.Cut.keep0 (R0 m' c) Cert.ReferenceIdeal.main_arg0 (by decide))).symm) (show ((Cert.KernelIdeal.Gen.V1 m c) Cert.KernelIdeal.main_arg2 : (⟨Cert.KernelIdeal.S32x64, .f32⟩ : BufTy).Contents (Elt Ideal)) = (R1 m' c) Cert.ReferenceIdeal.main_arg2 from (((Cert.KernelIdeal.Gen.V1_of m c Cert.KernelIdeal.main_arg2 (by decide))).trans (hag.a2.symm)).trans ((Cert.ReferenceIdeal.Cut.keep0 (R0 m' c) Cert.ReferenceIdeal.main_arg2 (by decide))).symm) (show ((Cert.KernelIdeal.Gen.V1 m c) Cert.KernelIdeal.main_arg3 : (⟨Cert.KernelIdeal.S64, .f32⟩ : BufTy).Contents (Elt Ideal)) = (R1 m' c) Cert.ReferenceIdeal.main_arg3 from (((Cert.KernelIdeal.Gen.V1_of m c Cert.KernelIdeal.main_arg3 (by decide))).trans (hag.a3.symm)).trans ((Cert.ReferenceIdeal.Cut.keep0 (R0 m' c) Cert.ReferenceIdeal.main_arg3 (by decide))).symm))
  -- the first graph layer's product
  have z3 : ∀ q : Fin 64, ((Cert.KernelIdeal.Gen.V3 m O c) Cert.KernelIdeal.main_v5 : (⟨Cert.KernelIdeal.S64, .f32⟩ : BufTy).Contents (Elt Ideal)) (ix1 q) = (0 : EReal) := fun q => zeros (Cert.KernelIdeal.Gen.V2 m O c) q
  have e2 : ((Cert.KernelIdeal.Gen.V4 m O c) Cert.KernelIdeal.main_v6 : (⟨Cert.KernelIdeal.S100000x64, .f32⟩ : BufTy).Contents (Elt Ideal)) = (R3 m' c) Cert.ReferenceIdeal.main_v9 :=
    (leaves1 m c).trans (lin1_eq (R2 m' c) _ _ _
      (show ((Cert.KernelIdeal.Gen.V3 m O c) Cert.KernelIdeal.main_v4 : (⟨Cert.KernelIdeal.S100000x64, .f32⟩ : BufTy).Contents (Elt Ideal)) = (R2 m' c) Cert.ReferenceIdeal.main_v8 from ((Cert.KernelIdeal.Gen.V3_of m O c Cert.KernelIdeal.main_v4 (by decide))).trans e1)
      (show ((Cert.KernelIdeal.Gen.V3 m O c) Cert.KernelIdeal.main_arg4 : (⟨Cert.KernelIdeal.S64x64, .f32⟩ : BufTy).Contents (Elt Ideal)) = (R2 m' c) Cert.ReferenceIdeal.main_arg4 from (((Cert.KernelIdeal.Gen.V3_of m O c Cert.KernelIdeal.main_arg4 (by decide)).trans <| (Cert.KernelIdeal.Gen.V2_of m O c Cert.KernelIdeal.main_arg4 (by decide)).trans <| (Cert.KernelIdeal.Gen.V1_of m c Cert.KernelIdeal.main_arg4 (by decide))).trans (hag.a4.symm)).trans ((Cert.ReferenceIdeal.Cut.keep1 (R1 m' c) Cert.ReferenceIdeal.main_arg4 (by decide)).trans <| (Cert.ReferenceIdeal.Cut.keep0 (R0 m' c) Cert.ReferenceIdeal.main_arg4 (by decide))).symm) z3)
  -- its aggregation
  have src3 : ((Cert.KernelIdeal.Gen.V4 m O c) Cert.KernelIdeal.main_v1 : (⟨Cert.KernelIdeal.S1600000, .i32⟩ : BufTy).Contents (Elt Ideal)) = (R3 m' c) Cert.ReferenceIdeal.main_v1 :=
    (((Cert.KernelIdeal.Gen.V4_of m O c Cert.KernelIdeal.main_v1 (by decide)).trans <| (Cert.KernelIdeal.Gen.V3_of m O c Cert.KernelIdeal.main_v1 (by decide)).trans <| (Cert.KernelIdeal.Gen.V2_of m O c Cert.KernelIdeal.main_v1 (by decide))).trans src1).trans ((Cert.ReferenceIdeal.Cut.keep2 (R2 m' c) Cert.ReferenceIdeal.main_v1 (by decide)).trans <| (Cert.ReferenceIdeal.Cut.keep1 (R1 m' c) Cert.ReferenceIdeal.main_v1 (by decide))).symm
  have dst3 : ((Cert.KernelIdeal.Gen.V4 m O c) Cert.KernelIdeal.main_v3 : (⟨Cert.KernelIdeal.S1600000, .i32⟩ : BufTy).Contents (Elt Ideal)) = (R3 m' c) Cert.ReferenceIdeal.main_v3 :=
    (((Cert.KernelIdeal.Gen.V4_of m O c Cert.KernelIdeal.main_v3 (by decide)).trans <| (Cert.KernelIdeal.Gen.V3_of m O c Cert.KernelIdeal.main_v3 (by decide)).trans <| (Cert.KernelIdeal.Gen.V2_of m O c Cert.KernelIdeal.main_v3 (by decide))).trans dst1).trans ((Cert.ReferenceIdeal.Cut.keep2 (R2 m' c) Cert.ReferenceIdeal.main_v3 (by decide)).trans <| (Cert.ReferenceIdeal.Cut.keep1 (R1 m' c) Cert.ReferenceIdeal.main_v3 (by decide))).symm
  have e3 : ((Cert.KernelIdeal.Gen.V8 m O c) Cert.KernelIdeal.main_v49 : (⟨Cert.KernelIdeal.S100000x64, .f32⟩ : BufTy).Contents (Elt Ideal)) = (R4 m' c) Cert.ReferenceIdeal.main_v52 :=
    agg1 (Cert.KernelIdeal.Gen.V4 m O c) (R3 m' c) e2 (show ((Cert.KernelIdeal.Gen.V4 m O c) Cert.KernelIdeal.main_arg5 : (⟨Cert.KernelIdeal.S64, .f32⟩ : BufTy).Contents (Elt Ideal)) = (R3 m' c) Cert.ReferenceIdeal.main_arg5 from (((Cert.KernelIdeal.Gen.V4_of m O c Cert.KernelIdeal.main_arg5 (by decide)).trans <| (Cert.KernelIdeal.Gen.V3_of m O c Cert.KernelIdeal.main_arg5 (by decide)).trans <| (Cert.KernelIdeal.Gen.V2_of m O c Cert.KernelIdeal.main_arg5 (by decide)).trans <| (Cert.KernelIdeal.Gen.V1_of m c Cert.KernelIdeal.main_arg5 (by decide))).trans (hag.a5.symm)).trans ((Cert.ReferenceIdeal.Cut.keep2 (R2 m' c) Cert.ReferenceIdeal.main_arg5 (by decide)).trans <| (Cert.ReferenceIdeal.Cut.keep1 (R1 m' c) Cert.ReferenceIdeal.main_arg5 (by decide)).trans <| (Cert.ReferenceIdeal.Cut.keep0 (R0 m' c) Cert.ReferenceIdeal.main_arg5 (by decide))).symm) src3 dst3
  -- the second graph layer's product
  have z8 : ∀ q : Fin 64, ((Cert.KernelIdeal.Gen.V8 m O c) Cert.KernelIdeal.main_v5 : (⟨Cert.KernelIdeal.S64, .f32⟩ : BufTy).Contents (Elt Ideal)) (ix1 q) = (0 : EReal) := fun q =>
    (congrFun ((Cert.KernelIdeal.Gen.V8_of m O c Cert.KernelIdeal.main_v5 (by decide)).trans <| (Cert.KernelIdeal.Gen.V7_of m O c Cert.KernelIdeal.main_v5 (by decide)).trans <| (Cert.KernelIdeal.Gen.V6_of m O c Cert.KernelIdeal.main_v5 (by decide)).trans <| (Cert.KernelIdeal.Gen.V5_of m O c Cert.KernelIdeal.main_v5 (by decide)).trans <| (Cert.KernelIdeal.Gen.V4_of m O c Cert.KernelIdeal.main_v5 (by decide))) (ix1 q)).trans (z3 q)
  have e4 : ((Cert.KernelIdeal.Gen.V9 m O c) Cert.KernelIdeal.main_v50 : (⟨Cert.KernelIdeal.S100000x64, .f32⟩ : BufTy).Contents (Elt Ideal)) = (R5 m' c) Cert.ReferenceIdeal.main_v53 :=
    (leaves2 m c).trans (lin2_eq (R4 m' c) _ _ _ e3 (show ((Cert.KernelIdeal.Gen.V8 m O c) Cert.KernelIdeal.main_arg6 : (⟨Cert.KernelIdeal.S64x64, .f32⟩ : BufTy).Contents (Elt Ideal)) = (R4 m' c) Cert.ReferenceIdeal.main_arg6 from (((Cert.KernelIdeal.Gen.V8_of m O c Cert.KernelIdeal.main_arg6 (by decide)).trans <| (Cert.KernelIdeal.Gen.V7_of m O c Cert.KernelIdeal.main_arg6 (by decide)).trans <| (Cert.KernelIdeal.Gen.V6_of m O c Cert.KernelIdeal.main_arg6 (by decide)).trans <| (Cert.KernelIdeal.Gen.V5_of m O c Cert.KernelIdeal.main_arg6 (by decide)).trans <| (Cert.KernelIdeal.Gen.V4_of m O c Cert.KernelIdeal.main_arg6 (by decide)).trans <| (Cert.KernelIdeal.Gen.V3_of m O c Cert.KernelIdeal.main_arg6 (by decide)).trans <| (Cert.KernelIdeal.Gen.V2_of m O c Cert.KernelIdeal.main_arg6 (by decide)).trans <| (Cert.KernelIdeal.Gen.V1_of m c Cert.KernelIdeal.main_arg6 (by decide))).trans (hag.a6.symm)).trans ((Cert.ReferenceIdeal.Cut.keep3 (R3 m' c) Cert.ReferenceIdeal.main_arg6 (by decide)).trans <| (Cert.ReferenceIdeal.Cut.keep2 (R2 m' c) Cert.ReferenceIdeal.main_arg6 (by decide)).trans <| (Cert.ReferenceIdeal.Cut.keep1 (R1 m' c) Cert.ReferenceIdeal.main_arg6 (by decide)).trans <| (Cert.ReferenceIdeal.Cut.keep0 (R0 m' c) Cert.ReferenceIdeal.main_arg6 (by decide))).symm) z8)
  -- its aggregation
  have src5 : ((Cert.KernelIdeal.Gen.V9 m O c) Cert.KernelIdeal.main_v1 : (⟨Cert.KernelIdeal.S1600000, .i32⟩ : BufTy).Contents (Elt Ideal)) = (R5 m' c) Cert.ReferenceIdeal.main_v1 :=
    (((Cert.KernelIdeal.Gen.V9_of m O c Cert.KernelIdeal.main_v1 (by decide)).trans <| (Cert.KernelIdeal.Gen.V8_of m O c Cert.KernelIdeal.main_v1 (by decide)).trans <| (Cert.KernelIdeal.Gen.V7_of m O c Cert.KernelIdeal.main_v1 (by decide)).trans <| (Cert.KernelIdeal.Gen.V6_of m O c Cert.KernelIdeal.main_v1 (by decide)).trans <| (Cert.KernelIdeal.Gen.V5_of m O c Cert.KernelIdeal.main_v1 (by decide))).trans src3).trans ((Cert.ReferenceIdeal.Cut.keep4 (R4 m' c) Cert.ReferenceIdeal.main_v1 (by decide)).trans <| (Cert.ReferenceIdeal.Cut.keep3 (R3 m' c) Cert.ReferenceIdeal.main_v1 (by decide))).symm
  have dst5 : ((Cert.KernelIdeal.Gen.V9 m O c) Cert.KernelIdeal.main_v3 : (⟨Cert.KernelIdeal.S1600000, .i32⟩ : BufTy).Contents (Elt Ideal)) = (R5 m' c) Cert.ReferenceIdeal.main_v3 :=
    (((Cert.KernelIdeal.Gen.V9_of m O c Cert.KernelIdeal.main_v3 (by decide)).trans <| (Cert.KernelIdeal.Gen.V8_of m O c Cert.KernelIdeal.main_v3 (by decide)).trans <| (Cert.KernelIdeal.Gen.V7_of m O c Cert.KernelIdeal.main_v3 (by decide)).trans <| (Cert.KernelIdeal.Gen.V6_of m O c Cert.KernelIdeal.main_v3 (by decide)).trans <| (Cert.KernelIdeal.Gen.V5_of m O c Cert.KernelIdeal.main_v3 (by decide))).trans dst3).trans ((Cert.ReferenceIdeal.Cut.keep4 (R4 m' c) Cert.ReferenceIdeal.main_v3 (by decide)).trans <| (Cert.ReferenceIdeal.Cut.keep3 (R3 m' c) Cert.ReferenceIdeal.main_v3 (by decide))).symm
  have e5 : ((Cert.KernelIdeal.Gen.V13 m O c) Cert.KernelIdeal.main_v93 : (⟨Cert.KernelIdeal.S100000x64, .f32⟩ : BufTy).Contents (Elt Ideal)) = (R6 m' c) Cert.ReferenceIdeal.main_v96 :=
    agg2 (Cert.KernelIdeal.Gen.V9 m O c) (R5 m' c) e4 (show ((Cert.KernelIdeal.Gen.V9 m O c) Cert.KernelIdeal.main_arg7 : (⟨Cert.KernelIdeal.S64, .f32⟩ : BufTy).Contents (Elt Ideal)) = (R5 m' c) Cert.ReferenceIdeal.main_arg7 from (((Cert.KernelIdeal.Gen.V9_of m O c Cert.KernelIdeal.main_arg7 (by decide)).trans <| (Cert.KernelIdeal.Gen.V8_of m O c Cert.KernelIdeal.main_arg7 (by decide)).trans <| (Cert.KernelIdeal.Gen.V7_of m O c Cert.KernelIdeal.main_arg7 (by decide)).trans <| (Cert.KernelIdeal.Gen.V6_of m O c Cert.KernelIdeal.main_arg7 (by decide)).trans <| (Cert.KernelIdeal.Gen.V5_of m O c Cert.KernelIdeal.main_arg7 (by decide)).trans <| (Cert.KernelIdeal.Gen.V4_of m O c Cert.KernelIdeal.main_arg7 (by decide)).trans <| (Cert.KernelIdeal.Gen.V3_of m O c Cert.KernelIdeal.main_arg7 (by decide)).trans <| (Cert.KernelIdeal.Gen.V2_of m O c Cert.KernelIdeal.main_arg7 (by decide)).trans <| (Cert.KernelIdeal.Gen.V1_of m c Cert.KernelIdeal.main_arg7 (by decide))).trans (hag.a7.symm)).trans ((Cert.ReferenceIdeal.Cut.keep4 (R4 m' c) Cert.ReferenceIdeal.main_arg7 (by decide)).trans <| (Cert.ReferenceIdeal.Cut.keep3 (R3 m' c) Cert.ReferenceIdeal.main_arg7 (by decide)).trans <| (Cert.ReferenceIdeal.Cut.keep2 (R2 m' c) Cert.ReferenceIdeal.main_arg7 (by decide)).trans <| (Cert.ReferenceIdeal.Cut.keep1 (R1 m' c) Cert.ReferenceIdeal.main_arg7 (by decide)).trans <| (Cert.ReferenceIdeal.Cut.keep0 (R0 m' c) Cert.ReferenceIdeal.main_arg7 (by decide))).symm) src5 dst5
  -- every edge's feature row
  have src6 : ((Cert.KernelIdeal.Gen.V13 m O c) Cert.KernelIdeal.main_v1 : (⟨Cert.KernelIdeal.S1600000, .i32⟩ : BufTy).Contents (Elt Ideal)) = (R6 m' c) Cert.ReferenceIdeal.main_v1 :=
    (((Cert.KernelIdeal.Gen.V13_of m O c Cert.KernelIdeal.main_v1 (by decide)).trans <| (Cert.KernelIdeal.Gen.V12_of m O c Cert.KernelIdeal.main_v1 (by decide)).trans <| (Cert.KernelIdeal.Gen.V11_of m O c Cert.KernelIdeal.main_v1 (by decide)).trans <| (Cert.KernelIdeal.Gen.V10_of m O c Cert.KernelIdeal.main_v1 (by decide))).trans src5).trans ((Cert.ReferenceIdeal.Cut.keep5 (R5 m' c) Cert.ReferenceIdeal.main_v1 (by decide))).symm
  have dst6 : ((Cert.KernelIdeal.Gen.V13 m O c) Cert.KernelIdeal.main_v3 : (⟨Cert.KernelIdeal.S1600000, .i32⟩ : BufTy).Contents (Elt Ideal)) = (R6 m' c) Cert.ReferenceIdeal.main_v3 :=
    (((Cert.KernelIdeal.Gen.V13_of m O c Cert.KernelIdeal.main_v3 (by decide)).trans <| (Cert.KernelIdeal.Gen.V12_of m O c Cert.KernelIdeal.main_v3 (by decide)).trans <| (Cert.KernelIdeal.Gen.V11_of m O c Cert.KernelIdeal.main_v3 (by decide)).trans <| (Cert.KernelIdeal.Gen.V10_of m O c Cert.KernelIdeal.main_v3 (by decide))).trans dst5).trans ((Cert.ReferenceIdeal.Cut.keep5 (R5 m' c) Cert.ReferenceIdeal.main_v3 (by decide))).symm
  have e6 : ((Cert.KernelIdeal.Gen.V14 m O c) Cert.KernelIdeal.main_v108 : (⟨Cert.KernelIdeal.S1600000x136, .f32⟩ : BufTy).Contents (Elt Ideal)) = (R7 m' c) Cert.ReferenceIdeal.main_v111 :=
    ef (Cert.KernelIdeal.Gen.V13 m O c) (R6 m' c) e5 (show ((Cert.KernelIdeal.Gen.V13 m O c) Cert.KernelIdeal.main_arg1 : (⟨Cert.KernelIdeal.S1600000x8, .f32⟩ : BufTy).Contents (Elt Ideal)) = (R6 m' c) Cert.ReferenceIdeal.main_arg1 from (((Cert.KernelIdeal.Gen.V13_of m O c Cert.KernelIdeal.main_arg1 (by decide)).trans <| (Cert.KernelIdeal.Gen.V12_of m O c Cert.KernelIdeal.main_arg1 (by decide)).trans <| (Cert.KernelIdeal.Gen.V11_of m O c Cert.KernelIdeal.main_arg1 (by decide)).trans <| (Cert.KernelIdeal.Gen.V10_of m O c Cert.KernelIdeal.main_arg1 (by decide)).trans <| (Cert.KernelIdeal.Gen.V9_of m O c Cert.KernelIdeal.main_arg1 (by decide)).trans <| (Cert.KernelIdeal.Gen.V8_of m O c Cert.KernelIdeal.main_arg1 (by decide)).trans <| (Cert.KernelIdeal.Gen.V7_of m O c Cert.KernelIdeal.main_arg1 (by decide)).trans <| (Cert.KernelIdeal.Gen.V6_of m O c Cert.KernelIdeal.main_arg1 (by decide)).trans <| (Cert.KernelIdeal.Gen.V5_of m O c Cert.KernelIdeal.main_arg1 (by decide)).trans <| (Cert.KernelIdeal.Gen.V4_of m O c Cert.KernelIdeal.main_arg1 (by decide)).trans <| (Cert.KernelIdeal.Gen.V3_of m O c Cert.KernelIdeal.main_arg1 (by decide)).trans <| (Cert.KernelIdeal.Gen.V2_of m O c Cert.KernelIdeal.main_arg1 (by decide)).trans <| (Cert.KernelIdeal.Gen.V1_of m c Cert.KernelIdeal.main_arg1 (by decide))).trans (hag.a1.symm)).trans ((Cert.ReferenceIdeal.Cut.keep5 (R5 m' c) Cert.ReferenceIdeal.main_arg1 (by decide)).trans <| (Cert.ReferenceIdeal.Cut.keep4 (R4 m' c) Cert.ReferenceIdeal.main_arg1 (by decide)).trans <| (Cert.ReferenceIdeal.Cut.keep3 (R3 m' c) Cert.ReferenceIdeal.main_arg1 (by decide)).trans <| (Cert.ReferenceIdeal.Cut.keep2 (R2 m' c) Cert.ReferenceIdeal.main_arg1 (by decide)).trans <| (Cert.ReferenceIdeal.Cut.keep1 (R1 m' c) Cert.ReferenceIdeal.main_arg1 (by decide)).trans <| (Cert.ReferenceIdeal.Cut.keep0 (R0 m' c) Cert.ReferenceIdeal.main_arg1 (by decide))).symm) src6 dst6
  -- the two-layer edge network
  have e7 : ((Cert.KernelIdeal.Gen.V15 m O c) Cert.KernelIdeal.main_v109 : (⟨Cert.KernelIdeal.S1600000x1, .f32⟩ : BufTy).Contents (Elt Ideal)) = (R8 m' c) Cert.ReferenceIdeal.main_v120 :=
    (leaves3 m c).trans (mlp_eq (R7 m' c) _ _ _ _ _ e6 (show ((Cert.KernelIdeal.Gen.V14 m O c) Cert.KernelIdeal.main_arg8 : (⟨Cert.KernelIdeal.S136x64, .f32⟩ : BufTy).Contents (Elt Ideal)) = (R7 m' c) Cert.ReferenceIdeal.main_arg8 from (((Cert.KernelIdeal.Gen.V14_of m O c Cert.KernelIdeal.main_arg8 (by decide)).trans <| (Cert.KernelIdeal.Gen.V13_of m O c Cert.KernelIdeal.main_arg8 (by decide)).trans <| (Cert.KernelIdeal.Gen.V12_of m O c Cert.KernelIdeal.main_arg8 (by decide)).trans <| (Cert.KernelIdeal.Gen.V11_of m O c Cert.KernelIdeal.main_arg8 (by decide)).trans <| (Cert.KernelIdeal.Gen.V10_of m O c Cert.KernelIdeal.main_arg8 (by decide)).trans <| (Cert.KernelIdeal.Gen.V9_of m O c Cert.KernelIdeal.main_arg8 (by decide)).trans <| (Cert.KernelIdeal.Gen.V8_of m O c Cert.KernelIdeal.main_arg8 (by decide)).trans <| (Cert.KernelIdeal.Gen.V7_of m O c Cert.KernelIdeal.main_arg8 (by decide)).trans <| (Cert.KernelIdeal.Gen.V6_of m O c Cert.KernelIdeal.main_arg8 (by decide)).trans <| (Cert.KernelIdeal.Gen.V5_of m O c Cert.KernelIdeal.main_arg8 (by decide)).trans <| (Cert.KernelIdeal.Gen.V4_of m O c Cert.KernelIdeal.main_arg8 (by decide)).trans <| (Cert.KernelIdeal.Gen.V3_of m O c Cert.KernelIdeal.main_arg8 (by decide)).trans <| (Cert.KernelIdeal.Gen.V2_of m O c Cert.KernelIdeal.main_arg8 (by decide)).trans <| (Cert.KernelIdeal.Gen.V1_of m c Cert.KernelIdeal.main_arg8 (by decide))).trans (hag.a8.symm)).trans ((Cert.ReferenceIdeal.Cut.keep6 (R6 m' c) Cert.ReferenceIdeal.main_arg8 (by decide)).trans <| (Cert.ReferenceIdeal.Cut.keep5 (R5 m' c) Cert.ReferenceIdeal.main_arg8 (by decide)).trans <| (Cert.ReferenceIdeal.Cut.keep4 (R4 m' c) Cert.ReferenceIdeal.main_arg8 (by decide)).trans <| (Cert.ReferenceIdeal.Cut.keep3 (R3 m' c) Cert.ReferenceIdeal.main_arg8 (by decide)).trans <| (Cert.ReferenceIdeal.Cut.keep2 (R2 m' c) Cert.ReferenceIdeal.main_arg8 (by decide)).trans <| (Cert.ReferenceIdeal.Cut.keep1 (R1 m' c) Cert.ReferenceIdeal.main_arg8 (by decide)).trans <| (Cert.ReferenceIdeal.Cut.keep0 (R0 m' c) Cert.ReferenceIdeal.main_arg8 (by decide))).symm) (show ((Cert.KernelIdeal.Gen.V14 m O c) Cert.KernelIdeal.main_arg9 : (⟨Cert.KernelIdeal.S64, .f32⟩ : BufTy).Contents (Elt Ideal)) = (R7 m' c) Cert.ReferenceIdeal.main_arg9 from (((Cert.KernelIdeal.Gen.V14_of m O c Cert.KernelIdeal.main_arg9 (by decide)).trans <| (Cert.KernelIdeal.Gen.V13_of m O c Cert.KernelIdeal.main_arg9 (by decide)).trans <| (Cert.KernelIdeal.Gen.V12_of m O c Cert.KernelIdeal.main_arg9 (by decide)).trans <| (Cert.KernelIdeal.Gen.V11_of m O c Cert.KernelIdeal.main_arg9 (by decide)).trans <| (Cert.KernelIdeal.Gen.V10_of m O c Cert.KernelIdeal.main_arg9 (by decide)).trans <| (Cert.KernelIdeal.Gen.V9_of m O c Cert.KernelIdeal.main_arg9 (by decide)).trans <| (Cert.KernelIdeal.Gen.V8_of m O c Cert.KernelIdeal.main_arg9 (by decide)).trans <| (Cert.KernelIdeal.Gen.V7_of m O c Cert.KernelIdeal.main_arg9 (by decide)).trans <| (Cert.KernelIdeal.Gen.V6_of m O c Cert.KernelIdeal.main_arg9 (by decide)).trans <| (Cert.KernelIdeal.Gen.V5_of m O c Cert.KernelIdeal.main_arg9 (by decide)).trans <| (Cert.KernelIdeal.Gen.V4_of m O c Cert.KernelIdeal.main_arg9 (by decide)).trans <| (Cert.KernelIdeal.Gen.V3_of m O c Cert.KernelIdeal.main_arg9 (by decide)).trans <| (Cert.KernelIdeal.Gen.V2_of m O c Cert.KernelIdeal.main_arg9 (by decide)).trans <| (Cert.KernelIdeal.Gen.V1_of m c Cert.KernelIdeal.main_arg9 (by decide))).trans (hag.a9.symm)).trans ((Cert.ReferenceIdeal.Cut.keep6 (R6 m' c) Cert.ReferenceIdeal.main_arg9 (by decide)).trans <| (Cert.ReferenceIdeal.Cut.keep5 (R5 m' c) Cert.ReferenceIdeal.main_arg9 (by decide)).trans <| (Cert.ReferenceIdeal.Cut.keep4 (R4 m' c) Cert.ReferenceIdeal.main_arg9 (by decide)).trans <| (Cert.ReferenceIdeal.Cut.keep3 (R3 m' c) Cert.ReferenceIdeal.main_arg9 (by decide)).trans <| (Cert.ReferenceIdeal.Cut.keep2 (R2 m' c) Cert.ReferenceIdeal.main_arg9 (by decide)).trans <| (Cert.ReferenceIdeal.Cut.keep1 (R1 m' c) Cert.ReferenceIdeal.main_arg9 (by decide)).trans <| (Cert.ReferenceIdeal.Cut.keep0 (R0 m' c) Cert.ReferenceIdeal.main_arg9 (by decide))).symm) (show ((Cert.KernelIdeal.Gen.V14 m O c) Cert.KernelIdeal.main_arg10 : (⟨Cert.KernelIdeal.S64x1, .f32⟩ : BufTy).Contents (Elt Ideal)) = (R7 m' c) Cert.ReferenceIdeal.main_arg10 from (((Cert.KernelIdeal.Gen.V14_of m O c Cert.KernelIdeal.main_arg10 (by decide)).trans <| (Cert.KernelIdeal.Gen.V13_of m O c Cert.KernelIdeal.main_arg10 (by decide)).trans <| (Cert.KernelIdeal.Gen.V12_of m O c Cert.KernelIdeal.main_arg10 (by decide)).trans <| (Cert.KernelIdeal.Gen.V11_of m O c Cert.KernelIdeal.main_arg10 (by decide)).trans <| (Cert.KernelIdeal.Gen.V10_of m O c Cert.KernelIdeal.main_arg10 (by decide)).trans <| (Cert.KernelIdeal.Gen.V9_of m O c Cert.KernelIdeal.main_arg10 (by decide)).trans <| (Cert.KernelIdeal.Gen.V8_of m O c Cert.KernelIdeal.main_arg10 (by decide)).trans <| (Cert.KernelIdeal.Gen.V7_of m O c Cert.KernelIdeal.main_arg10 (by decide)).trans <| (Cert.KernelIdeal.Gen.V6_of m O c Cert.KernelIdeal.main_arg10 (by decide)).trans <| (Cert.KernelIdeal.Gen.V5_of m O c Cert.KernelIdeal.main_arg10 (by decide)).trans <| (Cert.KernelIdeal.Gen.V4_of m O c Cert.KernelIdeal.main_arg10 (by decide)).trans <| (Cert.KernelIdeal.Gen.V3_of m O c Cert.KernelIdeal.main_arg10 (by decide)).trans <| (Cert.KernelIdeal.Gen.V2_of m O c Cert.KernelIdeal.main_arg10 (by decide)).trans <| (Cert.KernelIdeal.Gen.V1_of m c Cert.KernelIdeal.main_arg10 (by decide))).trans (hag.a10.symm)).trans ((Cert.ReferenceIdeal.Cut.keep6 (R6 m' c) Cert.ReferenceIdeal.main_arg10 (by decide)).trans <| (Cert.ReferenceIdeal.Cut.keep5 (R5 m' c) Cert.ReferenceIdeal.main_arg10 (by decide)).trans <| (Cert.ReferenceIdeal.Cut.keep4 (R4 m' c) Cert.ReferenceIdeal.main_arg10 (by decide)).trans <| (Cert.ReferenceIdeal.Cut.keep3 (R3 m' c) Cert.ReferenceIdeal.main_arg10 (by decide)).trans <| (Cert.ReferenceIdeal.Cut.keep2 (R2 m' c) Cert.ReferenceIdeal.main_arg10 (by decide)).trans <| (Cert.ReferenceIdeal.Cut.keep1 (R1 m' c) Cert.ReferenceIdeal.main_arg10 (by decide)).trans <| (Cert.ReferenceIdeal.Cut.keep0 (R0 m' c) Cert.ReferenceIdeal.main_arg10 (by decide))).symm) (show ((Cert.KernelIdeal.Gen.V14 m O c) Cert.KernelIdeal.main_arg11 : (⟨Cert.KernelIdeal.S1, .f32⟩ : BufTy).Contents (Elt Ideal)) = (R7 m' c) Cert.ReferenceIdeal.main_arg11 from (((Cert.KernelIdeal.Gen.V14_of m O c Cert.KernelIdeal.main_arg11 (by decide)).trans <| (Cert.KernelIdeal.Gen.V13_of m O c Cert.KernelIdeal.main_arg11 (by decide)).trans <| (Cert.KernelIdeal.Gen.V12_of m O c Cert.KernelIdeal.main_arg11 (by decide)).trans <| (Cert.KernelIdeal.Gen.V11_of m O c Cert.KernelIdeal.main_arg11 (by decide)).trans <| (Cert.KernelIdeal.Gen.V10_of m O c Cert.KernelIdeal.main_arg11 (by decide)).trans <| (Cert.KernelIdeal.Gen.V9_of m O c Cert.KernelIdeal.main_arg11 (by decide)).trans <| (Cert.KernelIdeal.Gen.V8_of m O c Cert.KernelIdeal.main_arg11 (by decide)).trans <| (Cert.KernelIdeal.Gen.V7_of m O c Cert.KernelIdeal.main_arg11 (by decide)).trans <| (Cert.KernelIdeal.Gen.V6_of m O c Cert.KernelIdeal.main_arg11 (by decide)).trans <| (Cert.KernelIdeal.Gen.V5_of m O c Cert.KernelIdeal.main_arg11 (by decide)).trans <| (Cert.KernelIdeal.Gen.V4_of m O c Cert.KernelIdeal.main_arg11 (by decide)).trans <| (Cert.KernelIdeal.Gen.V3_of m O c Cert.KernelIdeal.main_arg11 (by decide)).trans <| (Cert.KernelIdeal.Gen.V2_of m O c Cert.KernelIdeal.main_arg11 (by decide)).trans <| (Cert.KernelIdeal.Gen.V1_of m c Cert.KernelIdeal.main_arg11 (by decide))).trans (hag.a11.symm)).trans ((Cert.ReferenceIdeal.Cut.keep6 (R6 m' c) Cert.ReferenceIdeal.main_arg11 (by decide)).trans <| (Cert.ReferenceIdeal.Cut.keep5 (R5 m' c) Cert.ReferenceIdeal.main_arg11 (by decide)).trans <| (Cert.ReferenceIdeal.Cut.keep4 (R4 m' c) Cert.ReferenceIdeal.main_arg11 (by decide)).trans <| (Cert.ReferenceIdeal.Cut.keep3 (R3 m' c) Cert.ReferenceIdeal.main_arg11 (by decide)).trans <| (Cert.ReferenceIdeal.Cut.keep2 (R2 m' c) Cert.ReferenceIdeal.main_arg11 (by decide)).trans <| (Cert.ReferenceIdeal.Cut.keep1 (R1 m' c) Cert.ReferenceIdeal.main_arg11 (by decide)).trans <| (Cert.ReferenceIdeal.Cut.keep0 (R0 m' c) Cert.ReferenceIdeal.main_arg11 (by decide))).symm))
  -- the final reshape
  exact fin (Cert.KernelIdeal.Gen.V15 m O c) (R8 m' c) e7

/-- Every argument buffer is as launched after the reference's whole line. -/
theorem ref_arg (r : Ref Cert.ReferenceIdeal.sig .tc)
    (h0 : r ∉ Cert.ReferenceIdeal.Cut.rs0_W) (h1 : r ∉ Cert.ReferenceIdeal.Cut.rs1_W) (h2 : r ∉ Cert.ReferenceIdeal.Cut.rs2_W) (h3 : r ∉ Cert.ReferenceIdeal.Cut.rs3_W) (h4 : r ∉ Cert.ReferenceIdeal.Cut.rs4_W)
    (h5 : r ∉ Cert.ReferenceIdeal.Cut.rs5_W) (h6 : r ∉ Cert.ReferenceIdeal.Cut.rs6_W) (h7 : r ∉ Cert.ReferenceIdeal.Cut.rs7_W) (h8 : r ∉ Cert.ReferenceIdeal.Cut.rs8_W)
    (V : Valuation Cert.ReferenceIdeal.τ Cert.ReferenceIdeal.sig (Elt Ideal)) : after Cert.ReferenceIdeal.ValueP.ops V r = V r := by
  rw [Cert.ReferenceIdeal.Cut.after_ops]
  exact (Cert.ReferenceIdeal.Cut.keep8 _ r h8).trans <| (Cert.ReferenceIdeal.Cut.keep7 _ r h7).trans <| (Cert.ReferenceIdeal.Cut.keep6 _ r h6).trans <| (Cert.ReferenceIdeal.Cut.keep5 _ r h5).trans <|
    (Cert.ReferenceIdeal.Cut.keep4 _ r h4).trans <| (Cert.ReferenceIdeal.Cut.keep3 _ r h3).trans <| (Cert.ReferenceIdeal.Cut.keep2 _ r h2).trans <| (Cert.ReferenceIdeal.Cut.keep1 _ r h1).trans <|
    (Cert.ReferenceIdeal.Cut.keep0 _ r h0)

end Cert.Bridge

end
-- ==== Proof.lean ====
/-
  The kernel program is four tiled dense-layer kernels — the node embedding with relu, the two graph layers' products
  (run with a zero bias row), and the fused two-layer edge network — joined by host operations: the two rows of the
  edge list, each graph layer's degree-normalised scatter-sum over the edges and self-loops with bias and relu, and the
  gather of both end points' features joined with the edge attributes. The reference computes the same network with
  plain products and the same host operations.

  Frames: the kernel program runs as sixteen segments, every unscoped buffer held at a known valuation between two of
  them; no segment writes an argument array. The reference is one line of host operations, none of which writes an
  argument.

  Values, over the extended reals: a change of float format is the identity and a tiled product into a zero
  accumulator is the plain sum, so every kernel region's result array is, entry by entry, what the reference's
  product, bias and relu give on the same operands; adding the zero bias row changes nothing; and the host operations
  between the regions are the same functions in both programs, applied to equal contents. The two results are equal
  entry by entry, with no appeal to finiteness of the inputs.
-/
import proofs.«147518_j83124797046831_1_alg».proof.Defs
import proofs.«147518_j83124797046831_1_alg».proof.Proof.Gen.Kernel
import proofs.«147518_j83124797046831_1_alg».proof.Proof.Gen.KernelIdeal
import proofs.«147518_j83124797046831_1_alg».proof.Proof.Gen.ReferenceIdeal
import proofs.«147518_j83124797046831_1_alg».proof.Proof.Gen.Pre_finite_inputs
import proofs.«147518_j83124797046831_1_alg».proof.Proof.K.Run
import proofs.«147518_j83124797046831_1_alg».proof.Proof.KI.Run
import proofs.«147518_j83124797046831_1_alg».proof.Proof.RefRun
import proofs.«147518_j83124797046831_1_alg».proof.Proof.Alg
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates without a fault and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the kernel program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference: none of its operations writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c Cert.ReferenceIdeal.main_arg0).trans (Cert.Bridge.ref_arg Cert.ReferenceIdeal.main_arg0 (by decide) (by decide) (by decide) (by decide) (by decide) (by decide) (by decide) (by decide) (by decide) (Idealize.ShloMosaic.StableHlo.launchContents m c)),
      (h c Cert.ReferenceIdeal.main_arg1).trans (Cert.Bridge.ref_arg Cert.ReferenceIdeal.main_arg1 (by decide) (by decide) (by decide) (by decide) (by decide) (by decide) (by decide) (by decide) (by decide) (Idealize.ShloMosaic.StableHlo.launchContents m c)),
      (h c Cert.ReferenceIdeal.main_arg2).trans (Cert.Bridge.ref_arg Cert.ReferenceIdeal.main_arg2 (by decide) (by decide) (by decide) (by decide) (by decide) (by decide) (by decide) (by decide) (by decide) (Idealize.ShloMosaic.StableHlo.launchContents m c)),
      (h c Cert.ReferenceIdeal.main_arg3).trans (Cert.Bridge.ref_arg Cert.ReferenceIdeal.main_arg3 (by decide) (by decide) (by decide) (by decide) (by decide) (by decide) (by decide) (by decide) (by decide) (Idealize.ShloMosaic.StableHlo.launchContents m c)),
      (h c Cert.ReferenceIdeal.main_arg4).trans (Cert.Bridge.ref_arg Cert.ReferenceIdeal.main_arg4 (by decide) (by decide) (by decide) (by decide) (by decide) (by decide) (by decide) (by decide) (by decide) (Idealize.ShloMosaic.StableHlo.launchContents m c)),
      (h c Cert.ReferenceIdeal.main_arg5).trans (Cert.Bridge.ref_arg Cert.ReferenceIdeal.main_arg5 (by decide) (by decide) (by decide) (by decide) (by decide) (by decide) (by decide) (by decide) (by decide) (Idealize.ShloMosaic.StableHlo.launchContents m c)),
      (h c Cert.ReferenceIdeal.main_arg6).trans (Cert.Bridge.ref_arg Cert.ReferenceIdeal.main_arg6 (by decide) (by decide) (by decide) (by decide) (by decide) (by decide) (by decide) (by decide) (by decide) (Idealize.ShloMosaic.StableHlo.launchContents m c)),
      (h c Cert.ReferenceIdeal.main_arg7).trans (Cert.Bridge.ref_arg Cert.ReferenceIdeal.main_arg7 (by decide) (by decide) (by decide) (by decide) (by decide) (by decide) (by decide) (by decide) (by decide) (Idealize.ShloMosaic.StableHlo.launchContents m c)),
      (h c Cert.ReferenceIdeal.main_arg8).trans (Cert.Bridge.ref_arg Cert.ReferenceIdeal.main_arg8 (by decide) (by decide) (by decide) (by decide) (by decide) (by decide) (by decide) (by decide) (by decide) (Idealize.ShloMosaic.StableHlo.launchContents m c)),
      (h c Cert.ReferenceIdeal.main_arg9).trans (Cert.Bridge.ref_arg Cert.ReferenceIdeal.main_arg9 (by decide) (by decide) (by decide) (by decide) (by decide) (by decide) (by decide) (by decide) (by decide) (Idealize.ShloMosaic.StableHlo.launchContents m c)),
      (h c Cert.ReferenceIdeal.main_arg10).trans (Cert.Bridge.ref_arg Cert.ReferenceIdeal.main_arg10 (by decide) (by decide) (by decide) (by decide) (by decide) (by decide) (by decide) (by decide) (by decide) (Idealize.ShloMosaic.StableHlo.launchContents m c)),
      (h c Cert.ReferenceIdeal.main_arg11).trans (Cert.Bridge.ref_arg Cert.ReferenceIdeal.main_arg11 (by decide) (by decide) (by decide) (by decide) (by decide) (by decide) (by decide) (by decide) (by decide) (Idealize.ShloMosaic.StableHlo.launchContents m c)),
      (h c Cert.ReferenceIdeal.main_arg12).trans (Cert.Bridge.ref_arg Cert.ReferenceIdeal.main_arg12 (by decide) (by decide) (by decide) (by decide) (by decide) (by decide) (by decide) (by decide) (by decide) (Idealize.ShloMosaic.StableHlo.launchContents m c))⟩)
    (Cert.ReferenceIdeal.ValueP.run (F := Ideal) m ρ)

/-- From memories agreeing on the arguments both programs end with the same result, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V16 m (Cert.KernelIdeal.Hand.outs m) c Cert.KernelIdeal.main_v110, ?_, ?_⟩
  · exact (θ_run Cert.KernelIdeal.defs _ _).mono (fun _ h c => ⟨h c _ (Cert.KernelIdeal.Hand.mem_uc Cert.KernelIdeal.main_v110 (by decide)),
      (h c _ (Cert.KernelIdeal.Hand.mem_uc Cert.KernelIdeal.main_arg0 (by decide))).trans (Cert.KernelIdeal.Gen.V16_main_arg0 m (Cert.KernelIdeal.Hand.outs m) c),
      (h c _ (Cert.KernelIdeal.Hand.mem_uc Cert.KernelIdeal.main_arg1 (by decide))).trans (Cert.KernelIdeal.Gen.V16_main_arg1 m (Cert.KernelIdeal.Hand.outs m) c),
      (h c _ (Cert.KernelIdeal.Hand.mem_uc Cert.KernelIdeal.main_arg2 (by decide))).trans (Cert.KernelIdeal.Gen.V16_main_arg2 m (Cert.KernelIdeal.Hand.outs m) c),
      (h c _ (Cert.KernelIdeal.Hand.mem_uc Cert.KernelIdeal.main_arg3 (by decide))).trans (Cert.KernelIdeal.Gen.V16_main_arg3 m (Cert.KernelIdeal.Hand.outs m) c),
      (h c _ (Cert.KernelIdeal.Hand.mem_uc Cert.KernelIdeal.main_arg4 (by decide))).trans (Cert.KernelIdeal.Gen.V16_main_arg4 m (Cert.KernelIdeal.Hand.outs m) c),
      (h c _ (Cert.KernelIdeal.Hand.mem_uc Cert.KernelIdeal.main_arg5 (by decide))).trans (Cert.KernelIdeal.Gen.V16_main_arg5 m (Cert.KernelIdeal.Hand.outs m) c),
      (h c _ (Cert.KernelIdeal.Hand.mem_uc Cert.KernelIdeal.main_arg6 (by decide))).trans (Cert.KernelIdeal.Gen.V16_main_arg6 m (Cert.KernelIdeal.Hand.outs m) c),
      (h c _ (Cert.KernelIdeal.Hand.mem_uc Cert.KernelIdeal.main_arg7 (by decide))).trans (Cert.KernelIdeal.Gen.V16_main_arg7 m (Cert.KernelIdeal.Hand.outs m) c),
      (h c _ (Cert.KernelIdeal.Hand.mem_uc Cert.KernelIdeal.main_arg8 (by decide))).trans (Cert.KernelIdeal.Gen.V16_main_arg8 m (Cert.KernelIdeal.Hand.outs m) c),
      (h c _ (Cert.KernelIdeal.Hand.mem_uc Cert.KernelIdeal.main_arg9 (by decide))).trans (Cert.KernelIdeal.Gen.V16_main_arg9 m (Cert.KernelIdeal.Hand.outs m) c),
      (h c _ (Cert.KernelIdeal.Hand.mem_uc Cert.KernelIdeal.main_arg10 (by decide))).trans (Cert.KernelIdeal.Gen.V16_main_arg10 m (Cert.KernelIdeal.Hand.outs m) c),
      (h c _ (Cert.KernelIdeal.Hand.mem_uc Cert.KernelIdeal.main_arg11 (by decide))).trans (Cert.KernelIdeal.Gen.V16_main_arg11 m (Cert.KernelIdeal.Hand.outs m) c),
      (h c _ (Cert.KernelIdeal.Hand.mem_uc Cert.KernelIdeal.main_arg12 (by decide))).trans (Cert.KernelIdeal.Gen.V16_main_arg12 m (Cert.KernelIdeal.Hand.outs m) c)⟩) (Cert.KernelIdeal.Hand.run_all (F := Ideal) m ρ)
  · exact (θ_run Cert.ReferenceIdeal.defs _ _).mono (fun _ h c => ⟨(h c Cert.ReferenceIdeal.main_v121).trans
        (Cert.Bridge.result_eq m m' c ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2⟩).symm,
      (h c Cert.ReferenceIdeal.main_arg0).trans (Cert.Bridge.ref_arg Cert.ReferenceIdeal.main_arg0 (by decide) (by decide) (by decide) (by decide) (by decide) (by decide) (by decide) (by decide) (by decide) (Idealize.ShloMosaic.StableHlo.launchContents m' c)),
      (h c Cert.ReferenceIdeal.main_arg1).trans (Cert.Bridge.ref_arg Cert.ReferenceIdeal.main_arg1 (by decide) (by decide) (by decide) (by decide) (by decide) (by decide) (by decide) (by decide) (by decide) (Idealize.ShloMosaic.StableHlo.launchContents m' c)),
      (h c Cert.ReferenceIdeal.main_arg2).trans (Cert.Bridge.ref_arg Cert.ReferenceIdeal.main_arg2 (by decide) (by decide) (by decide) (by decide) (by decide) (by decide) (by decide) (by decide) (by decide) (Idealize.ShloMosaic.StableHlo.launchContents m' c)),
      (h c Cert.ReferenceIdeal.main_arg3).trans (Cert.Bridge.ref_arg Cert.ReferenceIdeal.main_arg3 (by decide) (by decide) (by decide) (by decide) (by decide) (by decide) (by decide) (by decide) (by decide) (Idealize.ShloMosaic.StableHlo.launchContents m' c)),
      (h c Cert.ReferenceIdeal.main_arg4).trans (Cert.Bridge.ref_arg Cert.ReferenceIdeal.main_arg4 (by decide) (by decide) (by decide) (by decide) (by decide) (by decide) (by decide) (by decide) (by decide) (Idealize.ShloMosaic.StableHlo.launchContents m' c)),
      (h c Cert.ReferenceIdeal.main_arg5).trans (Cert.Bridge.ref_arg Cert.ReferenceIdeal.main_arg5 (by decide) (by decide) (by decide) (by decide) (by decide) (by decide) (by decide) (by decide) (by decide) (Idealize.ShloMosaic.StableHlo.launchContents m' c)),
      (h c Cert.ReferenceIdeal.main_arg6).trans (Cert.Bridge.ref_arg Cert.ReferenceIdeal.main_arg6 (by decide) (by decide) (by decide) (by decide) (by decide) (by decide) (by decide) (by decide) (by decide) (Idealize.ShloMosaic.StableHlo.launchContents m' c)),
      (h c Cert.ReferenceIdeal.main_arg7).trans (Cert.Bridge.ref_arg Cert.ReferenceIdeal.main_arg7 (by decide) (by decide) (by decide) (by decide) (by decide) (by decide) (by decide) (by decide) (by decide) (Idealize.ShloMosaic.StableHlo.launchContents m' c)),
      (h c Cert.ReferenceIdeal.main_arg8).trans (Cert.Bridge.ref_arg Cert.ReferenceIdeal.main_arg8 (by decide) (by decide) (by decide) (by decide) (by decide) (by decide) (by decide) (by decide) (by decide) (Idealize.ShloMosaic.StableHlo.launchContents m' c)),
      (h c Cert.ReferenceIdeal.main_arg9).trans (Cert.Bridge.ref_arg Cert.ReferenceIdeal.main_arg9 (by decide) (by decide) (by decide) (by decide) (by decide) (by decide) (by decide) (by decide) (by decide) (Idealize.ShloMosaic.StableHlo.launchContents m' c)),
      (h c Cert.ReferenceIdeal.main_arg10).trans (Cert.Bridge.ref_arg Cert.ReferenceIdeal.main_arg10 (by decide) (by decide) (by decide) (by decide) (by decide) (by decide) (by decide) (by decide) (by decide) (Idealize.ShloMosaic.StableHlo.launchContents m' c)),
      (h c Cert.ReferenceIdeal.main_arg11).trans (Cert.Bridge.ref_arg Cert.ReferenceIdeal.main_arg11 (by decide) (by decide) (by decide) (by decide) (by decide) (by decide) (by decide) (by decide) (by decide) (Idealize.ShloMosaic.StableHlo.launchContents m' c)),
      (h c Cert.ReferenceIdeal.main_arg12).trans (Cert.Bridge.ref_arg Cert.ReferenceIdeal.main_arg12 (by decide) (by decide) (by decide) (by decide) (by decide) (by decide) (by decide) (by decide) (by decide) (Idealize.ShloMosaic.StableHlo.launchContents m' c))⟩) (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
